-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S2x3200000 : Shape := ⟨2, ![2, 3200000]⟩
abbrev S100000 : Shape := ⟨1, ![100000]⟩
abbrev S13x64 : Shape := ⟨2, ![13, 64]⟩
abbrev S64 : Shape := ⟨1, ![64]⟩
abbrev S4x64x64 : Shape := ⟨3, ![4, 64, 64]⟩
abbrev S4x64 : Shape := ⟨2, ![4, 64]⟩
abbrev S64x72 : Shape := ⟨2, ![64, 72]⟩
abbrev S72 : Shape := ⟨1, ![72]⟩
abbrev S72x36 : Shape := ⟨2, ![72, 36]⟩
abbrev S36 : Shape := ⟨1, ![36]⟩
abbrev S36x1 : Shape := ⟨2, ![36, 1]⟩
abbrev S1 : Shape := ⟨1, ![1]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S13x64 : S_.BroadcastsInDim S13x64 (![] : Fin 0 → Fin S13x64.rank)
  reducesTo_S13x64_S_d0_1 : S13x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x72 : S_.BroadcastsInDim S64x72 (![] : Fin 0 → Fin S64x72.rank)
  reducesTo_S64x72_S_d0_1 : S64x72.ReducesTo [0, 1] S_
  bcast_S_S72 : S_.BroadcastsInDim S72 (![] : Fin 0 → Fin S72.rank)
  reducesTo_S72_S_d0 : S72.ReducesTo [0] S_
  bcast_S_S72x36 : S_.BroadcastsInDim S72x36 (![] : Fin 0 → Fin S72x36.rank)
  reducesTo_S72x36_S_d0_1 : S72x36.ReducesTo [0, 1] S_
  bcast_S_S36 : S_.BroadcastsInDim S36 (![] : Fin 0 → Fin S36.rank)
  reducesTo_S36_S_d0 : S36.ReducesTo [0] S_
  bcast_S_S36x1 : S_.BroadcastsInDim S36x1 (![] : Fin 0 → Fin S36x1.rank)
  reducesTo_S36x1_S_d0_1 : S36x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S36x1 .f32) (main_v50 : FVec F S36x1 .f32) : IVec S_ 1 :=
  let main_v51 : IVec S36x1 1 := cmpf .olt main_v49 main_v50
  let main_c_19 : IVec S_ 1 := constantI S_ 1 1#1
  let main_v52 : IVec S_ 1 := (fun x v => Host.reduce IntOp.andi x v reducesTo_S36x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S72 .f32) (main_arg10 : FVec F S72x36 .f32) (main_arg11 : FVec F S36 .f32) (main_arg12 : FVec F S36x1 .f32) (main_arg13 : FVec F S1 .f32) (main_v33 : IVec S_ 1) : IVec S_ 1 :=
  let main_v34 : FVec F S72 .f32 := Host.absf main_arg9
  let main_cst_12 : FVec F S_ .f32 := constant S_ .f32 0x7F800000#32
  let main_v35 : FVec F S72 .f32 := broadcastInDim S72 ![] bcast_S_S72 main_cst_12
  let main_v36 : IVec S72 1 := cmpf .olt main_v34 main_v35
  let main_c_13 : IVec S_ 1 := constantI S_ 1 1#1
  let main_v37 : IVec S_ 1 := (fun x v => Host.reduce IntOp.andi x v reducesTo_S72_S_d0 h_S_) main_v36 main_c_13
  let main_v38 : IVec S_ 1 := andi main_v33 main_v37
  let main_v39 : FVec F S72x36 .f32 := Host.absf main_arg10
  let main_cst_14 : FVec F S_ .f32 := constant S_ .f32 0x7F800000#32
  let main_v40 : FVec F S72x36 .f32 := broadcastInDim S72x36 ![] bcast_S_S72x36 main_cst_14
  let main_v41 : IVec S72x36 1 := cmpf .olt main_v39 main_v40
  let main_c_15 : IVec S_ 1 := constantI S_ 1 1#1
  let main_v42 : IVec S_ 1 := (fun x v => Host.reduce IntOp.andi x v reducesTo_S72x36_S_d0_1 h_S_) main_v41 main_c_15
  let main_v43 : IVec S_ 1 := andi main_v38 main_v42
  let main_v44 : FVec F S36 .f32 := Host.absf main_arg11
  let main_cst_16 : FVec F S_ .f32 := constant S_ .f32 0x7F800000#32
  let main_v45 : FVec F S36 .f32 := broadcastInDim S36 ![] bcast_S_S36 main_cst_16
  let main_v46 : IVec S36 1 := cmpf .olt main_v44 main_v45
  let main_c_17 : IVec S_ 1 := constantI S_ 1 1#1
  let main_v47 : IVec S_ 1 := (fun x v => Host.reduce IntOp.andi x v reducesTo_S36_S_d0 h_S_) main_v46 main_c_17
  let main_v48 : IVec S_ 1 := andi main_v43 main_v47
  let main_v49 : FVec F S36x1 .f32 := Host.absf main_arg12
  let main_cst_18 : FVec F S_ .f32 := constant S_ .f32 0x7F800000#32
  let main_v50 : FVec F S36x1 .f32 := broadcastInDim S36x1 ![] bcast_S_S36x1 main_cst_18
  fn_part3 (F := F) main_arg13 main_v48 main_v49 main_v50

def fn_part1 {F : FTy → Type} [FloatOps F] (main_arg6 : FVec F S4x64x64 .f32) (main_arg7 : FVec F S4x64 .f32) (main_arg8 : FVec F S64x72 .f32) (main_arg9 : FVec F S72 .f32) (main_arg10 : FVec F S72x36 .f32) (main_arg11 : FVec F S36 .f32) (main_arg12 : FVec F S36x1 .f32) (main_arg13 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64x64 .f32 := Host.absf main_arg6
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64x72 .f32 := Host.absf main_arg8
  let main_cst_10 : FVec F S_ .f32 := constant S_ .f32 0x7F800000#32
  let main_v30 : FVec F S64x72 .f32 := broadcastInDim S64x72 ![] bcast_S_S64x72 main_cst_10
  let main_v31 : IVec S64x72 1 := cmpf .olt main_v29 main_v30
  let main_c_11 : IVec S_ 1 := constantI S_ 1 1#1
  let main_v32 : IVec S_ 1 := (fun x v => Host.reduce IntOp.andi x v reducesTo_S64x72_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x13 .f32) (main_arg1 : IVec S2x3200000 32) (main_arg2 : IVec S100000 32) (main_arg3 : FVec F S13x64 .f32) (main_arg4 : FVec F S64 .f32) (main_arg5 : FVec F S4x64x64 .f32) (main_arg6 : FVec F S4x64x64 .f32) (main_arg7 : FVec F S4x64 .f32) (main_arg8 : FVec F S64x72 .f32) (main_arg9 : FVec F S72 .f32) (main_arg10 : FVec F S72x36 .f32) (main_arg11 : FVec F S36 .f32) (main_arg12 : FVec F S36x1 .f32) (main_arg13 : FVec F S1 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S13x64 .f32 := Host.absf main_arg3
  let main_cst_0 : FVec F S_ .f32 := constant S_ .f32 0x7F800000#32
  let main_v5 : FVec F S13x64 .f32 := broadcastInDim S13x64 ![] bcast_S_S13x64 main_cst_0
  let main_v6 : IVec S13x64 1 := cmpf .olt main_v4 main_v5
  let main_c_1 : IVec S_ 1 := constantI S_ 1 1#1
  let main_v7 : IVec S_ 1 := (fun x v => Host.reduce IntOp.andi x v reducesTo_S13x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg5
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg6 main_arg7 main_arg8 main_arg9 main_arg10 main_arg11 main_arg12 main_arg13 main_v13 main_v16
-- ==== Kernel.lean ====
abbrev S100000x13 : Shape := ⟨2, ![100000, 13]⟩
abbrev S2x3200000 : Shape := ⟨2, ![2, 3200000]⟩
abbrev S100000 : Shape := ⟨1, ![100000]⟩
abbrev S13x64 : Shape := ⟨2, ![13, 64]⟩
abbrev S64 : Shape := ⟨1, ![64]⟩
abbrev S4x64x64 : Shape := ⟨3, ![4, 64, 64]⟩
abbrev S4x64 : Shape := ⟨2, ![4, 64]⟩
abbrev S64x72 : Shape := ⟨2, ![64, 72]⟩
abbrev S72 : Shape := ⟨1, ![72]⟩
abbrev S72x36 : Shape := ⟨2, ![72, 36]⟩
abbrev S36 : Shape := ⟨1, ![36]⟩
abbrev S36x1 : Shape := ⟨2, ![36, 1]⟩
abbrev S1 : Shape := ⟨1, ![1]⟩
abbrev S1x3200000 : Shape := ⟨2, ![1, 3200000]⟩
abbrev S3200000 : Shape := ⟨1, ![3200000]⟩
abbrev S1x64 : Shape := ⟨2, ![1, 64]⟩
abbrev S100000x64 : Shape := ⟨2, ![100000, 64]⟩
abbrev S10000x13 : Shape := ⟨2, ![10000, 13]⟩
abbrev S10000x64 : Shape := ⟨2, ![10000, 64]⟩
abbrev S_ : Shape := ⟨0, ![]⟩
abbrev S3200000x1 : Shape := ⟨2, ![3200000, 1]⟩
abbrev S3200000x64 : Shape := ⟨2, ![3200000, 64]⟩
abbrev S1x64x64 : Shape := ⟨3, ![1, 64, 64]⟩
abbrev S64x64 : Shape := ⟨2, ![64, 64]⟩
abbrev S1024x64 : Shape := ⟨2, ![1024, 64]⟩
abbrev S100000x1 : Shape := ⟨2, ![100000, 1]⟩
abbrev S1024x1 : Shape := ⟨2, ![1024, 1]⟩
abbrev S1x72 : Shape := ⟨2, ![1, 72]⟩
abbrev S1x36 : Shape := ⟨2, ![1, 36]⟩
abbrev S1x1 : Shape := ⟨2, ![1, 1]⟩
abbrev S1024x72 : Shape := ⟨2, ![1024, 72]⟩
abbrev S1024x36 : Shape := ⟨2, ![1024, 36]⟩

abbrev nBuf : Space → Nat
  | .hbm => 118
  | .vmem => 51
  | .smem => 0
  | _ => 0

abbrev bufTy : (tb : Table) → Fin (tcTables nBuf tb) → BufTy
  | .hbm, ⟨0, _⟩ => ⟨S100000x13, .f32⟩
  | .hbm, ⟨1, _⟩ => ⟨S2x3200000, .i32⟩
  | .hbm, ⟨2, _⟩ => ⟨S100000, .i32⟩
  | .hbm, ⟨3, _⟩ => ⟨S13x64, .f32⟩
  | .hbm, ⟨4, _⟩ => ⟨S64, .f32⟩
  | .hbm, ⟨5, _⟩ => ⟨S4x64x64, .f32⟩
  | .hbm, ⟨6, _⟩ => ⟨S4x64x64, .f32⟩
  | .hbm, ⟨7, _⟩ => ⟨S4x64, .f32⟩
  | .hbm, ⟨8, _⟩ => ⟨S64x72, .f32⟩
  | .hbm, ⟨9, _⟩ => ⟨S72, .f32⟩
  | .hbm, ⟨10, _⟩ => ⟨S72x36, .f32⟩
  | .hbm, ⟨11, _⟩ => ⟨S36, .f32⟩
  | .hbm, ⟨12, _⟩ => ⟨S36x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S1x64, .f32⟩
  | .hbm, ⟨19, _⟩ => ⟨S100000x64, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x64, .f32⟩
  | .hbm, ⟨29, _⟩ => ⟨S_, .f32⟩
  | .hbm, ⟨30, _⟩ => ⟨S100000x64, .f32⟩
  | .hbm, ⟨31, _⟩ => ⟨S3200000x1, .i32⟩
  | .hbm, ⟨32, _⟩ => ⟨S100000x64, .f32⟩
  | .hbm, ⟨33, _⟩ => ⟨S1x64x64, .f32⟩
  | .hbm, ⟨34, _⟩ => ⟨S64x64, .f32⟩
  | .hbm, ⟨35, _⟩ => ⟨S1x64x64, .f32⟩
  | .hbm, ⟨36, _⟩ => ⟨S64x64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x64, .f32⟩
  | .hbm, ⟨50, _⟩ => ⟨S_, .f32⟩
  | .hbm, ⟨51, _⟩ => ⟨S100000x64, .f32⟩
  | .hbm, ⟨52, _⟩ => ⟨S3200000x1, .i32⟩
  | .hbm, ⟨53, _⟩ => ⟨S100000x64, .f32⟩
  | .hbm, ⟨54, _⟩ => ⟨S1x64x64, .f32⟩
  | .hbm, ⟨55, _⟩ => ⟨S64x64, .f32⟩
  | .hbm, ⟨56, _⟩ => ⟨S1x64x64, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S100000x64, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x64, .f32⟩
  | .hbm, ⟨71, _⟩ => ⟨S_, .f32⟩
  | .hbm, ⟨72, _⟩ => ⟨S100000x64, .f32⟩
  | .hbm, ⟨73, _⟩ => ⟨S3200000x1, .i32⟩
  | .hbm, ⟨74, _⟩ => ⟨S100000x64, .f32⟩
  | .hbm, ⟨75, _⟩ => ⟨S1x64x64, .f32⟩
  | .hbm, ⟨76, _⟩ => ⟨S64x64, .f32⟩
  | .hbm, ⟨77, _⟩ => ⟨S1x64x64, .f32⟩
  | .hbm, ⟨78, _⟩ => ⟨S64x64, .f32⟩
  | .hbm, ⟨79, _⟩ => ⟨S1x64, .f32⟩
  | .hbm, ⟨80, _⟩ => ⟨S64, .f32⟩
  | .hbm, ⟨81, _⟩ => ⟨S1x64, .f32⟩
  | .hbm, ⟨82, _⟩ => ⟨S100000x64, .f32⟩
  | .hbm, ⟨83, _⟩ => ⟨S_, .i32⟩
  | .hbm, ⟨84, _⟩ => ⟨S3200000, .i32⟩
  | .hbm, ⟨85, _⟩ => ⟨S3200000, .i1⟩
  | .hbm, ⟨86, _⟩ => ⟨S_, .i32⟩
  | .hbm, ⟨87, _⟩ => ⟨S3200000, .i32⟩
  | .hbm, ⟨88, _⟩ => ⟨S3200000, .i32⟩
  | .hbm, ⟨89, _⟩ => ⟨S3200000, .i32⟩
  | .hbm, ⟨90, _⟩ => ⟨S3200000x1, .i32⟩
  | .hbm, ⟨91, _⟩ => ⟨S3200000x64, .f32⟩
  | .hbm, ⟨92, _⟩ => ⟨S_, .f32⟩
  | .hbm, ⟨93, _⟩ => ⟨S100000x64, .f32⟩
  | .hbm, ⟨94, _⟩ => ⟨S3200000x1, .i32⟩
  | .hbm, ⟨95, _⟩ => ⟨S100000x64, .f32⟩
  | .hbm, ⟨96, _⟩ => ⟨S1x64x64, .f32⟩
  | .hbm, ⟨97, _⟩ => ⟨S64x64, .f32⟩
  | .hbm, ⟨98, _⟩ => ⟨S1x64x64, .f32⟩
  | .hbm, ⟨99, _⟩ => ⟨S64x64, .f32⟩
  | .hbm, ⟨100, _⟩ => ⟨S1x64, .f32⟩
  | .hbm, ⟨101, _⟩ => ⟨S64, .f32⟩
  | .hbm, ⟨102, _⟩ => ⟨S1x64, .f32⟩
  | .hbm, ⟨103, _⟩ => ⟨S100000x64, .f32⟩
  | .hbm, ⟨104, _⟩ => ⟨S_, .f32⟩
  | .hbm, ⟨105, _⟩ => ⟨S1024x64, .f32⟩
  | .hbm, ⟨106, _⟩ => ⟨S100000x1, .i32⟩
  | .hbm, ⟨107, _⟩ => ⟨S1024x64, .f32⟩
  | .hbm, ⟨108, _⟩ => ⟨S_, .f32⟩
  | .hbm, ⟨109, _⟩ => ⟨S100000x1, .f32⟩
  | .hbm, ⟨110, _⟩ => ⟨S_, .f32⟩
  | .hbm, ⟨111, _⟩ => ⟨S1024x1, .f32⟩
  | .hbm, ⟨112, _⟩ => ⟨S100000x1, .i32⟩
  | .hbm, ⟨113, _⟩ => ⟨S1024x1, .f32⟩
  | .hbm, ⟨114, _⟩ => ⟨S1x72, .f32⟩
  | .hbm, ⟨115, _⟩ => ⟨S1x36, .f32⟩
  | .hbm, ⟨116, _⟩ => ⟨S1x1, .f32⟩
  | .hbm, ⟨117, _⟩ => ⟨S1024x1, .f32⟩
  | .local _ .vmem, ⟨0, _⟩ => ⟨S10000x13, .f32⟩
  | .local _ .vmem, ⟨1, _⟩ => ⟨S10000x13, .f32⟩
  | .local _ .vmem, ⟨2, _⟩ => ⟨S13x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S1024x64, .f32⟩
  | .local _ .vmem, ⟨43, _⟩ => ⟨S1024x1, .f32⟩
  | .local _ .vmem, ⟨44, _⟩ => ⟨S64x72, .f32⟩
  | .local _ .vmem, ⟨45, _⟩ => ⟨S1x72, .f32⟩
  | .local _ .vmem, ⟨46, _⟩ => ⟨S72x36, .f32⟩
  | .local _ .vmem, ⟨47, _⟩ => ⟨S1x36, .f32⟩
  | .local _ .vmem, ⟨48, _⟩ => ⟨S36x1, .f32⟩
  | .local _ .vmem, ⟨49, _⟩ => ⟨S1x1, .f32⟩
  | .local _ .vmem, ⟨50, _⟩ => ⟨S1024x1, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_7 : Ref sig .tc := ⟨.hbm, 83, rfl⟩
abbrev main_v60 : Ref sig .tc := ⟨.hbm, 84, rfl⟩
abbrev main_v61 : Ref sig .tc := ⟨.hbm, 85, rfl⟩
abbrev main_c_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc5_stg7_0 : Ref sig .tc := ⟨.vmem, 49, rfl⟩
abbrev cc5_stg8_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem1_0 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem7_0 : DmaSem sig := 49
abbrev cc5_sem8_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1024x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1024x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x72 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x72 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S72x36 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x36 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S36x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1024x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S64_S1x64 : S64.ShapeCasts S1x64
  inb_S10000x13_S10000x13_0_0 : ∀ a, (![0, 0] : Fin 2 → Nat) a + S10000x13.size a ≤ S10000x13.size a
  h_S10000x13 : 0 < S10000x13.numel
  inb_S13x64_S13x64_0_0 : ∀ a, (![0, 0] : Fin 2 → Nat) a + S13x64.size a ≤ S13x64.size a
  h_S13x64 : 0 < S13x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1024x1 : S_.BroadcastsInDim S1024x1 (![] : Fin 0 → Fin S1024x1.rank)
  shapeCasts_S72_S1x72 : S72.ShapeCasts S1x72
  shapeCasts_S36_S1x36 : S36.ShapeCasts S1x36
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S64x72_S64x72_0_0 : ∀ a, (![0, 0] : Fin 2 → Nat) a + S64x72.size a ≤ S64x72.size a
  h_S64x72 : 0 < S64x72.numel
  inb_S1x72_S1x72_0_0 : ∀ a, (![0, 0] : Fin 2 → Nat) a + S1x72.size a ≤ S1x72.size a
  h_S1x72 : 0 < S1x72.numel
  shapeCasts_S1x72_S1x72 : S1x72.ShapeCasts S1x72
  inb_S72x36_S72x36_0_0 : ∀ a, (![0, 0] : Fin 2 → Nat) a + S72x36.size a ≤ S72x36.size a
  h_S72x36 : 0 < S72x36.numel
  inb_S1x36_S1x36_0_0 : ∀ a, (![0, 0] : Fin 2 → Nat) a + S1x36.size a ≤ S1x36.size a
  h_S1x36 : 0 < S1x36.numel
  shapeCasts_S1x36_S1x36 : S1x36.ShapeCasts S1x36
  inb_S36x1_S36x1_0_0 : ∀ a, (![0, 0] : Fin 2 → Nat) a + S36x1.size a ≤ S36x1.size a
  h_S36x1 : 0 < S36x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1024x1_S1024x64 : S1024x1.Broadcasts S1024x64
  broadcasts_S1x72_S1024x72 : S1x72.Broadcasts S1024x72
  broadcasts_S1x36_S1024x36 : S1x36.Broadcasts S1024x36
  broadcasts_S1x1_S1024x1 : S1x1.Broadcasts S1024x1
  dot_S10000x13_S13x64_S10000x64_1_0_0_1_n_n_wf : DotDims.WF S10000x13 S13x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S1024x64_S100000x1_S100000x64_1_0_0_1_wf : ScatterDims.WF S1024x64 S100000x1 S100000x64 [1] [0] [0] 1
  scatter_S1024x1_S100000x1_S100000x1_1_0_0_1_wf : ScatterDims.WF S1024x1 S100000x1 S100000x1 [1] [0] [0] 1
  dot_S1024x64_S64x72_S1024x72_1_0_0_1_n_n_wf : DotDims.WF S1024x64 S64x72 S1024x72 [1] [0] [0] [1] [] []
  dot_S1024x72_S72x36_S1024x36_1_0_0_1_n_n_wf : DotDims.WF S1024x72 S72x36 S1024x36 [1] [0] [0] [1] [] []
  dot_S1024x36_S36x1_S1024x1_1_0_0_1_n_n_wf : DotDims.WF S1024x36 S36x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x13.size a ≤ S100000x13.size a
  hwx0_0 : ∀ i : grid0.Coords, EltTy.bits .f32 = 32 ∨ (Rect.block (s := S100000x13) S10000x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x64.size a ≤ S13x64.size a
  hwx0_1 : ∀ i : grid0.Coords, EltTy.bits .f32 = 32 ∨ (Rect.block (s := S13x64) S13x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1024x64.size a ≤ S1024x64.size a
  hwx5_0 : ∀ i : grid5.Coords, EltTy.bits .f32 = 32 ∨ (Rect.block (s := S1024x64) S1024x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1.size a ≤ S1024x1.size a
  hwx5_1 : ∀ i : grid5.Coords, EltTy.bits .f32 = 32 ∨ (Rect.block (s := S1024x1) S1024x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x72.size a ≤ S64x72.size a
  hwx5_2 : ∀ i : grid5.Coords, EltTy.bits .f32 = 32 ∨ (Rect.block (s := S64x72) S64x72.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x72.size a ≤ S1x72.size a
  hwx5_3 : ∀ i : grid5.Coords, EltTy.bits .f32 = 32 ∨ (Rect.block (s := S1x72) S1x72.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S72x36.size a ≤ S72x36.size a
  hwx5_4 : ∀ i : grid5.Coords, EltTy.bits .f32 = 32 ∨ (Rect.block (s := S72x36) S72x36.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x36.size a ≤ S1x36.size a
  hwx5_5 : ∀ i : grid5.Coords, EltTy.bits .f32 = 32 ∨ (Rect.block (s := S1x36) S1x36.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S36x1.size a ≤ S36x1.size a
  hwx5_6 : ∀ i : grid5.Coords, EltTy.bits .f32 = 32 ∨ (Rect.block (s := S36x1) S36x1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x1.size a ≤ S1x1.size a
  hwx5_7 : ∀ i : grid5.Coords, EltTy.bits .f32 = 32 ∨ (Rect.block (s := S1x1) S1x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1024x1.size a ≤ S1024x1.size a
  hwx5_8 : ∀ i : grid5.Coords, EltTy.bits .f32 = 32 ∨ (Rect.block (s := S1024x1) S1024x1.size (cc5_transform_8 i) (hinb5_8 i)).WholeWords (EltTy.packing .f32)

variable [Facts₀]

def dot_S10000x13_S13x64_S10000x64_1_0_0_1_n_n : DotDims S10000x13 S13x64 S10000x64 where
  lhsContracting := [1]
  rhsContracting := [0]
  lhsNonContracting := [0]
  rhsNonContracting := [1]
  lhsBatch := []
  rhsBatch := []
  wf := dot_S10000x13_S13x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024x1_S100000x1_S100000x1_1_0_0_1 : ScatterDims S1024x1 S100000x1 S100000x1 where
  updateWindowDims := [1]
  insertedWindowDims := [0]
  scatterDimsToOperandDims := [0]
  indexVectorDim := 1
  wf := scatter_S1024x1_S100000x1_S100000x1_1_0_0_1_wf
def dot_S1024x64_S64x72_S1024x72_1_0_0_1_n_n : DotDims S1024x64 S64x72 S1024x72 where
  lhsContracting := [1]
  rhsContracting := [0]
  lhsNonContracting := [0]
  rhsNonContracting := [1]
  lhsBatch := []
  rhsBatch := []
  wf := dot_S1024x64_S64x72_S1024x72_1_0_0_1_n_n_wf
def dot_S1024x72_S72x36_S1024x36_1_0_0_1_n_n : DotDims S1024x72 S72x36 S1024x36 where
  lhsContracting := [1]
  rhsContracting := [0]
  lhsNonContracting := [0]
  rhsNonContracting := [1]
  lhsBatch := []
  rhsBatch := []
  wf := dot_S1024x72_S72x36_S1024x36_1_0_0_1_n_n_wf
def dot_S1024x36_S36x1_S1024x1_1_0_0_1_n_n : DotDims S1024x36 S36x1 S1024x1 where
  lhsContracting := [1]
  rhsContracting := [0]
  lhsNonContracting := [0]
  rhsNonContracting := [1]
  lhsBatch := []
  rhsBatch := []
  wf := dot_S1024x36_S36x1_S1024x1_1_0_0_1_n_n_wf

abbrev win0_0 : Pipeline.Window sig grid0 :=
  Pipeline.Window.ofSpec (Memref.whole main_arg0) S10000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S13x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v80) S1024x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1024x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S64x72.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x72.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg10) S72x36.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x36.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg12) S36x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v87) S1x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v88) S1024x1.size cc5_transform_8 reads5_8 true true 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S100000x13 : Shape := ⟨2, ![100000, 13]⟩
abbrev S2x3200000 : Shape := ⟨2, ![2, 3200000]⟩
abbrev S100000 : Shape := ⟨1, ![100000]⟩
abbrev S13x64 : Shape := ⟨2, ![13, 64]⟩
abbrev S64 : Shape := ⟨1, ![64]⟩
abbrev S4x64x64 : Shape := ⟨3, ![4, 64, 64]⟩
abbrev S4x64 : Shape := ⟨2, ![4, 64]⟩
abbrev S64x72 : Shape := ⟨2, ![64, 72]⟩
abbrev S72 : Shape := ⟨1, ![72]⟩
abbrev S72x36 : Shape := ⟨2, ![72, 36]⟩
abbrev S36 : Shape := ⟨1, ![36]⟩
abbrev S36x1 : Shape := ⟨2, ![36, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S1x64 : Shape := ⟨2, ![1, 64]⟩
abbrev S_ : Shape := ⟨0, ![]⟩
abbrev S3200000x1 : Shape := ⟨2, ![3200000, 1]⟩
abbrev S3200000x64 : Shape := ⟨2, ![3200000, 64]⟩
abbrev S1x64x64 : Shape := ⟨3, ![1, 64, 64]⟩
abbrev S64x64 : Shape := ⟨2, ![64, 64]⟩
abbrev S1024x64 : Shape := ⟨2, ![1024, 64]⟩
abbrev S100000x1 : Shape := ⟨2, ![100000, 1]⟩
abbrev S1024x1 : Shape := ⟨2, ![1024, 1]⟩
abbrev S1024x72 : Shape := ⟨2, ![1024, 72]⟩
abbrev S1x72 : Shape := ⟨2, ![1, 72]⟩
abbrev S1024x36 : Shape := ⟨2, ![1024, 36]⟩
abbrev S1x36 : Shape := ⟨2, ![1, 36]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S100000x13, .f32⟩
  | 1 => ⟨S2x3200000, .i32⟩
  | 2 => ⟨S100000, .i32⟩
  | 3 => ⟨S13x64, .f32⟩
  | 4 => ⟨S64, .f32⟩
  | 5 => ⟨S4x64x64, .f32⟩
  | 6 => ⟨S4x64x64, .f32⟩
  | 7 => ⟨S4x64, .f32⟩
  | 8 => ⟨S64x72, .f32⟩
  | 9 => ⟨S72, .f32⟩
  | 10 => ⟨S72x36, .f32⟩
  | 11 => ⟨S36, .f32⟩
  | 12 => ⟨S36x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .i1⟩
  | 25 => ⟨S_, .f32⟩
  | 26 => ⟨S100000x64, .f32⟩
  | 27 => ⟨S100000x64, .f32⟩
  | 28 => ⟨S100000x64, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S3200000x64, .f32⟩
  | 38 => ⟨S_, .f32⟩
  | 39 => ⟨S100000x64, .f32⟩
  | 40 => ⟨S3200000x1, .i32⟩
  | 41 => ⟨S100000x64, .f32⟩
  | 42 => ⟨S1x64x64, .f32⟩
  | 43 => ⟨S64x64, .f32⟩
  | 44 => ⟨S100000x64, .f32⟩
  | 45 => ⟨S1x64x64, .f32⟩
  | 46 => ⟨S64x64, .f32⟩
  | 47 => ⟨S100000x64, .f32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .i1⟩
  | 57 => ⟨S_, .f32⟩
  | 58 => ⟨S100000x64, .f32⟩
  | 59 => ⟨S100000x64, .f32⟩
  | 60 => ⟨S100000x64, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x64, .f32⟩
  | 70 => ⟨S_, .f32⟩
  | 71 => ⟨S100000x64, .f32⟩
  | 72 => ⟨S3200000x1, .i32⟩
  | 73 => ⟨S100000x64, .f32⟩
  | 74 => ⟨S1x64x64, .f32⟩
  | 75 => ⟨S64x64, .f32⟩
  | 76 => ⟨S100000x64, .f32⟩
  | 77 => ⟨S1x64x64, .f32⟩
  | 78 => ⟨S64x64, .f32⟩
  | 79 => ⟨S100000x64, .f32⟩
  | 80 => ⟨S100000x64, .f32⟩
  | 81 => ⟨S1x64, .f32⟩
  | 82 => ⟨S64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .i1⟩
  | 89 => ⟨S_, .f32⟩
  | 90 => ⟨S100000x64, .f32⟩
  | 91 => ⟨S100000x64, .f32⟩
  | 92 => ⟨S100000x64, .f32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S3200000x64, .f32⟩
  | 102 => ⟨S_, .f32⟩
  | 103 => ⟨S100000x64, .f32⟩
  | 104 => ⟨S3200000x1, .i32⟩
  | 105 => ⟨S100000x64, .f32⟩
  | 106 => ⟨S1x64x64, .f32⟩
  | 107 => ⟨S64x64, .f32⟩
  | 108 => ⟨S100000x64, .f32⟩
  | 109 => ⟨S1x64x64, .f32⟩
  | 110 => ⟨S64x64, .f32⟩
  | 111 => ⟨S100000x64, .f32⟩
  | 112 => ⟨S100000x64, .f32⟩
  | 113 => ⟨S1x64, .f32⟩
  | 114 => ⟨S64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .i1⟩
  | 121 => ⟨S_, .f32⟩
  | 122 => ⟨S100000x64, .f32⟩
  | 123 => ⟨S100000x64, .f32⟩
  | 124 => ⟨S100000x64, .f32⟩
  | 125 => ⟨S_, .i32⟩
  | 126 => ⟨S3200000, .i32⟩
  | 127 => ⟨S3200000, .i1⟩
  | _ => ⟨S100000x13, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x64, .f32⟩
  | 6 => ⟨S_, .f32⟩
  | 7 => ⟨S100000x64, .f32⟩
  | 8 => ⟨S3200000x1, .i32⟩
  | 9 => ⟨S100000x64, .f32⟩
  | 10 => ⟨S1x64x64, .f32⟩
  | 11 => ⟨S64x64, .f32⟩
  | 12 => ⟨S100000x64, .f32⟩
  | 13 => ⟨S1x64x64, .f32⟩
  | 14 => ⟨S64x64, .f32⟩
  | 15 => ⟨S100000x64, .f32⟩
  | 16 => ⟨S100000x64, .f32⟩
  | 17 => ⟨S1x64, .f32⟩
  | 18 => ⟨S64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .i1⟩
  | 25 => ⟨S_, .f32⟩
  | 26 => ⟨S100000x64, .f32⟩
  | 27 => ⟨S100000x64, .f32⟩
  | 28 => ⟨S100000x64, .f32⟩
  | 29 => ⟨S_, .f32⟩
  | 30 => ⟨S1024x64, .f32⟩
  | 31 => ⟨S100000x1, .i32⟩
  | 32 => ⟨S1024x64, .f32⟩
  | 33 => ⟨S_, .f32⟩
  | 34 => ⟨S100000x1, .f32⟩
  | 35 => ⟨S_, .f32⟩
  | 36 => ⟨S1024x1, .f32⟩
  | 37 => ⟨S100000x1, .i32⟩
  | 38 => ⟨S1024x1, .f32⟩
  | 39 => ⟨S_, .f32⟩
  | 40 => ⟨S1024x1, .f32⟩
  | 41 => ⟨S1024x1, .f32⟩
  | 42 => ⟨S1024x64, .f32⟩
  | 43 => ⟨S1024x64, .f32⟩
  | 44 => ⟨S1024x72, .f32⟩
  | 45 => ⟨S1x72, .f32⟩
  | 46 => ⟨S1024x72, .f32⟩
  | 47 => ⟨S1024x72, .f32⟩
  | 48 => ⟨S1024x36, .f32⟩
  | 49 => ⟨S1x36, .f32⟩
  | 50 => ⟨S1024x36, .f32⟩
  | 51 => ⟨S1024x36, .f32⟩
  | 52 => ⟨S_, .f32⟩
  | 53 => ⟨S1024x36, .f32⟩
  | 54 => ⟨S1024x36, .i1⟩
  | 55 => ⟨S_, .f32⟩
  | 56 => ⟨S1024x36, .f32⟩
  | 57 => ⟨S1024x36, .f32⟩
  | 58 => ⟨S1024x36, .f32⟩
  | 59 => ⟨S1024x1, .f32⟩
  | 60 => ⟨S1x1, .f32⟩
  | 61 => ⟨S1024x1, .f32⟩
  | 62 => ⟨S1024x1, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_v31 : Ref sig .tc := ⟨.hbm, 60, rfl⟩
abbrev main_c_1 : Ref sig .tc := ⟨.hbm, 61, rfl⟩
abbrev main_v32 : Ref sig .tc := ⟨.hbm, 62, rfl⟩
abbrev main_v33 : Ref sig .tc := ⟨.hbm, 63, rfl⟩
abbrev main_c_2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_v54 : Ref sig .tc := ⟨.hbm, 92, rfl⟩
abbrev main_c_4 : Ref sig .tc := ⟨.hbm, 93, rfl⟩
abbrev main_v55 : Ref sig .tc := ⟨.hbm, 94, rfl⟩
abbrev main_v56 : Ref sig .tc := ⟨.hbm, 95, rfl⟩
abbrev main_c_5 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_6 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_v77 : Ref sig .tc := ⟨.hbm, 124, rfl⟩
abbrev main_c_7 : Ref sig .tc := ⟨.hbm, 125, rfl⟩
abbrev main_v78 : Ref sig .tc := ⟨.hbm, 126, rfl⟩
abbrev main_v79 : Ref sig .tc := ⟨.hbm, 127, rfl⟩
abbrev main_c_8 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_9 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_cst_0 : Ref sig .tc := ⟨.hbm, 153, rfl⟩
abbrev main_call4_v2 : Ref sig .tc := ⟨.hbm, 154, rfl⟩
abbrev main_call4_v3 : Ref sig .tc := ⟨.hbm, 155, rfl⟩
abbrev main_v100 : Ref sig .tc := ⟨.hbm, 156, rfl⟩
abbrev main_cst_10 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_11 : Ref sig .tc := ⟨.hbm, 161, rfl⟩
abbrev main_v104 : Ref sig .tc := ⟨.hbm, 162, rfl⟩
abbrev main_cst_12 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_13 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_call5_cst : Ref sig .tc := ⟨.hbm, 180, rfl⟩
abbrev main_call5_v0 : Ref sig .tc := ⟨.hbm, 181, rfl⟩
abbrev main_call5_v1 : Ref sig .tc := ⟨.hbm, 182, rfl⟩
abbrev main_call5_cst_0 : Ref sig .tc := ⟨.hbm, 183, rfl⟩
abbrev main_call5_v2 : Ref sig .tc := ⟨.hbm, 184, rfl⟩
abbrev main_call5_v3 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S72_S1x72_1 : S72.BroadcastsInDim S1x72 (![1] : Fin 1 → Fin S1x72.rank)
  bcast_S1x72_S1024x72_0_1 : S1x72.BroadcastsInDim S1024x72 (![0, 1] : Fin 2 → Fin S1024x72.rank)
  bcast_S36_S1x36_1 : S36.BroadcastsInDim S1x36 (![1] : Fin 1 → Fin S1x36.rank)
  bcast_S1x36_S1024x36_0_1 : S1x36.BroadcastsInDim S1024x36 (![0, 1] : Fin 2 → Fin S1024x36.rank)
  bcast_S_S1024x36 : S_.BroadcastsInDim S1024x36 (![] : Fin 0 → Fin S1024x36.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S100000x13_S13x64_S100000x64_1_0_0_1_n_n_wf : DotDims.WF S100000x13 S13x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024x1_S100000x1_S100000x1_1_0_0_1_wf : ScatterDims.WF S1024x1 S100000x1 S100000x1 [1] [0] [0] 1
  dot_S1024x64_S64x72_S1024x72_1_0_0_1_n_n_wf : DotDims.WF S1024x64 S64x72 S1024x72 [1] [0] [0] [1] [] []
  dot_S1024x72_S72x36_S1024x36_1_0_0_1_n_n_wf : DotDims.WF S1024x72 S72x36 S1024x36 [1] [0] [0] [1] [] []
  dot_S1024x36_S36x1_S1024x1_1_0_0_1_n_n_wf : DotDims.WF S1024x36 S36x1 S1024x1 [1] [0] [0] [1] [] []

variable [Facts₀]

def dot_S100000x13_S13x64_S100000x64_1_0_0_1_n_n : DotDims S100000x13 S13x64 S100000x64 where
  lhsContracting := [1]
  rhsContracting := [0]
  lhsNonContracting := [0]
  rhsNonContracting := [1]
  lhsBatch := []
  rhsBatch := []
  wf := dot_S100000x13_S13x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024x1_S100000x1_S100000x1_1_0_0_1 : ScatterDims S1024x1 S100000x1 S100000x1 where
  updateWindowDims := [1]
  insertedWindowDims := [0]
  scatterDimsToOperandDims := [0]
  indexVectorDim := 1
  wf := scatter_S1024x1_S100000x1_S100000x1_1_0_0_1_wf
def dot_S1024x64_S64x72_S1024x72_1_0_0_1_n_n : DotDims S1024x64 S64x72 S1024x72 where
  lhsContracting := [1]
  rhsContracting := [0]
  lhsNonContracting := [0]
  rhsNonContracting := [1]
  lhsBatch := []
  rhsBatch := []
  wf := dot_S1024x64_S64x72_S1024x72_1_0_0_1_n_n_wf
def dot_S1024x72_S72x36_S1024x36_1_0_0_1_n_n : DotDims S1024x72 S72x36 S1024x36 where
  lhsContracting := [1]
  rhsContracting := [0]
  lhsNonContracting := [0]
  rhsNonContracting := [1]
  lhsBatch := []
  rhsBatch := []
  wf := dot_S1024x72_S72x36_S1024x36_1_0_0_1_n_n_wf
def dot_S1024x36_S36x1_S1024x1_1_0_0_1_n_n : DotDims S1024x36 S36x1 S1024x1 where
  lhsContracting := [1]
  rhsContracting := [0]
  lhsNonContracting := [0]
  rhsNonContracting := [1]
  lhsBatch := []
  rhsBatch := []
  wf := dot_S1024x36_S36x1_S1024x1_1_0_0_1_n_n_wf

class Facts : Prop extends Facts₀ where

variable [Facts]
-- ==== Proof.Spec.lean ====
/-
  The network both programs compute, as whole-array functions on the extended reals, written with the host
  operations of the reference: a leaky rectifier, the input projection, the edge indices (a negative source
  index wrapped by the node count), one round of message passing (gather the source rows, add them into the
  target rows), one dense update of the node table, the pooled sums and counts per graph, and the head
  (mean, output projection, two dense stages with a leaky rectifier between them).
-/
import proofs.«127333_j31559419691459_1_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts]

/-- x ≥ 0 ? x : 0.01·x on a node table. -/
def leaky (X : FVec Ideal S100000x64 .f32) : FVec Ideal S100000x64 .f32 :=
  select (cmpf .oge X (broadcastInDim S100000x64 ![] bcast_S_S100000x64 (constant (F := Ideal) S_ .f32 0x00000000#32))) X
    (mulf (broadcastInDim S100000x64 ![] bcast_S_S100000x64 (constant (F := Ideal) S_ .f32 0x3C23D70A#32)) X)

/-- x ≥ 0 ? x : 0.01·x on the head's hidden table. -/
def leaky36 (X : FVec Ideal S1024x36 .f32) : FVec Ideal S1024x36 .f32 :=
  select (cmpf .oge X (broadcastInDim S1024x36 ![] bcast_S_S1024x36 (constant (F := Ideal) S_ .f32 0x00000000#32))) X
    (mulf (broadcastInDim S1024x36 ![] bcast_S_S1024x36 (constant (F := Ideal) S_ .f32 0x3C23D70A#32)) X)

/-- The input projection with the bias held as one row: leaky (X·W + B). -/
def proj (X : FVec Ideal S100000x13 .f32) (W : FVec Ideal S13x64 .f32) (B : FVec Ideal S1x64 .f32) : FVec Ideal S100000x64 .f32 :=
  leaky (addf (Host.dotGeneral dot_S100000x13_S13x64_S100000x64_1_0_0_1_n_n none X W)
    (broadcastInDim S100000x64 ![0, 1] bcast_S1x64_S100000x64_0_1 B))

/-- Row `r` of the edge list as a vector. -/
def edgeRow (o : Fin 2 → Nat) (h : S2x3200000.Slices o S1x3200000) (E : IVec S2x3200000 32) : IVec S3200000 32 :=
  shapeCast S3200000 (extractStridedSlice S1x3200000 o E h) shapeCasts_S1x3200000_S3200000

/-- The source indices as a column, a negative one moved up by the node count. -/
def srcCol (E : IVec S2x3200000 32) : IVec S3200000x1 32 :=
  broadcastInDim S3200000x1 ![0] bcast_S3200000_S3200000x1_0
    (select (cmpi .slt (edgeRow ![0, 0] slices_S2x3200000_S1x3200000_0_0 E) (broadcastInDim S3200000 ![] bcast_S_S3200000 (constantI S_ 32 0#32)))
      (addi (edgeRow ![0, 0] slices_S2x3200000_S1x3200000_0_0 E) (broadcastInDim S3200000 ![] bcast_S_S3200000 (constantI S_ 32 100000#32)))
      (edgeRow ![0, 0] slices_S2x3200000_S1x3200000_0_0 E))

/-- The target indices as a column. -/
def dstCol (E : IVec S2x3200000 32) : IVec S3200000x1 32 :=
  broadcastInDim S3200000x1 ![0] bcast_S3200000_S3200000x1_0 (edgeRow ![1, 0] slices_S2x3200000_S1x3200000_1_0 E)

/-- One round of messages: every edge adds its source row into its target row. -/
def msg (H : FVec Ideal S100000x64 .f32) (E : IVec S2x3200000 32) : FVec Ideal S100000x64 .f32 :=
  Host.scatterAdd scatter_S100000x64_S3200000x1_S3200000x64_1_0_0_1
    (broadcastInDim S100000x64 ![] bcast_S_S100000x64 (constant (F := Ideal) S_ .f32 0x00000000#32))
    (dstCol E) (Host.gather gather_S100000x64_S3200000x1_S3200000x64_1_0_n_n_0_1_164 H (srcCol E))

/-- Layer `l`'s weight matrix out of a stack of four. -/
def wAt (o : Fin 3 → Nat) (h : S4x64x64.Slices o S1x64x64) (Wt : FVec Ideal S4x64x64 .f32) : FVec Ideal S64x64 .f32 :=
  shapeCast S64x64 (extractStridedSlice S1x64x64 o Wt h) shapeCasts_S1x64x64_S64x64

/-- Layer `l`'s bias vector out of a stack of four. -/
def bAt (o : Fin 2 → Nat) (h : S4x64.Slices o S1x64) (bl : FVec Ideal S4x64 .f32) : FVec Ideal S64 .f32 :=
  shapeCast S64 (extractStridedSlice S1x64 o bl h) shapeCasts_S1x64_S64

/-- A vector of 64 as the one-row matrix the host adds along the columns. -/
def row64 (b : FVec Ideal S64 .f32) : FVec Ideal S1x64 .f32 := broadcastInDim S1x64 ![1] bcast_S64_S1x64_1 b

/-- One dense update with the bias held as one row: leaky (H·Ws + M·Wn + B). -/
def layer (H M : FVec Ideal S100000x64 .f32) (Ws Wn : FVec Ideal S64x64 .f32) (B : FVec Ideal S1x64 .f32) : FVec Ideal S100000x64 .f32 :=
  leaky (addf (addf (Host.dotGeneral dot_S100000x64_S64x64_S100000x64_1_0_0_1_n_n none H Ws)
      (Host.dotGeneral dot_S100000x64_S64x64_S100000x64_1_0_0_1_n_n none M Wn))
    (broadcastInDim S100000x64 ![0, 1] bcast_S1x64_S100000x64_0_1 B))

/-- The node rows summed per graph. -/
def pool (H : FVec Ideal S100000x64 .f32) (y : IVec S100000 32) : FVec Ideal S1024x64 .f32 :=
  Host.scatterAdd scatter_S1024x64_S100000x1_S100000x64_1_0_0_1
    (broadcastInDim S1024x64 ![] bcast_S_S1024x64 (constant (F := Ideal) S_ .f32 0x00000000#32))
    (broadcastInDim S100000x1 ![0] bcast_S100000_S100000x1_0 y) H

/-- The number of nodes per graph, as a column. -/
def count (y : IVec S100000 32) : FVec Ideal S1024x1 .f32 :=
  Host.scatterAdd scatter_S1024x1_S100000x1_S100000x1_1_0_0_1
    (broadcastInDim S1024x1 ![] bcast_S_S1024x1 (constant (F := Ideal) S_ .f32 0x00000000#32))
    (broadcastInDim S100000x1 ![0] bcast_S100000_S100000x1_0 y)
    (broadcastInDim S100000x1 ![] bcast_S_S100000x1 (constant (F := Ideal) S_ .f32 0x3F800000#32))

/-- The head with every bias held as one row: the mean per graph, the output projection, a dense stage,
    the leaky rectifier, the last dense stage. -/
def head (sums : FVec Ideal S1024x64 .f32) (cnt : FVec Ideal S1024x1 .f32) (Wout : FVec Ideal S64x72 .f32) (Bout : FVec Ideal S1x72 .f32)
    (W1 : FVec Ideal S72x36 .f32) (B1 : FVec Ideal S1x36 .f32) (W2 : FVec Ideal S36x1 .f32) (B2 : FVec Ideal S1x1 .f32) : FVec Ideal S1024x1 .f32 :=
  addf (Host.dotGeneral dot_S1024x36_S36x1_S1024x1_1_0_0_1_n_n none
      (leaky36 (addf (Host.dotGeneral dot_S1024x72_S72x36_S1024x36_1_0_0_1_n_n none
          (addf (Host.dotGeneral dot_S1024x64_S64x72_S1024x72_1_0_0_1_n_n none
              (Host.divf sums (broadcastInDim S1024x64 ![0, 1] bcast_S1024x1_S1024x64_0_1
                (maximumf cnt (broadcastInDim S1024x1 ![] bcast_S_S1024x1 (constant (F := Ideal) S_ .f32 0x3F800000#32)))))
              Wout)
            (broadcastInDim S1024x72 ![0, 1] bcast_S1x72_S1024x72_0_1 Bout))
          W1)
        (broadcastInDim S1024x36 ![0, 1] bcast_S1x36_S1024x36_0_1 B1)))
      W2)
    (broadcastInDim S1024x1 ![0, 1] bcast_S1x1_S1024x1_0_1 B2)

/-- The node table after layer `l` from the table before it. -/
def step (o3 : Fin 3 → Nat) (h3 : S4x64x64.Slices o3 S1x64x64) (o2 : Fin 2 → Nat) (h2 : S4x64.Slices o2 S1x64)
    (E : IVec S2x3200000 32) (Ws Wn : FVec Ideal S4x64x64 .f32) (bl : FVec Ideal S4x64 .f32) (H : FVec Ideal S100000x64 .f32) :
    FVec Ideal S100000x64 .f32 :=
  layer H (msg H E) (wAt o3 h3 Ws) (wAt o3 h3 Wn) (row64 (bAt o2 h2 bl))

/-- The node table after the four layers. -/
def nodes (X : FVec Ideal S100000x13 .f32) (E : IVec S2x3200000 32) (Win : FVec Ideal S13x64 .f32) (bin : FVec Ideal S64 .f32)
    (Ws Wn : FVec Ideal S4x64x64 .f32) (bl : FVec Ideal S4x64 .f32) : FVec Ideal S100000x64 .f32 :=
  step ![3, 0, 0] slices_S4x64x64_S1x64x64_3_0_0 ![3, 0] slices_S4x64_S1x64_3_0 E Ws Wn bl
    (step ![2, 0, 0] slices_S4x64x64_S1x64x64_2_0_0 ![2, 0] slices_S4x64_S1x64_2_0 E Ws Wn bl
      (step ![1, 0, 0] slices_S4x64x64_S1x64x64_1_0_0 ![1, 0] slices_S4x64_S1x64_1_0 E Ws Wn bl
        (step ![0, 0, 0] slices_S4x64x64_S1x64x64_0_0_0 ![0, 0] slices_S4x64_S1x64_0_0 E Ws Wn bl
          (proj X Win (row64 bin)))))

/-- The whole network: one number per graph. -/
def net (X : FVec Ideal S100000x13 .f32) (E : IVec S2x3200000 32) (y : IVec S100000 32) (Win : FVec Ideal S13x64 .f32) (bin : FVec Ideal S64 .f32)
    (Ws Wn : FVec Ideal S4x64x64 .f32) (bl : FVec Ideal S4x64 .f32) (Wout : FVec Ideal S64x72 .f32) (bout : FVec Ideal S72 .f32)
    (W1 : FVec Ideal S72x36 .f32) (b1 : FVec Ideal S36 .f32) (W2 : FVec Ideal S36x1 .f32) (b2 : FVec Ideal S1 .f32) : FVec Ideal S1024x1 .f32 :=
  head (pool (nodes X E Win bin Ws Wn bl) y) (count y) Wout (broadcastInDim S1x72 ![1] bcast_S72_S1x72_1 bout)
    W1 (broadcastInDim S1x36 ![1] bcast_S36_S1x36_1 b1) W2 (broadcastInDim S1x1 ![1] bcast_S1_S1x1_1 b2)

end Cert.Spec

end
-- ==== Proof.KernelChain.lean ====
/-
  The kernel program's result read back through its twelve segments. Each host stretch is read as the host operations'
  own functions of the buffers it starts from; each kernel region's output array is the whole-array function its blocks
  of rows make up (given as hypotheses `h0 … h5`, one per region, at any entry contents); a buffer nothing in a segment
  writes is carried across it. Composed, the result buffer holds the head of the pooled node table after four rounds of
  message passing over the projected inputs: the same network as the reference's, with each bias vector reshaped to a
  one-row matrix where the reference broadcasts it to one — the same matrix.
-/
import proofs.«127333_j31559419691459_1_alg».proof.Proof.Gen.KernelIdeal.Frame
import proofs.«127333_j31559419691459_1_alg».proof.Proof.Gen.ReferenceIdeal
import proofs.«127333_j31559419691459_1_alg».proof.Proof.Spec
import Idealize.ShloMosaic.Lib.StableHlo.Run
import Idealize.ShloMosaic.Lib.Pipeline.Value

set_option maxRecDepth 16384
set_option maxHeartbeats 2000000

noncomputable section

namespace Cert.KernelIdeal.KChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer no operation of a host stretch writes holds after the stretch what it held before. -/
macro "kept_host" b:term : tactic => `(tactic| (
  refine StableHlo.after_of_forall_not_mem (b := Proc.devRef .tc $b) _ _ (List.forall_iff_forall_mem.mp ?_)
  simp only [hostOps0, hostOps1, hostOps2, hostOps3, hostOps4, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))
/-- Region 0's output array: the input projection of the arrays it finds. -/
abbrev Hyp0 : Prop := ∀ (V : (c : Dev nD) → (b : Ref sig .tc) → Buf (Elt Ideal) ((c : Thread nD τ).loc b)) (c : Dev nD),
    (dat0 (F := Ideal) V c).arrAt 3 cfg0.N = Cert.Spec.proj (V c main_arg0) (V c main_arg3) (V c main_v4)
/-- Region 1's output array: one dense update of the arrays it finds. -/
abbrev Hyp1 : Prop := ∀ (V : (c : Dev nD) → (b : Ref sig .tc) → Buf (Elt Ideal) ((c : Thread nD τ).loc b)) (c : Dev nD),
    (dat1 (F := Ideal) V c).arrAt 5 cfg1.N = Cert.Spec.layer (V c main_v5) (V c main_v15) (V c main_v17) (V c main_v19) (V c main_v22)
/-- Region 2's output array: one dense update of the arrays it finds. -/
abbrev Hyp2 : Prop := ∀ (V : (c : Dev nD) → (b : Ref sig .tc) → Buf (Elt Ideal) ((c : Thread nD τ).loc b)) (c : Dev nD),
    (dat2 (F := Ideal) V c).arrAt 5 cfg2.N = Cert.Spec.layer (V c main_v23) (V c main_v33) (V c main_v35) (V c main_v37) (V c main_v40)
/-- Region 3's output array: one dense update of the arrays it finds. -/
abbrev Hyp3 : Prop := ∀ (V : (c : Dev nD) → (b : Ref sig .tc) → Buf (Elt Ideal) ((c : Thread nD τ).loc b)) (c : Dev nD),
    (dat3 (F := Ideal) V c).arrAt 5 cfg3.N = Cert.Spec.layer (V c main_v41) (V c main_v51) (V c main_v53) (V c main_v55) (V c main_v58)
/-- Region 4's output array: one dense update of the arrays it finds. -/
abbrev Hyp4 : Prop := ∀ (V : (c : Dev nD) → (b : Ref sig .tc) → Buf (Elt Ideal) ((c : Thread nD τ).loc b)) (c : Dev nD),
    (dat4 (F := Ideal) V c).arrAt 5 cfg4.N = Cert.Spec.layer (V c main_v59) (V c main_v69) (V c main_v71) (V c main_v73) (V c main_v76)
/-- Region 5's output array: the head of the arrays it finds. -/
abbrev Hyp5 : Prop := ∀ (V : (c : Dev nD) → (b : Ref sig .tc) → Buf (Elt Ideal) ((c : Thread nD τ).loc b)) (c : Dev nD),
    (dat5 (F := Ideal) V c).arrAt 8 cfg5.N = Cert.Spec.head (V c main_v80) (V c main_v84) (V c main_arg8) (V c main_v85) (V c main_arg10) (V c main_v86) (V c main_arg12) (V c main_v87)

/-! ## The arguments carried to where they are read -/

theorem w1_a0 : W1 m ρ c (Proc.devRef .tc main_arg0) = (m ((c : Thread nD τ).loc main_arg0)) :=
  (show W1 m ρ c (Proc.devRef .tc main_arg0) = W0 m ρ c (Proc.devRef .tc main_arg0) from (by kept_host main_arg0)).trans (show W0 m ρ c (Proc.devRef .tc main_arg0) = _ from rfl)
theorem w1_a2 : W1 m ρ c (Proc.devRef .tc main_arg2) = (m ((c : Thread nD τ).loc main_arg2)) :=
  (show W1 m ρ c (Proc.devRef .tc main_arg2) = W0 m ρ c (Proc.devRef .tc main_arg2) from (by kept_host main_arg2)).trans (show W0 m ρ c (Proc.devRef .tc main_arg2) = _ from rfl)
theorem w2_a2 : W2 m ρ c (Proc.devRef .tc main_arg2) = (m ((c : Thread nD τ).loc main_arg2)) :=
  (show W2 m ρ c (Proc.devRef .tc main_arg2) = W1 m ρ c (Proc.devRef .tc main_arg2) from (W2_of_ne m ρ c main_arg2 (by decide))).trans (w1_a2 m ρ c)
theorem w3_a2 : W3 m ρ c (Proc.devRef .tc main_arg2) = (m ((c : Thread nD τ).loc main_arg2)) :=
  (show W3 m ρ c (Proc.devRef .tc main_arg2) = W2 m ρ c (Proc.devRef .tc main_arg2) from (by kept_host main_arg2)).trans (w2_a2 m ρ c)
theorem w4_a2 : W4 m ρ c (Proc.devRef .tc main_arg2) = (m ((c : Thread nD τ).loc main_arg2)) :=
  (show W4 m ρ c (Proc.devRef .tc main_arg2) = W3 m ρ c (Proc.devRef .tc main_arg2) from (W4_of_ne m ρ c main_arg2 (by decide))).trans (w3_a2 m ρ c)
theorem w5_a2 : W5 m ρ c (Proc.devRef .tc main_arg2) = (m ((c : Thread nD τ).loc main_arg2)) :=
  (show W5 m ρ c (Proc.devRef .tc main_arg2) = W4 m ρ c (Proc.devRef .tc main_arg2) from (by kept_host main_arg2)).trans (w4_a2 m ρ c)
theorem w6_a2 : W6 m ρ c (Proc.devRef .tc main_arg2) = (m ((c : Thread nD τ).loc main_arg2)) :=
  (show W6 m ρ c (Proc.devRef .tc main_arg2) = W5 m ρ c (Proc.devRef .tc main_arg2) from (W6_of_ne m ρ c main_arg2 (by decide))).trans (w5_a2 m ρ c)
theorem w7_a2 : W7 m ρ c (Proc.devRef .tc main_arg2) = (m ((c : Thread nD τ).loc main_arg2)) :=
  (show W7 m ρ c (Proc.devRef .tc main_arg2) = W6 m ρ c (Proc.devRef .tc main_arg2) from (by kept_host main_arg2)).trans (w6_a2 m ρ c)
theorem w8_a2 : W8 m ρ c (Proc.devRef .tc main_arg2) = (m ((c : Thread nD τ).loc main_arg2)) :=
  (show W8 m ρ c (Proc.devRef .tc main_arg2) = W7 m ρ c (Proc.devRef .tc main_arg2) from (W8_of_ne m ρ c main_arg2 (by decide))).trans (w7_a2 m ρ c)
theorem w9_a2 : W9 m ρ c (Proc.devRef .tc main_arg2) = (m ((c : Thread nD τ).loc main_arg2)) :=
  (show W9 m ρ c (Proc.devRef .tc main_arg2) = W8 m ρ c (Proc.devRef .tc main_arg2) from (by kept_host main_arg2)).trans (w8_a2 m ρ c)
theorem w10_a2 : W10 m ρ c (Proc.devRef .tc main_arg2) = (m ((c : Thread nD τ).loc main_arg2)) :=
  (show W10 m ρ c (Proc.devRef .tc main_arg2) = W9 m ρ c (Proc.devRef .tc main_arg2) from (W10_of_ne m ρ c main_arg2 (by decide))).trans (w9_a2 m ρ c)
theorem w1_a3 : W1 m ρ c (Proc.devRef .tc main_arg3) = (m ((c : Thread nD τ).loc main_arg3)) :=
  (show W1 m ρ c (Proc.devRef .tc main_arg3) = W0 m ρ c (Proc.devRef .tc main_arg3) from (by kept_host main_arg3)).trans (show W0 m ρ c (Proc.devRef .tc main_arg3) = _ from rfl)
theorem w1_a5 : W1 m ρ c (Proc.devRef .tc main_arg5) = (m ((c : Thread nD τ).loc main_arg5)) :=
  (show W1 m ρ c (Proc.devRef .tc main_arg5) = W0 m ρ c (Proc.devRef .tc main_arg5) from (by kept_host main_arg5)).trans (show W0 m ρ c (Proc.devRef .tc main_arg5) = _ from rfl)
theorem w2_a5 : W2 m ρ c (Proc.devRef .tc main_arg5) = (m ((c : Thread nD τ).loc main_arg5)) :=
  (show W2 m ρ c (Proc.devRef .tc main_arg5) = W1 m ρ c (Proc.devRef .tc main_arg5) from (W2_of_ne m ρ c main_arg5 (by decide))).trans (w1_a5 m ρ c)
theorem w3_a5 : W3 m ρ c (Proc.devRef .tc main_arg5) = (m ((c : Thread nD τ).loc main_arg5)) :=
  (show W3 m ρ c (Proc.devRef .tc main_arg5) = W2 m ρ c (Proc.devRef .tc main_arg5) from (by kept_host main_arg5)).trans (w2_a5 m ρ c)
theorem w4_a5 : W4 m ρ c (Proc.devRef .tc main_arg5) = (m ((c : Thread nD τ).loc main_arg5)) :=
  (show W4 m ρ c (Proc.devRef .tc main_arg5) = W3 m ρ c (Proc.devRef .tc main_arg5) from (W4_of_ne m ρ c main_arg5 (by decide))).trans (w3_a5 m ρ c)
theorem w5_a5 : W5 m ρ c (Proc.devRef .tc main_arg5) = (m ((c : Thread nD τ).loc main_arg5)) :=
  (show W5 m ρ c (Proc.devRef .tc main_arg5) = W4 m ρ c (Proc.devRef .tc main_arg5) from (by kept_host main_arg5)).trans (w4_a5 m ρ c)
theorem w6_a5 : W6 m ρ c (Proc.devRef .tc main_arg5) = (m ((c : Thread nD τ).loc main_arg5)) :=
  (show W6 m ρ c (Proc.devRef .tc main_arg5) = W5 m ρ c (Proc.devRef .tc main_arg5) from (W6_of_ne m ρ c main_arg5 (by decide))).trans (w5_a5 m ρ c)
theorem w7_a5 : W7 m ρ c (Proc.devRef .tc main_arg5) = (m ((c : Thread nD τ).loc main_arg5)) :=
  (show W7 m ρ c (Proc.devRef .tc main_arg5) = W6 m ρ c (Proc.devRef .tc main_arg5) from (by kept_host main_arg5)).trans (w6_a5 m ρ c)
theorem w8_a5 : W8 m ρ c (Proc.devRef .tc main_arg5) = (m ((c : Thread nD τ).loc main_arg5)) :=
  (show W8 m ρ c (Proc.devRef .tc main_arg5) = W7 m ρ c (Proc.devRef .tc main_arg5) from (W8_of_ne m ρ c main_arg5 (by decide))).trans (w7_a5 m ρ c)
theorem w1_a6 : W1 m ρ c (Proc.devRef .tc main_arg6) = (m ((c : Thread nD τ).loc main_arg6)) :=
  (show W1 m ρ c (Proc.devRef .tc main_arg6) = W0 m ρ c (Proc.devRef .tc main_arg6) from (by kept_host main_arg6)).trans (show W0 m ρ c (Proc.devRef .tc main_arg6) = _ from rfl)
theorem w2_a6 : W2 m ρ c (Proc.devRef .tc main_arg6) = (m ((c : Thread nD τ).loc main_arg6)) :=
  (show W2 m ρ c (Proc.devRef .tc main_arg6) = W1 m ρ c (Proc.devRef .tc main_arg6) from (W2_of_ne m ρ c main_arg6 (by decide))).trans (w1_a6 m ρ c)
theorem w3_a6 : W3 m ρ c (Proc.devRef .tc main_arg6) = (m ((c : Thread nD τ).loc main_arg6)) :=
  (show W3 m ρ c (Proc.devRef .tc main_arg6) = W2 m ρ c (Proc.devRef .tc main_arg6) from (by kept_host main_arg6)).trans (w2_a6 m ρ c)
theorem w4_a6 : W4 m ρ c (Proc.devRef .tc main_arg6) = (m ((c : Thread nD τ).loc main_arg6)) :=
  (show W4 m ρ c (Proc.devRef .tc main_arg6) = W3 m ρ c (Proc.devRef .tc main_arg6) from (W4_of_ne m ρ c main_arg6 (by decide))).trans (w3_a6 m ρ c)
theorem w5_a6 : W5 m ρ c (Proc.devRef .tc main_arg6) = (m ((c : Thread nD τ).loc main_arg6)) :=
  (show W5 m ρ c (Proc.devRef .tc main_arg6) = W4 m ρ c (Proc.devRef .tc main_arg6) from (by kept_host main_arg6)).trans (w4_a6 m ρ c)
theorem w6_a6 : W6 m ρ c (Proc.devRef .tc main_arg6) = (m ((c : Thread nD τ).loc main_arg6)) :=
  (show W6 m ρ c (Proc.devRef .tc main_arg6) = W5 m ρ c (Proc.devRef .tc main_arg6) from (W6_of_ne m ρ c main_arg6 (by decide))).trans (w5_a6 m ρ c)
theorem w7_a6 : W7 m ρ c (Proc.devRef .tc main_arg6) = (m ((c : Thread nD τ).loc main_arg6)) :=
  (show W7 m ρ c (Proc.devRef .tc main_arg6) = W6 m ρ c (Proc.devRef .tc main_arg6) from (by kept_host main_arg6)).trans (w6_a6 m ρ c)
theorem w8_a6 : W8 m ρ c (Proc.devRef .tc main_arg6) = (m ((c : Thread nD τ).loc main_arg6)) :=
  (show W8 m ρ c (Proc.devRef .tc main_arg6) = W7 m ρ c (Proc.devRef .tc main_arg6) from (W8_of_ne m ρ c main_arg6 (by decide))).trans (w7_a6 m ρ c)
theorem w1_a7 : W1 m ρ c (Proc.devRef .tc main_arg7) = (m ((c : Thread nD τ).loc main_arg7)) :=
  (show W1 m ρ c (Proc.devRef .tc main_arg7) = W0 m ρ c (Proc.devRef .tc main_arg7) from (by kept_host main_arg7)).trans (show W0 m ρ c (Proc.devRef .tc main_arg7) = _ from rfl)
theorem w2_a7 : W2 m ρ c (Proc.devRef .tc main_arg7) = (m ((c : Thread nD τ).loc main_arg7)) :=
  (show W2 m ρ c (Proc.devRef .tc main_arg7) = W1 m ρ c (Proc.devRef .tc main_arg7) from (W2_of_ne m ρ c main_arg7 (by decide))).trans (w1_a7 m ρ c)
theorem w3_a7 : W3 m ρ c (Proc.devRef .tc main_arg7) = (m ((c : Thread nD τ).loc main_arg7)) :=
  (show W3 m ρ c (Proc.devRef .tc main_arg7) = W2 m ρ c (Proc.devRef .tc main_arg7) from (by kept_host main_arg7)).trans (w2_a7 m ρ c)
theorem w4_a7 : W4 m ρ c (Proc.devRef .tc main_arg7) = (m ((c : Thread nD τ).loc main_arg7)) :=
  (show W4 m ρ c (Proc.devRef .tc main_arg7) = W3 m ρ c (Proc.devRef .tc main_arg7) from (W4_of_ne m ρ c main_arg7 (by decide))).trans (w3_a7 m ρ c)
theorem w5_a7 : W5 m ρ c (Proc.devRef .tc main_arg7) = (m ((c : Thread nD τ).loc main_arg7)) :=
  (show W5 m ρ c (Proc.devRef .tc main_arg7) = W4 m ρ c (Proc.devRef .tc main_arg7) from (by kept_host main_arg7)).trans (w4_a7 m ρ c)
theorem w6_a7 : W6 m ρ c (Proc.devRef .tc main_arg7) = (m ((c : Thread nD τ).loc main_arg7)) :=
  (show W6 m ρ c (Proc.devRef .tc main_arg7) = W5 m ρ c (Proc.devRef .tc main_arg7) from (W6_of_ne m ρ c main_arg7 (by decide))).trans (w5_a7 m ρ c)
theorem w7_a7 : W7 m ρ c (Proc.devRef .tc main_arg7) = (m ((c : Thread nD τ).loc main_arg7)) :=
  (show W7 m ρ c (Proc.devRef .tc main_arg7) = W6 m ρ c (Proc.devRef .tc main_arg7) from (by kept_host main_arg7)).trans (w6_a7 m ρ c)
theorem w8_a7 : W8 m ρ c (Proc.devRef .tc main_arg7) = (m ((c : Thread nD τ).loc main_arg7)) :=
  (show W8 m ρ c (Proc.devRef .tc main_arg7) = W7 m ρ c (Proc.devRef .tc main_arg7) from (W8_of_ne m ρ c main_arg7 (by decide))).trans (w7_a7 m ρ c)
theorem w1_a8 : W1 m ρ c (Proc.devRef .tc main_arg8) = (m ((c : Thread nD τ).loc main_arg8)) :=
  (show W1 m ρ c (Proc.devRef .tc main_arg8) = W0 m ρ c (Proc.devRef .tc main_arg8) from (by kept_host main_arg8)).trans (show W0 m ρ c (Proc.devRef .tc main_arg8) = _ from rfl)
theorem w2_a8 : W2 m ρ c (Proc.devRef .tc main_arg8) = (m ((c : Thread nD τ).loc main_arg8)) :=
  (show W2 m ρ c (Proc.devRef .tc main_arg8) = W1 m ρ c (Proc.devRef .tc main_arg8) from (W2_of_ne m ρ c main_arg8 (by decide))).trans (w1_a8 m ρ c)
theorem w3_a8 : W3 m ρ c (Proc.devRef .tc main_arg8) = (m ((c : Thread nD τ).loc main_arg8)) :=
  (show W3 m ρ c (Proc.devRef .tc main_arg8) = W2 m ρ c (Proc.devRef .tc main_arg8) from (by kept_host main_arg8)).trans (w2_a8 m ρ c)
theorem w4_a8 : W4 m ρ c (Proc.devRef .tc main_arg8) = (m ((c : Thread nD τ).loc main_arg8)) :=
  (show W4 m ρ c (Proc.devRef .tc main_arg8) = W3 m ρ c (Proc.devRef .tc main_arg8) from (W4_of_ne m ρ c main_arg8 (by decide))).trans (w3_a8 m ρ c)
theorem w5_a8 : W5 m ρ c (Proc.devRef .tc main_arg8) = (m ((c : Thread nD τ).loc main_arg8)) :=
  (show W5 m ρ c (Proc.devRef .tc main_arg8) = W4 m ρ c (Proc.devRef .tc main_arg8) from (by kept_host main_arg8)).trans (w4_a8 m ρ c)
theorem w6_a8 : W6 m ρ c (Proc.devRef .tc main_arg8) = (m ((c : Thread nD τ).loc main_arg8)) :=
  (show W6 m ρ c (Proc.devRef .tc main_arg8) = W5 m ρ c (Proc.devRef .tc main_arg8) from (W6_of_ne m ρ c main_arg8 (by decide))).trans (w5_a8 m ρ c)
theorem w7_a8 : W7 m ρ c (Proc.devRef .tc main_arg8) = (m ((c : Thread nD τ).loc main_arg8)) :=
  (show W7 m ρ c (Proc.devRef .tc main_arg8) = W6 m ρ c (Proc.devRef .tc main_arg8) from (by kept_host main_arg8)).trans (w6_a8 m ρ c)
theorem w8_a8 : W8 m ρ c (Proc.devRef .tc main_arg8) = (m ((c : Thread nD τ).loc main_arg8)) :=
  (show W8 m ρ c (Proc.devRef .tc main_arg8) = W7 m ρ c (Proc.devRef .tc main_arg8) from (W8_of_ne m ρ c main_arg8 (by decide))).trans (w7_a8 m ρ c)
theorem w9_a8 : W9 m ρ c (Proc.devRef .tc main_arg8) = (m ((c : Thread nD τ).loc main_arg8)) :=
  (show W9 m ρ c (Proc.devRef .tc main_arg8) = W8 m ρ c (Proc.devRef .tc main_arg8) from (by kept_host main_arg8)).trans (w8_a8 m ρ c)
theorem w10_a8 : W10 m ρ c (Proc.devRef .tc main_arg8) = (m ((c : Thread nD τ).loc main_arg8)) :=
  (show W10 m ρ c (Proc.devRef .tc main_arg8) = W9 m ρ c (Proc.devRef .tc main_arg8) from (W10_of_ne m ρ c main_arg8 (by decide))).trans (w9_a8 m ρ c)
theorem w11_a8 : W11 m ρ c (Proc.devRef .tc main_arg8) = (m ((c : Thread nD τ).loc main_arg8)) :=
  (show W11 m ρ c (Proc.devRef .tc main_arg8) = W10 m ρ c (Proc.devRef .tc main_arg8) from (by kept_host main_arg8)).trans (w10_a8 m ρ c)
theorem w1_a9 : W1 m ρ c (Proc.devRef .tc main_arg9) = (m ((c : Thread nD τ).loc main_arg9)) :=
  (show W1 m ρ c (Proc.devRef .tc main_arg9) = W0 m ρ c (Proc.devRef .tc main_arg9) from (by kept_host main_arg9)).trans (show W0 m ρ c (Proc.devRef .tc main_arg9) = _ from rfl)
theorem w2_a9 : W2 m ρ c (Proc.devRef .tc main_arg9) = (m ((c : Thread nD τ).loc main_arg9)) :=
  (show W2 m ρ c (Proc.devRef .tc main_arg9) = W1 m ρ c (Proc.devRef .tc main_arg9) from (W2_of_ne m ρ c main_arg9 (by decide))).trans (w1_a9 m ρ c)
theorem w3_a9 : W3 m ρ c (Proc.devRef .tc main_arg9) = (m ((c : Thread nD τ).loc main_arg9)) :=
  (show W3 m ρ c (Proc.devRef .tc main_arg9) = W2 m ρ c (Proc.devRef .tc main_arg9) from (by kept_host main_arg9)).trans (w2_a9 m ρ c)
theorem w4_a9 : W4 m ρ c (Proc.devRef .tc main_arg9) = (m ((c : Thread nD τ).loc main_arg9)) :=
  (show W4 m ρ c (Proc.devRef .tc main_arg9) = W3 m ρ c (Proc.devRef .tc main_arg9) from (W4_of_ne m ρ c main_arg9 (by decide))).trans (w3_a9 m ρ c)
theorem w5_a9 : W5 m ρ c (Proc.devRef .tc main_arg9) = (m ((c : Thread nD τ).loc main_arg9)) :=
  (show W5 m ρ c (Proc.devRef .tc main_arg9) = W4 m ρ c (Proc.devRef .tc main_arg9) from (by kept_host main_arg9)).trans (w4_a9 m ρ c)
theorem w6_a9 : W6 m ρ c (Proc.devRef .tc main_arg9) = (m ((c : Thread nD τ).loc main_arg9)) :=
  (show W6 m ρ c (Proc.devRef .tc main_arg9) = W5 m ρ c (Proc.devRef .tc main_arg9) from (W6_of_ne m ρ c main_arg9 (by decide))).trans (w5_a9 m ρ c)
theorem w7_a9 : W7 m ρ c (Proc.devRef .tc main_arg9) = (m ((c : Thread nD τ).loc main_arg9)) :=
  (show W7 m ρ c (Proc.devRef .tc main_arg9) = W6 m ρ c (Proc.devRef .tc main_arg9) from (by kept_host main_arg9)).trans (w6_a9 m ρ c)
theorem w8_a9 : W8 m ρ c (Proc.devRef .tc main_arg9) = (m ((c : Thread nD τ).loc main_arg9)) :=
  (show W8 m ρ c (Proc.devRef .tc main_arg9) = W7 m ρ c (Proc.devRef .tc main_arg9) from (W8_of_ne m ρ c main_arg9 (by decide))).trans (w7_a9 m ρ c)
theorem w9_a9 : W9 m ρ c (Proc.devRef .tc main_arg9) = (m ((c : Thread nD τ).loc main_arg9)) :=
  (show W9 m ρ c (Proc.devRef .tc main_arg9) = W8 m ρ c (Proc.devRef .tc main_arg9) from (by kept_host main_arg9)).trans (w8_a9 m ρ c)
theorem w10_a9 : W10 m ρ c (Proc.devRef .tc main_arg9) = (m ((c : Thread nD τ).loc main_arg9)) :=
  (show W10 m ρ c (Proc.devRef .tc main_arg9) = W9 m ρ c (Proc.devRef .tc main_arg9) from (W10_of_ne m ρ c main_arg9 (by decide))).trans (w9_a9 m ρ c)
theorem w1_a10 : W1 m ρ c (Proc.devRef .tc main_arg10) = (m ((c : Thread nD τ).loc main_arg10)) :=
  (show W1 m ρ c (Proc.devRef .tc main_arg10) = W0 m ρ c (Proc.devRef .tc main_arg10) from (by kept_host main_arg10)).trans (show W0 m ρ c (Proc.devRef .tc main_arg10) = _ from rfl)
theorem w2_a10 : W2 m ρ c (Proc.devRef .tc main_arg10) = (m ((c : Thread nD τ).loc main_arg10)) :=
  (show W2 m ρ c (Proc.devRef .tc main_arg10) = W1 m ρ c (Proc.devRef .tc main_arg10) from (W2_of_ne m ρ c main_arg10 (by decide))).trans (w1_a10 m ρ c)
theorem w3_a10 : W3 m ρ c (Proc.devRef .tc main_arg10) = (m ((c : Thread nD τ).loc main_arg10)) :=
  (show W3 m ρ c (Proc.devRef .tc main_arg10) = W2 m ρ c (Proc.devRef .tc main_arg10) from (by kept_host main_arg10)).trans (w2_a10 m ρ c)
theorem w4_a10 : W4 m ρ c (Proc.devRef .tc main_arg10) = (m ((c : Thread nD τ).loc main_arg10)) :=
  (show W4 m ρ c (Proc.devRef .tc main_arg10) = W3 m ρ c (Proc.devRef .tc main_arg10) from (W4_of_ne m ρ c main_arg10 (by decide))).trans (w3_a10 m ρ c)
theorem w5_a10 : W5 m ρ c (Proc.devRef .tc main_arg10) = (m ((c : Thread nD τ).loc main_arg10)) :=
  (show W5 m ρ c (Proc.devRef .tc main_arg10) = W4 m ρ c (Proc.devRef .tc main_arg10) from (by kept_host main_arg10)).trans (w4_a10 m ρ c)
theorem w6_a10 : W6 m ρ c (Proc.devRef .tc main_arg10) = (m ((c : Thread nD τ).loc main_arg10)) :=
  (show W6 m ρ c (Proc.devRef .tc main_arg10) = W5 m ρ c (Proc.devRef .tc main_arg10) from (W6_of_ne m ρ c main_arg10 (by decide))).trans (w5_a10 m ρ c)
theorem w7_a10 : W7 m ρ c (Proc.devRef .tc main_arg10) = (m ((c : Thread nD τ).loc main_arg10)) :=
  (show W7 m ρ c (Proc.devRef .tc main_arg10) = W6 m ρ c (Proc.devRef .tc main_arg10) from (by kept_host main_arg10)).trans (w6_a10 m ρ c)
theorem w8_a10 : W8 m ρ c (Proc.devRef .tc main_arg10) = (m ((c : Thread nD τ).loc main_arg10)) :=
  (show W8 m ρ c (Proc.devRef .tc main_arg10) = W7 m ρ c (Proc.devRef .tc main_arg10) from (W8_of_ne m ρ c main_arg10 (by decide))).trans (w7_a10 m ρ c)
theorem w9_a10 : W9 m ρ c (Proc.devRef .tc main_arg10) = (m ((c : Thread nD τ).loc main_arg10)) :=
  (show W9 m ρ c (Proc.devRef .tc main_arg10) = W8 m ρ c (Proc.devRef .tc main_arg10) from (by kept_host main_arg10)).trans (w8_a10 m ρ c)
theorem w10_a10 : W10 m ρ c (Proc.devRef .tc main_arg10) = (m ((c : Thread nD τ).loc main_arg10)) :=
  (show W10 m ρ c (Proc.devRef .tc main_arg10) = W9 m ρ c (Proc.devRef .tc main_arg10) from (W10_of_ne m ρ c main_arg10 (by decide))).trans (w9_a10 m ρ c)
theorem w11_a10 : W11 m ρ c (Proc.devRef .tc main_arg10) = (m ((c : Thread nD τ).loc main_arg10)) :=
  (show W11 m ρ c (Proc.devRef .tc main_arg10) = W10 m ρ c (Proc.devRef .tc main_arg10) from (by kept_host main_arg10)).trans (w10_a10 m ρ c)
theorem w1_a11 : W1 m ρ c (Proc.devRef .tc main_arg11) = (m ((c : Thread nD τ).loc main_arg11)) :=
  (show W1 m ρ c (Proc.devRef .tc main_arg11) = W0 m ρ c (Proc.devRef .tc main_arg11) from (by kept_host main_arg11)).trans (show W0 m ρ c (Proc.devRef .tc main_arg11) = _ from rfl)
theorem w2_a11 : W2 m ρ c (Proc.devRef .tc main_arg11) = (m ((c : Thread nD τ).loc main_arg11)) :=
  (show W2 m ρ c (Proc.devRef .tc main_arg11) = W1 m ρ c (Proc.devRef .tc main_arg11) from (W2_of_ne m ρ c main_arg11 (by decide))).trans (w1_a11 m ρ c)
theorem w3_a11 : W3 m ρ c (Proc.devRef .tc main_arg11) = (m ((c : Thread nD τ).loc main_arg11)) :=
  (show W3 m ρ c (Proc.devRef .tc main_arg11) = W2 m ρ c (Proc.devRef .tc main_arg11) from (by kept_host main_arg11)).trans (w2_a11 m ρ c)
theorem w4_a11 : W4 m ρ c (Proc.devRef .tc main_arg11) = (m ((c : Thread nD τ).loc main_arg11)) :=
  (show W4 m ρ c (Proc.devRef .tc main_arg11) = W3 m ρ c (Proc.devRef .tc main_arg11) from (W4_of_ne m ρ c main_arg11 (by decide))).trans (w3_a11 m ρ c)
theorem w5_a11 : W5 m ρ c (Proc.devRef .tc main_arg11) = (m ((c : Thread nD τ).loc main_arg11)) :=
  (show W5 m ρ c (Proc.devRef .tc main_arg11) = W4 m ρ c (Proc.devRef .tc main_arg11) from (by kept_host main_arg11)).trans (w4_a11 m ρ c)
theorem w6_a11 : W6 m ρ c (Proc.devRef .tc main_arg11) = (m ((c : Thread nD τ).loc main_arg11)) :=
  (show W6 m ρ c (Proc.devRef .tc main_arg11) = W5 m ρ c (Proc.devRef .tc main_arg11) from (W6_of_ne m ρ c main_arg11 (by decide))).trans (w5_a11 m ρ c)
theorem w7_a11 : W7 m ρ c (Proc.devRef .tc main_arg11) = (m ((c : Thread nD τ).loc main_arg11)) :=
  (show W7 m ρ c (Proc.devRef .tc main_arg11) = W6 m ρ c (Proc.devRef .tc main_arg11) from (by kept_host main_arg11)).trans (w6_a11 m ρ c)
theorem w8_a11 : W8 m ρ c (Proc.devRef .tc main_arg11) = (m ((c : Thread nD τ).loc main_arg11)) :=
  (show W8 m ρ c (Proc.devRef .tc main_arg11) = W7 m ρ c (Proc.devRef .tc main_arg11) from (W8_of_ne m ρ c main_arg11 (by decide))).trans (w7_a11 m ρ c)
theorem w9_a11 : W9 m ρ c (Proc.devRef .tc main_arg11) = (m ((c : Thread nD τ).loc main_arg11)) :=
  (show W9 m ρ c (Proc.devRef .tc main_arg11) = W8 m ρ c (Proc.devRef .tc main_arg11) from (by kept_host main_arg11)).trans (w8_a11 m ρ c)
theorem w10_a11 : W10 m ρ c (Proc.devRef .tc main_arg11) = (m ((c : Thread nD τ).loc main_arg11)) :=
  (show W10 m ρ c (Proc.devRef .tc main_arg11) = W9 m ρ c (Proc.devRef .tc main_arg11) from (W10_of_ne m ρ c main_arg11 (by decide))).trans (w9_a11 m ρ c)
theorem w1_a12 : W1 m ρ c (Proc.devRef .tc main_arg12) = (m ((c : Thread nD τ).loc main_arg12)) :=
  (show W1 m ρ c (Proc.devRef .tc main_arg12) = W0 m ρ c (Proc.devRef .tc main_arg12) from (by kept_host main_arg12)).trans (show W0 m ρ c (Proc.devRef .tc main_arg12) = _ from rfl)
theorem w2_a12 : W2 m ρ c (Proc.devRef .tc main_arg12) = (m ((c : Thread nD τ).loc main_arg12)) :=
  (show W2 m ρ c (Proc.devRef .tc main_arg12) = W1 m ρ c (Proc.devRef .tc main_arg12) from (W2_of_ne m ρ c main_arg12 (by decide))).trans (w1_a12 m ρ c)
theorem w3_a12 : W3 m ρ c (Proc.devRef .tc main_arg12) = (m ((c : Thread nD τ).loc main_arg12)) :=
  (show W3 m ρ c (Proc.devRef .tc main_arg12) = W2 m ρ c (Proc.devRef .tc main_arg12) from (by kept_host main_arg12)).trans (w2_a12 m ρ c)
theorem w4_a12 : W4 m ρ c (Proc.devRef .tc main_arg12) = (m ((c : Thread nD τ).loc main_arg12)) :=
  (show W4 m ρ c (Proc.devRef .tc main_arg12) = W3 m ρ c (Proc.devRef .tc main_arg12) from (W4_of_ne m ρ c main_arg12 (by decide))).trans (w3_a12 m ρ c)
theorem w5_a12 : W5 m ρ c (Proc.devRef .tc main_arg12) = (m ((c : Thread nD τ).loc main_arg12)) :=
  (show W5 m ρ c (Proc.devRef .tc main_arg12) = W4 m ρ c (Proc.devRef .tc main_arg12) from (by kept_host main_arg12)).trans (w4_a12 m ρ c)
theorem w6_a12 : W6 m ρ c (Proc.devRef .tc main_arg12) = (m ((c : Thread nD τ).loc main_arg12)) :=
  (show W6 m ρ c (Proc.devRef .tc main_arg12) = W5 m ρ c (Proc.devRef .tc main_arg12) from (W6_of_ne m ρ c main_arg12 (by decide))).trans (w5_a12 m ρ c)
theorem w7_a12 : W7 m ρ c (Proc.devRef .tc main_arg12) = (m ((c : Thread nD τ).loc main_arg12)) :=
  (show W7 m ρ c (Proc.devRef .tc main_arg12) = W6 m ρ c (Proc.devRef .tc main_arg12) from (by kept_host main_arg12)).trans (w6_a12 m ρ c)
theorem w8_a12 : W8 m ρ c (Proc.devRef .tc main_arg12) = (m ((c : Thread nD τ).loc main_arg12)) :=
  (show W8 m ρ c (Proc.devRef .tc main_arg12) = W7 m ρ c (Proc.devRef .tc main_arg12) from (W8_of_ne m ρ c main_arg12 (by decide))).trans (w7_a12 m ρ c)
theorem w9_a12 : W9 m ρ c (Proc.devRef .tc main_arg12) = (m ((c : Thread nD τ).loc main_arg12)) :=
  (show W9 m ρ c (Proc.devRef .tc main_arg12) = W8 m ρ c (Proc.devRef .tc main_arg12) from (by kept_host main_arg12)).trans (w8_a12 m ρ c)
theorem w10_a12 : W10 m ρ c (Proc.devRef .tc main_arg12) = (m ((c : Thread nD τ).loc main_arg12)) :=
  (show W10 m ρ c (Proc.devRef .tc main_arg12) = W9 m ρ c (Proc.devRef .tc main_arg12) from (W10_of_ne m ρ c main_arg12 (by decide))).trans (w9_a12 m ρ c)
theorem w11_a12 : W11 m ρ c (Proc.devRef .tc main_arg12) = (m ((c : Thread nD τ).loc main_arg12)) :=
  (show W11 m ρ c (Proc.devRef .tc main_arg12) = W10 m ρ c (Proc.devRef .tc main_arg12) from (by kept_host main_arg12)).trans (w10_a12 m ρ c)
theorem w1_a13 : W1 m ρ c (Proc.devRef .tc main_arg13) = (m ((c : Thread nD τ).loc main_arg13)) :=
  (show W1 m ρ c (Proc.devRef .tc main_arg13) = W0 m ρ c (Proc.devRef .tc main_arg13) from (by kept_host main_arg13)).trans (show W0 m ρ c (Proc.devRef .tc main_arg13) = _ from rfl)
theorem w2_a13 : W2 m ρ c (Proc.devRef .tc main_arg13) = (m ((c : Thread nD τ).loc main_arg13)) :=
  (show W2 m ρ c (Proc.devRef .tc main_arg13) = W1 m ρ c (Proc.devRef .tc main_arg13) from (W2_of_ne m ρ c main_arg13 (by decide))).trans (w1_a13 m ρ c)
theorem w3_a13 : W3 m ρ c (Proc.devRef .tc main_arg13) = (m ((c : Thread nD τ).loc main_arg13)) :=
  (show W3 m ρ c (Proc.devRef .tc main_arg13) = W2 m ρ c (Proc.devRef .tc main_arg13) from (by kept_host main_arg13)).trans (w2_a13 m ρ c)
theorem w4_a13 : W4 m ρ c (Proc.devRef .tc main_arg13) = (m ((c : Thread nD τ).loc main_arg13)) :=
  (show W4 m ρ c (Proc.devRef .tc main_arg13) = W3 m ρ c (Proc.devRef .tc main_arg13) from (W4_of_ne m ρ c main_arg13 (by decide))).trans (w3_a13 m ρ c)
theorem w5_a13 : W5 m ρ c (Proc.devRef .tc main_arg13) = (m ((c : Thread nD τ).loc main_arg13)) :=
  (show W5 m ρ c (Proc.devRef .tc main_arg13) = W4 m ρ c (Proc.devRef .tc main_arg13) from (by kept_host main_arg13)).trans (w4_a13 m ρ c)
theorem w6_a13 : W6 m ρ c (Proc.devRef .tc main_arg13) = (m ((c : Thread nD τ).loc main_arg13)) :=
  (show W6 m ρ c (Proc.devRef .tc main_arg13) = W5 m ρ c (Proc.devRef .tc main_arg13) from (W6_of_ne m ρ c main_arg13 (by decide))).trans (w5_a13 m ρ c)
theorem w7_a13 : W7 m ρ c (Proc.devRef .tc main_arg13) = (m ((c : Thread nD τ).loc main_arg13)) :=
  (show W7 m ρ c (Proc.devRef .tc main_arg13) = W6 m ρ c (Proc.devRef .tc main_arg13) from (by kept_host main_arg13)).trans (w6_a13 m ρ c)
theorem w8_a13 : W8 m ρ c (Proc.devRef .tc main_arg13) = (m ((c : Thread nD τ).loc main_arg13)) :=
  (show W8 m ρ c (Proc.devRef .tc main_arg13) = W7 m ρ c (Proc.devRef .tc main_arg13) from (W8_of_ne m ρ c main_arg13 (by decide))).trans (w7_a13 m ρ c)
theorem w9_a13 : W9 m ρ c (Proc.devRef .tc main_arg13) = (m ((c : Thread nD τ).loc main_arg13)) :=
  (show W9 m ρ c (Proc.devRef .tc main_arg13) = W8 m ρ c (Proc.devRef .tc main_arg13) from (by kept_host main_arg13)).trans (w8_a13 m ρ c)
theorem w10_a13 : W10 m ρ c (Proc.devRef .tc main_arg13) = (m ((c : Thread nD τ).loc main_arg13)) :=
  (show W10 m ρ c (Proc.devRef .tc main_arg13) = W9 m ρ c (Proc.devRef .tc main_arg13) from (W10_of_ne m ρ c main_arg13 (by decide))).trans (w9_a13 m ρ c)

/-! ## The first stretch: the two rows of the edge list, the input bias as a row -/

theorem w1_v1 : W1 m ρ c (Proc.devRef .tc main_v1) = (Cert.Spec.edgeRow ![0, 0] Cert.ReferenceIdeal.Facts₀.slices_S2x3200000_S1x3200000_0_0 (m ((c : Thread nD τ).loc main_arg1))) := by
  show StableHlo.after hostOps0 (W0 m ρ c) (Proc.devRef .tc main_v1) = _
  after_results_simp
  rfl
theorem w1_v3 : W1 m ρ c (Proc.devRef .tc main_v3) = (Cert.Spec.edgeRow ![1, 0] Cert.ReferenceIdeal.Facts₀.slices_S2x3200000_S1x3200000_1_0 (m ((c : Thread nD τ).loc main_arg1))) := by
  show StableHlo.after hostOps0 (W0 m ρ c) (Proc.devRef .tc main_v3) = _
  after_results_simp
  rfl
theorem w1_v4 : W1 m ρ c (Proc.devRef .tc main_v4) = shapeCast S1x64 (m ((c : Thread nD τ).loc main_arg4)) Cert.KernelIdeal.Facts₀.shapeCasts_S64_S1x64 := by
  show StableHlo.after hostOps0 (W0 m ρ c) (Proc.devRef .tc main_v4) = _
  after_results_simp
  rfl
theorem w2_v1 : W2 m ρ c (Proc.devRef .tc main_v1) = (Cert.Spec.edgeRow ![0, 0] Cert.ReferenceIdeal.Facts₀.slices_S2x3200000_S1x3200000_0_0 (m ((c : Thread nD τ).loc main_arg1))) :=
  (show W2 m ρ c (Proc.devRef .tc main_v1) = W1 m ρ c (Proc.devRef .tc main_v1) from (W2_of_ne m ρ c main_v1 (by decide))).trans (w1_v1 m ρ c)
theorem w3_v1 : W3 m ρ c (Proc.devRef .tc main_v1) = (Cert.Spec.edgeRow ![0, 0] Cert.ReferenceIdeal.Facts₀.slices_S2x3200000_S1x3200000_0_0 (m ((c : Thread nD τ).loc main_arg1))) :=
  (show W3 m ρ c (Proc.devRef .tc main_v1) = W2 m ρ c (Proc.devRef .tc main_v1) from (by kept_host main_v1)).trans (w2_v1 m ρ c)
theorem w4_v1 : W4 m ρ c (Proc.devRef .tc main_v1) = (Cert.Spec.edgeRow ![0, 0] Cert.ReferenceIdeal.Facts₀.slices_S2x3200000_S1x3200000_0_0 (m ((c : Thread nD τ).loc main_arg1))) :=
  (show W4 m ρ c (Proc.devRef .tc main_v1) = W3 m ρ c (Proc.devRef .tc main_v1) from (W4_of_ne m ρ c main_v1 (by decide))).trans (w3_v1 m ρ c)
theorem w5_v1 : W5 m ρ c (Proc.devRef .tc main_v1) = (Cert.Spec.edgeRow ![0, 0] Cert.ReferenceIdeal.Facts₀.slices_S2x3200000_S1x3200000_0_0 (m ((c : Thread nD τ).loc main_arg1))) :=
  (show W5 m ρ c (Proc.devRef .tc main_v1) = W4 m ρ c (Proc.devRef .tc main_v1) from (by kept_host main_v1)).trans (w4_v1 m ρ c)
theorem w6_v1 : W6 m ρ c (Proc.devRef .tc main_v1) = (Cert.Spec.edgeRow ![0, 0] Cert.ReferenceIdeal.Facts₀.slices_S2x3200000_S1x3200000_0_0 (m ((c : Thread nD τ).loc main_arg1))) :=
  (show W6 m ρ c (Proc.devRef .tc main_v1) = W5 m ρ c (Proc.devRef .tc main_v1) from (W6_of_ne m ρ c main_v1 (by decide))).trans (w5_v1 m ρ c)
theorem w7_v1 : W7 m ρ c (Proc.devRef .tc main_v1) = (Cert.Spec.edgeRow ![0, 0] Cert.ReferenceIdeal.Facts₀.slices_S2x3200000_S1x3200000_0_0 (m ((c : Thread nD τ).loc main_arg1))) :=
  (show W7 m ρ c (Proc.devRef .tc main_v1) = W6 m ρ c (Proc.devRef .tc main_v1) from (by kept_host main_v1)).trans (w6_v1 m ρ c)
theorem w8_v1 : W8 m ρ c (Proc.devRef .tc main_v1) = (Cert.Spec.edgeRow ![0, 0] Cert.ReferenceIdeal.Facts₀.slices_S2x3200000_S1x3200000_0_0 (m ((c : Thread nD τ).loc main_arg1))) :=
  (show W8 m ρ c (Proc.devRef .tc main_v1) = W7 m ρ c (Proc.devRef .tc main_v1) from (W8_of_ne m ρ c main_v1 (by decide))).trans (w7_v1 m ρ c)
theorem w2_v3 : W2 m ρ c (Proc.devRef .tc main_v3) = (Cert.Spec.edgeRow ![1, 0] Cert.ReferenceIdeal.Facts₀.slices_S2x3200000_S1x3200000_1_0 (m ((c : Thread nD τ).loc main_arg1))) :=
  (show W2 m ρ c (Proc.devRef .tc main_v3) = W1 m ρ c (Proc.devRef .tc main_v3) from (W2_of_ne m ρ c main_v3 (by decide))).trans (w1_v3 m ρ c)
theorem w3_v3 : W3 m ρ c (Proc.devRef .tc main_v3) = (Cert.Spec.edgeRow ![1, 0] Cert.ReferenceIdeal.Facts₀.slices_S2x3200000_S1x3200000_1_0 (m ((c : Thread nD τ).loc main_arg1))) :=
  (show W3 m ρ c (Proc.devRef .tc main_v3) = W2 m ρ c (Proc.devRef .tc main_v3) from (by kept_host main_v3)).trans (w2_v3 m ρ c)
theorem w4_v3 : W4 m ρ c (Proc.devRef .tc main_v3) = (Cert.Spec.edgeRow ![1, 0] Cert.ReferenceIdeal.Facts₀.slices_S2x3200000_S1x3200000_1_0 (m ((c : Thread nD τ).loc main_arg1))) :=
  (show W4 m ρ c (Proc.devRef .tc main_v3) = W3 m ρ c (Proc.devRef .tc main_v3) from (W4_of_ne m ρ c main_v3 (by decide))).trans (w3_v3 m ρ c)
theorem w5_v3 : W5 m ρ c (Proc.devRef .tc main_v3) = (Cert.Spec.edgeRow ![1, 0] Cert.ReferenceIdeal.Facts₀.slices_S2x3200000_S1x3200000_1_0 (m ((c : Thread nD τ).loc main_arg1))) :=
  (show W5 m ρ c (Proc.devRef .tc main_v3) = W4 m ρ c (Proc.devRef .tc main_v3) from (by kept_host main_v3)).trans (w4_v3 m ρ c)
theorem w6_v3 : W6 m ρ c (Proc.devRef .tc main_v3) = (Cert.Spec.edgeRow ![1, 0] Cert.ReferenceIdeal.Facts₀.slices_S2x3200000_S1x3200000_1_0 (m ((c : Thread nD τ).loc main_arg1))) :=
  (show W6 m ρ c (Proc.devRef .tc main_v3) = W5 m ρ c (Proc.devRef .tc main_v3) from (W6_of_ne m ρ c main_v3 (by decide))).trans (w5_v3 m ρ c)
theorem w7_v3 : W7 m ρ c (Proc.devRef .tc main_v3) = (Cert.Spec.edgeRow ![1, 0] Cert.ReferenceIdeal.Facts₀.slices_S2x3200000_S1x3200000_1_0 (m ((c : Thread nD τ).loc main_arg1))) :=
  (show W7 m ρ c (Proc.devRef .tc main_v3) = W6 m ρ c (Proc.devRef .tc main_v3) from (by kept_host main_v3)).trans (w6_v3 m ρ c)
theorem w8_v3 : W8 m ρ c (Proc.devRef .tc main_v3) = (Cert.Spec.edgeRow ![1, 0] Cert.ReferenceIdeal.Facts₀.slices_S2x3200000_S1x3200000_1_0 (m ((c : Thread nD τ).loc main_arg1))) :=
  (show W8 m ρ c (Proc.devRef .tc main_v3) = W7 m ρ c (Proc.devRef .tc main_v3) from (W8_of_ne m ρ c main_v3 (by decide))).trans (w7_v3 m ρ c)

/-! ## The node table, layer by layer -/

/-- The projected inputs, the bias reshaped to a row. -/
def T0 : FVec Ideal Cert.ReferenceIdeal.S100000x64 .f32 :=
  Cert.Spec.proj (m ((c : Thread nD τ).loc main_arg0)) (m ((c : Thread nD τ).loc main_arg3)) (shapeCast S1x64 (m ((c : Thread nD τ).loc main_arg4)) Cert.KernelIdeal.Facts₀.shapeCasts_S64_S1x64)
/-- One layer on a node table, the layer's bias reshaped to a row. -/
def stepK (o3 : Fin 3 → Nat) (h3 : Cert.ReferenceIdeal.S4x64x64.Slices o3 Cert.ReferenceIdeal.S1x64x64) (o2 : Fin 2 → Nat) (h2 : Cert.ReferenceIdeal.S4x64.Slices o2 Cert.ReferenceIdeal.S1x64)
    (H : FVec Ideal Cert.ReferenceIdeal.S100000x64 .f32) : FVec Ideal Cert.ReferenceIdeal.S100000x64 .f32 :=
  Cert.Spec.layer H (Cert.Spec.msg H (m ((c : Thread nD τ).loc main_arg1))) (Cert.Spec.wAt o3 h3 (m ((c : Thread nD τ).loc main_arg5))) (Cert.Spec.wAt o3 h3 (m ((c : Thread nD τ).loc main_arg6)))
    (shapeCast S1x64 (Cert.Spec.bAt o2 h2 (m ((c : Thread nD τ).loc main_arg7))) Cert.KernelIdeal.Facts₀.shapeCasts_S64_S1x64)
def T1 : FVec Ideal Cert.ReferenceIdeal.S100000x64 .f32 := (stepK m c ![0, 0, 0] Cert.ReferenceIdeal.Facts₀.slices_S4x64x64_S1x64x64_0_0_0 ![0, 0] Cert.ReferenceIdeal.Facts₀.slices_S4x64_S1x64_0_0 (T0 m c))
def T2 : FVec Ideal Cert.ReferenceIdeal.S100000x64 .f32 := (stepK m c ![1, 0, 0] Cert.ReferenceIdeal.Facts₀.slices_S4x64x64_S1x64x64_1_0_0 ![1, 0] Cert.ReferenceIdeal.Facts₀.slices_S4x64_S1x64_1_0 (T1 m c))
def T3 : FVec Ideal Cert.ReferenceIdeal.S100000x64 .f32 := (stepK m c ![2, 0, 0] Cert.ReferenceIdeal.Facts₀.slices_S4x64x64_S1x64x64_2_0_0 ![2, 0] Cert.ReferenceIdeal.Facts₀.slices_S4x64_S1x64_2_0 (T2 m c))
def T4 : FVec Ideal Cert.ReferenceIdeal.S100000x64 .f32 := (stepK m c ![3, 0, 0] Cert.ReferenceIdeal.Facts₀.slices_S4x64x64_S1x64x64_3_0_0 ![3, 0] Cert.ReferenceIdeal.Facts₀.slices_S4x64_S1x64_3_0 (T3 m c))

theorem w2_v5 (h0 : Hyp0) : W2 m ρ c (Proc.devRef .tc main_v5) = T0 m c :=
  calc W2 m ρ c (Proc.devRef .tc main_v5)
    _ = (dat0 (V1 m ρ) c).arrAt 3 cfg0.N := W2_arr m ρ c 3
    _ = Cert.Spec.proj (W1 m ρ c (Proc.devRef .tc main_arg0)) (W1 m ρ c (Proc.devRef .tc main_arg3)) (W1 m ρ c (Proc.devRef .tc main_v4)) := h0 (V1 m ρ) c
    _ = T0 m c := by rw [w1_a0, w1_a3, w1_v4]; rfl

/-! ### Layer 1 -/
theorem w3_v5 (h0 : Hyp0) : W3 m ρ c (Proc.devRef .tc main_v5) = T0 m c :=
  (show W3 m ρ c (Proc.devRef .tc main_v5) = W2 m ρ c (Proc.devRef .tc main_v5) from (by kept_host main_v5)).trans (w2_v5 m ρ c h0)
theorem w3_v15 (h0 : Hyp0) : W3 m ρ c (Proc.devRef .tc main_v15) = Cert.Spec.msg (T0 m c) (m ((c : Thread nD τ).loc main_arg1)) := by
  show StableHlo.after hostOps1 (W2 m ρ c) (Proc.devRef .tc main_v15) = _
  after_results_simp
  rw [w2_v1, w2_v3, w2_v5 m ρ c h0]
  rfl
theorem w3_v17 : W3 m ρ c (Proc.devRef .tc main_v17) = Cert.Spec.wAt ![0, 0, 0] Cert.ReferenceIdeal.Facts₀.slices_S4x64x64_S1x64x64_0_0_0 (m ((c : Thread nD τ).loc main_arg5)) := by
  show StableHlo.after hostOps1 (W2 m ρ c) (Proc.devRef .tc main_v17) = _
  after_results_simp
  rw [w2_a5]
  rfl
theorem w3_v19 : W3 m ρ c (Proc.devRef .tc main_v19) = Cert.Spec.wAt ![0, 0, 0] Cert.ReferenceIdeal.Facts₀.slices_S4x64x64_S1x64x64_0_0_0 (m ((c : Thread nD τ).loc main_arg6)) := by
  show StableHlo.after hostOps1 (W2 m ρ c) (Proc.devRef .tc main_v19) = _
  after_results_simp
  rw [w2_a6]
  rfl
theorem w3_v22 : W3 m ρ c (Proc.devRef .tc main_v22) = shapeCast S1x64 (Cert.Spec.bAt ![0, 0] Cert.ReferenceIdeal.Facts₀.slices_S4x64_S1x64_0_0 (m ((c : Thread nD τ).loc main_arg7))) Cert.KernelIdeal.Facts₀.shapeCasts_S64_S1x64 := by
  show StableHlo.after hostOps1 (W2 m ρ c) (Proc.devRef .tc main_v22) = _
  after_results_simp
  rw [w2_a7]
  rfl
theorem w4_v23 (h0 : Hyp0) (h1 : Hyp1) : W4 m ρ c (Proc.devRef .tc main_v23) = T1 m c :=
  calc W4 m ρ c (Proc.devRef .tc main_v23)
    _ = (dat1 (V3 m ρ) c).arrAt 5 cfg1.N := W4_arr m ρ c 5
    _ = Cert.Spec.layer (W3 m ρ c (Proc.devRef .tc main_v5)) (W3 m ρ c (Proc.devRef .tc main_v15)) (W3 m ρ c (Proc.devRef .tc main_v17)) (W3 m ρ c (Proc.devRef .tc main_v19)) (W3 m ρ c (Proc.devRef .tc main_v22)) := h1 (V3 m ρ) c
    _ = T1 m c := by rw [w3_v5 m ρ c h0, w3_v15 m ρ c h0, w3_v17, w3_v19, w3_v22]; rfl

/-! ### Layer 2 -/
theorem w5_v23 (h0 : Hyp0) (h1 : Hyp1) : W5 m ρ c (Proc.devRef .tc main_v23) = T1 m c :=
  (show W5 m ρ c (Proc.devRef .tc main_v23) = W4 m ρ c (Proc.devRef .tc main_v23) from (by kept_host main_v23)).trans (w4_v23 m ρ c h0 h1)
theorem w5_v33 (h0 : Hyp0) (h1 : Hyp1) : W5 m ρ c (Proc.devRef .tc main_v33) = Cert.Spec.msg (T1 m c) (m ((c : Thread nD τ).loc main_arg1)) := by
  show StableHlo.after hostOps2 (W4 m ρ c) (Proc.devRef .tc main_v33) = _
  after_results_simp
  rw [w4_v1, w4_v3, w4_v23 m ρ c h0 h1]
  rfl
theorem w5_v35 : W5 m ρ c (Proc.devRef .tc main_v35) = Cert.Spec.wAt ![1, 0, 0] Cert.ReferenceIdeal.Facts₀.slices_S4x64x64_S1x64x64_1_0_0 (m ((c : Thread nD τ).loc main_arg5)) := by
  show StableHlo.after hostOps2 (W4 m ρ c) (Proc.devRef .tc main_v35) = _
  after_results_simp
  rw [w4_a5]
  rfl
theorem w5_v37 : W5 m ρ c (Proc.devRef .tc main_v37) = Cert.Spec.wAt ![1, 0, 0] Cert.ReferenceIdeal.Facts₀.slices_S4x64x64_S1x64x64_1_0_0 (m ((c : Thread nD τ).loc main_arg6)) := by
  show StableHlo.after hostOps2 (W4 m ρ c) (Proc.devRef .tc main_v37) = _
  after_results_simp
  rw [w4_a6]
  rfl
theorem w5_v40 : W5 m ρ c (Proc.devRef .tc main_v40) = shapeCast S1x64 (Cert.Spec.bAt ![1, 0] Cert.ReferenceIdeal.Facts₀.slices_S4x64_S1x64_1_0 (m ((c : Thread nD τ).loc main_arg7))) Cert.KernelIdeal.Facts₀.shapeCasts_S64_S1x64 := by
  show StableHlo.after hostOps2 (W4 m ρ c) (Proc.devRef .tc main_v40) = _
  after_results_simp
  rw [w4_a7]
  rfl
theorem w6_v41 (h0 : Hyp0) (h1 : Hyp1) (h2 : Hyp2) : W6 m ρ c (Proc.devRef .tc main_v41) = T2 m c :=
  calc W6 m ρ c (Proc.devRef .tc main_v41)
    _ = (dat2 (V5 m ρ) c).arrAt 5 cfg2.N := W6_arr m ρ c 5
    _ = Cert.Spec.layer (W5 m ρ c (Proc.devRef .tc main_v23)) (W5 m ρ c (Proc.devRef .tc main_v33)) (W5 m ρ c (Proc.devRef .tc main_v35)) (W5 m ρ c (Proc.devRef .tc main_v37)) (W5 m ρ c (Proc.devRef .tc main_v40)) := h2 (V5 m ρ) c
    _ = T2 m c := by rw [w5_v23 m ρ c h0 h1, w5_v33 m ρ c h0 h1, w5_v35, w5_v37, w5_v40]; rfl

/-! ### Layer 3 -/
theorem w7_v41 (h0 : Hyp0) (h1 : Hyp1) (h2 : Hyp2) : W7 m ρ c (Proc.devRef .tc main_v41) = T2 m c :=
  (show W7 m ρ c (Proc.devRef .tc main_v41) = W6 m ρ c (Proc.devRef .tc main_v41) from (by kept_host main_v41)).trans (w6_v41 m ρ c h0 h1 h2)
theorem w7_v51 (h0 : Hyp0) (h1 : Hyp1) (h2 : Hyp2) : W7 m ρ c (Proc.devRef .tc main_v51) = Cert.Spec.msg (T2 m c) (m ((c : Thread nD τ).loc main_arg1)) := by
  show StableHlo.after hostOps3 (W6 m ρ c) (Proc.devRef .tc main_v51) = _
  after_results_simp
  rw [w6_v1, w6_v3, w6_v41 m ρ c h0 h1 h2]
  rfl
theorem w7_v53 : W7 m ρ c (Proc.devRef .tc main_v53) = Cert.Spec.wAt ![2, 0, 0] Cert.ReferenceIdeal.Facts₀.slices_S4x64x64_S1x64x64_2_0_0 (m ((c : Thread nD τ).loc main_arg5)) := by
  show StableHlo.after hostOps3 (W6 m ρ c) (Proc.devRef .tc main_v53) = _
  after_results_simp
  rw [w6_a5]
  rfl
theorem w7_v55 : W7 m ρ c (Proc.devRef .tc main_v55) = Cert.Spec.wAt ![2, 0, 0] Cert.ReferenceIdeal.Facts₀.slices_S4x64x64_S1x64x64_2_0_0 (m ((c : Thread nD τ).loc main_arg6)) := by
  show StableHlo.after hostOps3 (W6 m ρ c) (Proc.devRef .tc main_v55) = _
  after_results_simp
  rw [w6_a6]
  rfl
theorem w7_v58 : W7 m ρ c (Proc.devRef .tc main_v58) = shapeCast S1x64 (Cert.Spec.bAt ![2, 0] Cert.ReferenceIdeal.Facts₀.slices_S4x64_S1x64_2_0 (m ((c : Thread nD τ).loc main_arg7))) Cert.KernelIdeal.Facts₀.shapeCasts_S64_S1x64 := by
  show StableHlo.after hostOps3 (W6 m ρ c) (Proc.devRef .tc main_v58) = _
  after_results_simp
  rw [w6_a7]
  rfl
theorem w8_v59 (h0 : Hyp0) (h1 : Hyp1) (h2 : Hyp2) (h3 : Hyp3) : W8 m ρ c (Proc.devRef .tc main_v59) = T3 m c :=
  calc W8 m ρ c (Proc.devRef .tc main_v59)
    _ = (dat3 (V7 m ρ) c).arrAt 5 cfg3.N := W8_arr m ρ c 5
    _ = Cert.Spec.layer (W7 m ρ c (Proc.devRef .tc main_v41)) (W7 m ρ c (Proc.devRef .tc main_v51)) (W7 m ρ c (Proc.devRef .tc main_v53)) (W7 m ρ c (Proc.devRef .tc main_v55)) (W7 m ρ c (Proc.devRef .tc main_v58)) := h3 (V7 m ρ) c
    _ = T3 m c := by rw [w7_v41 m ρ c h0 h1 h2, w7_v51 m ρ c h0 h1 h2, w7_v53, w7_v55, w7_v58]; rfl

/-! ### Layer 4 -/
theorem w9_v59 (h0 : Hyp0) (h1 : Hyp1) (h2 : Hyp2) (h3 : Hyp3) : W9 m ρ c (Proc.devRef .tc main_v59) = T3 m c :=
  (show W9 m ρ c (Proc.devRef .tc main_v59) = W8 m ρ c (Proc.devRef .tc main_v59) from (by kept_host main_v59)).trans (w8_v59 m ρ c h0 h1 h2 h3)
theorem w9_v69 (h0 : Hyp0) (h1 : Hyp1) (h2 : Hyp2) (h3 : Hyp3) : W9 m ρ c (Proc.devRef .tc main_v69) = Cert.Spec.msg (T3 m c) (m ((c : Thread nD τ).loc main_arg1)) := by
  show StableHlo.after hostOps4 (W8 m ρ c) (Proc.devRef .tc main_v69) = _
  after_results_simp
  rw [w8_v1, w8_v3, w8_v59 m ρ c h0 h1 h2 h3]
  rfl
theorem w9_v71 : W9 m ρ c (Proc.devRef .tc main_v71) = Cert.Spec.wAt ![3, 0, 0] Cert.ReferenceIdeal.Facts₀.slices_S4x64x64_S1x64x64_3_0_0 (m ((c : Thread nD τ).loc main_arg5)) := by
  show StableHlo.after hostOps4 (W8 m ρ c) (Proc.devRef .tc main_v71) = _
  after_results_simp
  rw [w8_a5]
  rfl
theorem w9_v73 : W9 m ρ c (Proc.devRef .tc main_v73) = Cert.Spec.wAt ![3, 0, 0] Cert.ReferenceIdeal.Facts₀.slices_S4x64x64_S1x64x64_3_0_0 (m ((c : Thread nD τ).loc main_arg6)) := by
  show StableHlo.after hostOps4 (W8 m ρ c) (Proc.devRef .tc main_v73) = _
  after_results_simp
  rw [w8_a6]
  rfl
theorem w9_v76 : W9 m ρ c (Proc.devRef .tc main_v76) = shapeCast S1x64 (Cert.Spec.bAt ![3, 0] Cert.ReferenceIdeal.Facts₀.slices_S4x64_S1x64_3_0 (m ((c : Thread nD τ).loc main_arg7))) Cert.KernelIdeal.Facts₀.shapeCasts_S64_S1x64 := by
  show StableHlo.after hostOps4 (W8 m ρ c) (Proc.devRef .tc main_v76) = _
  after_results_simp
  rw [w8_a7]
  rfl
theorem w10_v77 (h0 : Hyp0) (h1 : Hyp1) (h2 : Hyp2) (h3 : Hyp3) (h4 : Hyp4) : W10 m ρ c (Proc.devRef .tc main_v77) = T4 m c :=
  calc W10 m ρ c (Proc.devRef .tc main_v77)
    _ = (dat4 (V9 m ρ) c).arrAt 5 cfg4.N := W10_arr m ρ c 5
    _ = Cert.Spec.layer (W9 m ρ c (Proc.devRef .tc main_v59)) (W9 m ρ c (Proc.devRef .tc main_v69)) (W9 m ρ c (Proc.devRef .tc main_v71)) (W9 m ρ c (Proc.devRef .tc main_v73)) (W9 m ρ c (Proc.devRef .tc main_v76)) := h4 (V9 m ρ) c
    _ = T4 m c := by rw [w9_v59 m ρ c h0 h1 h2 h3, w9_v69 m ρ c h0 h1 h2 h3, w9_v71, w9_v73, w9_v76]; rfl

/-! ## The pooled sums and counts, the head's biases as rows, and the head -/
theorem w11_v80 (h0 : Hyp0) (h1 : Hyp1) (h2 : Hyp2) (h3 : Hyp3) (h4 : Hyp4) : W11 m ρ c (Proc.devRef .tc main_v80) = Cert.Spec.pool (T4 m c) (m ((c : Thread nD τ).loc main_arg2)) := by
  show StableHlo.after hostOps5 (W10 m ρ c) (Proc.devRef .tc main_v80) = _
  after_results_simp
  rw [w10_v77 m ρ c h0 h1 h2 h3 h4, w10_a2]
  rfl
theorem w11_v84 : W11 m ρ c (Proc.devRef .tc main_v84) = Cert.Spec.count (m ((c : Thread nD τ).loc main_arg2)) := by
  show StableHlo.after hostOps5 (W10 m ρ c) (Proc.devRef .tc main_v84) = _
  after_results_simp
  rw [w10_a2]
  rfl
theorem w11_v85 : W11 m ρ c (Proc.devRef .tc main_v85) = shapeCast S1x72 (m ((c : Thread nD τ).loc main_arg9)) Cert.KernelIdeal.Facts₀.shapeCasts_S72_S1x72 := by
  show StableHlo.after hostOps5 (W10 m ρ c) (Proc.devRef .tc main_v85) = _
  after_results_simp
  rw [w10_a9]
  rfl
theorem w11_v86 : W11 m ρ c (Proc.devRef .tc main_v86) = shapeCast S1x36 (m ((c : Thread nD τ).loc main_arg11)) Cert.KernelIdeal.Facts₀.shapeCasts_S36_S1x36 := by
  show StableHlo.after hostOps5 (W10 m ρ c) (Proc.devRef .tc main_v86) = _
  after_results_simp
  rw [w10_a11]
  rfl
theorem w11_v87 : W11 m ρ c (Proc.devRef .tc main_v87) = shapeCast S1x1 (m ((c : Thread nD τ).loc main_arg13)) Cert.KernelIdeal.Facts₀.shapeCasts_S1_S1x1 := by
  show StableHlo.after hostOps5 (W10 m ρ c) (Proc.devRef .tc main_v87) = _
  after_results_simp
  rw [w10_a13]
  rfl

/-- What the kernel program leaves in its result buffer: the head of the pooled node table. -/
def kernelNet : FVec Ideal Cert.ReferenceIdeal.S1024x1 .f32 :=
  Cert.Spec.head (Cert.Spec.pool (T4 m c) (m ((c : Thread nD τ).loc main_arg2))) (Cert.Spec.count (m ((c : Thread nD τ).loc main_arg2))) (m ((c : Thread nD τ).loc main_arg8)) (shapeCast S1x72 (m ((c : Thread nD τ).loc main_arg9)) Cert.KernelIdeal.Facts₀.shapeCasts_S72_S1x72)
    (m ((c : Thread nD τ).loc main_arg10)) (shapeCast S1x36 (m ((c : Thread nD τ).loc main_arg11)) Cert.KernelIdeal.Facts₀.shapeCasts_S36_S1x36) (m ((c : Thread nD τ).loc main_arg12)) (shapeCast S1x1 (m ((c : Thread nD τ).loc main_arg13)) Cert.KernelIdeal.Facts₀.shapeCasts_S1_S1x1)

theorem w12_v88 (h0 : Hyp0) (h1 : Hyp1) (h2 : Hyp2) (h3 : Hyp3) (h4 : Hyp4) (h5 : Hyp5) : W12 m ρ c (Proc.devRef .tc main_v88) = kernelNet m c :=
  calc W12 m ρ c (Proc.devRef .tc main_v88)
    _ = (dat5 (V11 m ρ) c).arrAt 8 cfg5.N := W12_arr m ρ c 8
    _ = Cert.Spec.head (W11 m ρ c (Proc.devRef .tc main_v80)) (W11 m ρ c (Proc.devRef .tc main_v84)) (W11 m ρ c (Proc.devRef .tc main_arg8)) (W11 m ρ c (Proc.devRef .tc main_v85)) (W11 m ρ c (Proc.devRef .tc main_arg10)) (W11 m ρ c (Proc.devRef .tc main_v86)) (W11 m ρ c (Proc.devRef .tc main_arg12)) (W11 m ρ c (Proc.devRef .tc main_v87)) := h5 (V11 m ρ) c
    _ = kernelNet m c := by rw [w11_v80 m ρ c h0 h1 h2 h3 h4, w11_v84, w11_a8, w11_v85, w11_a10, w11_v86, w11_a12, w11_v87]; rfl

end Cert.KernelIdeal.KChain

end
-- ==== Proof.LibCastBroadcast.lean ====
/-
  A vector laid out as a column or as a row: the reshape and the broadcast are one function.

  A vector of N entries becomes an N×1 column either by a shape cast (the entries keep their row-major order) or by a
  broadcast that puts the vector's axis on axis 0; it becomes a 1×n row either by a shape cast or by a broadcast that puts
  its axis on axis 1. In each pair the two arrays have the same entries: the column's entry (r, 0) is the vector's entry r,
  the row's entry (0, q) is the vector's entry q. Generic in the extent and the element type (for the column the extent
  must not be the unit extent, so that the broadcast reads the row coordinate).
-/
import Idealize.ShloMosaic.Lib.Pipeline.Value
import Idealize.ShloMosaic.Lib.ValueIdx

namespace Cert.LibCastBroadcast

open Idealize.ShloMosaic Idealize.ShloMosaic.ValueIdx

variable {α : Type}

/-- [N] → [N, 1]: the cast is the broadcast along axis 0. -/
theorem colCast_eq {N : Nat} (hN : N ≠ 1) (v : (⟨1, ![N]⟩ : Shape).Idx → α)
    (h : (⟨1, ![N]⟩ : Shape).ShapeCasts ⟨2, ![N, 1]⟩) (h' : (⟨1, ![N]⟩ : Shape).BroadcastsInDim ⟨2, ![N, 1]⟩ ![0]) :
    shapeCast ⟨2, ![N, 1]⟩ v h = broadcastInDim ⟨2, ![N, 1]⟩ ![0] h' v := by
  funext i
  obtain ⟨r, z, rfl⟩ : ∃ (r : Fin N) (z : Fin 1), i = ix2 r z := ⟨i 0, i 1, eq_ix2 i⟩
  rw [broadcastInDim_apply ![0] h' v (ix2 r z) (ix1 r) (fun a => match a with
    | ⟨0, _⟩ => by show r.val = if N = 1 then 0 else r.val; rw [if_neg hN])]
  refine shapeCast_apply v h (ix2 r z) (ix1 r) ?_
  rw [Shape.rowMajor_val_one, Shape.rowMajor_val_two]
  show r.val = r.val * 1 + z.val
  have := z.isLt; omega

/-- [n] → [1, n]: the cast is the broadcast along axis 1. -/
theorem rowCast_eq {n : Nat} (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨z, q, rfl⟩ : ∃ (z : Fin 1) (q : Fin n), i = ix2 z q := ⟨i 0, i 1, eq_ix2 i⟩
  obtain rfl : z = 0 := Subsingleton.elim _ _
  rw [shapeCast_apply v h (ix2 (0 : Fin 1) q) (ix1 q) (by
      rw [Shape.rowMajor_val_one, Shape.rowMajor_val_two]; show q.val = 0 * n + q.val; omega),
    broadcastInDim_apply ![1] h' v (ix2 (0 : Fin 1) q) (ix1 q) (fun a => match a with
      | ⟨0, _⟩ => by
        show q.val = if n = 1 then 0 else q.val
        split
        · have := q.isLt; omega
        · rfl)]

end Cert.LibCastBroadcast
-- ==== Proof.KernelNet.lean ====
/-
  The kernel program's network is the reference's: a bias vector reshaped to a one-row matrix is that vector
  broadcast to a one-row matrix, so each layer, the input projection and the head agree term by term.
-/
import proofs.«127333_j31559419691459_1_alg».proof.Proof.KernelChain
import proofs.«127333_j31559419691459_1_alg».proof.Proof.LibCastBroadcast

noncomputable section

namespace Cert.KernelIdeal.KChain

open Cert.KernelIdeal Cert.KernelIdeal.Gen
open Idealize.ShloMosaic Idealize.ShloMosaic.TcCoe Idealize.SL.Sem

variable (m : (ℓ : Loc nD τ sig) → Buf (Elt Ideal) ℓ) (c : Dev nD)

/-- A vector of 64 reshaped to a row is the row the reference broadcasts it to. -/
theorem row64_eq (b : FVec Ideal Cert.ReferenceIdeal.S64 .f32) :
    shapeCast S1x64 b Cert.KernelIdeal.Facts₀.shapeCasts_S64_S1x64 = Cert.Spec.row64 b :=
  Cert.LibCastBroadcast.rowCast_eq (n := 64) b _ _

theorem T0_eq : T0 m c = Cert.Spec.proj (m ((c : Thread nD τ).loc main_arg0)) (m ((c : Thread nD τ).loc main_arg3)) (Cert.Spec.row64 (m ((c : Thread nD τ).loc main_arg4))) := by
  unfold T0; rw [row64_eq]

theorem stepK_eq (o3 : Fin 3 → Nat) (h3 : Cert.ReferenceIdeal.S4x64x64.Slices o3 Cert.ReferenceIdeal.S1x64x64) (o2 : Fin 2 → Nat)
    (h2 : Cert.ReferenceIdeal.S4x64.Slices o2 Cert.ReferenceIdeal.S1x64) (H : FVec Ideal Cert.ReferenceIdeal.S100000x64 .f32) :
    stepK m c o3 h3 o2 h2 H = Cert.Spec.step o3 h3 o2 h2 (m ((c : Thread nD τ).loc main_arg1)) (m ((c : Thread nD τ).loc main_arg5)) (m ((c : Thread nD τ).loc main_arg6)) (m ((c : Thread nD τ).loc main_arg7)) H := by
  unfold stepK Cert.Spec.step; rw [row64_eq]

theorem T4_eq : T4 m c = Cert.Spec.nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  unfold T4 T3 T2 T1 Cert.Spec.nodes
  rw [stepK_eq, stepK_eq, stepK_eq, stepK_eq, T0_eq]

/-- The kernel program's result is the network of the reference at the same arguments. -/
theorem kernelNet_eq : kernelNet m c = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold kernelNet Cert.Spec.net
  rw [T4_eq, Cert.LibCastBroadcast.rowCast_eq (n := 72) (m ((c : Thread nD τ).loc main_arg9)) _ Cert.ReferenceIdeal.Facts₀.bcast_S72_S1x72_1,
    Cert.LibCastBroadcast.rowCast_eq (n := 36) (m ((c : Thread nD τ).loc main_arg11)) _ Cert.ReferenceIdeal.Facts₀.bcast_S36_S1x36_1,
    Cert.LibCastBroadcast.rowCast_eq (n := 1) (m ((c : Thread nD τ).loc main_arg13)) _ Cert.ReferenceIdeal.Facts₀.bcast_S1_S1x1_1]

end Cert.KernelIdeal.KChain

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibRowwise.lean ====
/-
  Row-wise array code on a block of rows, at the extended reals.

  Much array code treats the rows of a matrix independently: row r of the result is a function of row r of the operand
  (and of small parameter arrays) alone. A dense layer x·W + b, a pointwise map, a sum along each row and a
  concatenation of columns are all of this kind. For such code, running it on a BLOCK of rows of X — any selection of
  rows, given by a map `row` from the block's row numbers to the matrix's — gives the same block of rows of the result of
  running it on the whole of X. This file states that, operation by operation, for a kernel's spelling of each
  operation on the block against the host's spelling on the whole matrix, as the closure of one relation: `RowsOf row A X`
  says entry (a, b) of the block A is entry (row a, b) of X. Nothing of real arithmetic is used beyond 0 + x = x, so
  every statement holds at the infinities too. Generic in the extents and the float formats.
-/
import Idealize.ShloMosaic.Lib.StackMember
import Idealize.ShloMosaic.Lib.KernelVsHost
import Idealize.ShloMosaic.Lib.ValueLayout
import Idealize.ShloMosaic.Lib.Pipeline.Value
import Idealize.ShloMosaic.PureOps.Ideal.Laws
import proofs.«127333_j31559419691459_1_alg».proof.Proof.LibRowBlockDot
import proofs.«127333_j31559419691459_1_alg».proof.Proof.LibHostReads
import proofs.«127333_j31559419691459_1_alg».proof.Proof.LibKeepdims

noncomputable section

open scoped BigOperators

namespace Cert.LibRowwise

open Idealize.ShloMosaic Idealize.ShloMosaic.ValueIdx

variable {m M n : Nat} {φ ψ : FTy}

/-- Entry (a, b) of the block `A` is entry (`row a`, b) of `X`: the block holds the rows `row` of `X`. -/
def RowsOf (row : Fin m → Fin M) (A : FVec Ideal ⟨2, ![m, n]⟩ φ) (X : FVec Ideal ⟨2, ![M, n]⟩ ψ) : Prop :=
  ∀ (a : Fin m) (b : Fin n), A (ix2 a b) = X (ix2 (row a) b)

/-- Entry a of the vector `u` is entry `row a` of `U`: one number per row, the same selection of rows. -/
def RowsOf1 (row : Fin m → Fin M) (u : FVec Ideal ⟨1, ![m]⟩ φ) (U : FVec Ideal ⟨1, ![M]⟩ ψ) : Prop :=
  ∀ a : Fin m, u (ix1 a) = U (ix1 (row a))

/-- A change of float format is the identity on the extended reals: the narrowed block still holds the rows. -/
theorem RowsOf.truncf {row : Fin m → Fin M} {A : FVec Ideal ⟨2, ![m, n]⟩ φ} {X : FVec Ideal ⟨2, ![M, n]⟩ ψ} {χ : FTy}
    (h : RowsOf row A X) (hb : χ.bits < φ.bits) : RowsOf row (truncf χ A hb) X :=
  fun a b => h a b

/-- A dense layer: the block's product with the weights into the zero accumulator plus the bias laid along every row,
    against the host's product of the whole matrix plus the bias broadcast to one row and then down the rows. The
    weights and the bias agree entry by entry; the two products' dimension records are the plain ones. -/
theorem RowsOf.dense {K N : Nat} {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b))
    {bk bh : FVec Ideal ⟨1, ![N]⟩ .f32} (hb : ∀ q, bk (ix1 q) = bh (ix1 q)) (hN : N ≠ 1)
    (h1 : (⟨1, ![N]⟩ : Shape).ShapeCasts ⟨2, ![1, N]⟩) (h2 : (⟨2, ![1, N]⟩ : Shape).Broadcasts ⟨2, ![m, N]⟩)
    (g1 : (⟨1, ![N]⟩ : Shape).BroadcastsInDim ⟨2, ![1, N]⟩ ![1])
    (g2 : (⟨2, ![1, N]⟩ : Shape).BroadcastsInDim ⟨2, ![M, N]⟩ ![0, 1]) :
    RowsOf row
      (addf (matmul D prec A B (constant (F := Ideal) ⟨2, ![m, N]⟩ .f32 0x00000000#32))
        (broadcastTo ⟨2, ![m, N]⟩ (shapeCast ⟨2, ![1, N]⟩ bk h1) h2))
      (addf (Host.dotGeneral D' prec' X W)
        (broadcastInDim ⟨2, ![M, N]⟩ ![0, 1] g2 (broadcastInDim ⟨2, ![1, N]⟩ ![1] g1 bh))) := by
  subst hD hD'
  intro a b
  rw [addf_apply, addf_apply,
    Cert.LibRowBlockDot.matmul_rowBlock_apply prec prec' X W A B row hA hB a b,
    broadcastTo_1b_ab_apply, shapeCast_a_1a_apply, Cert.LibHostReads.rowBias_apply hN g1 g2 bh (row a) b, hb b]

/-- The leaky rectifier x ↦ (x ≥ z ? x : c·x), the kernel's with its two scalars broadcast, the host's with the two
    scalars as rank-0 constants broadcast to the matrix (the slope through an identity conversion). -/
theorem RowsOf.leaky {row : Fin m → Fin M} {A : FVec Ideal ⟨2, ![m, n]⟩ .f32} {X : FVec Ideal ⟨2, ![M, n]⟩ .f32}
    (h : RowsOf row A X) (z c : BitVec 32)
    (g : (⟨0, ![]⟩ : Shape).BroadcastsInDim ⟨2, ![M, n]⟩ ![]) :
    RowsOf row
      (select (cmpf .oge A (broadcast ⟨2, ![m, n]⟩ (Scalar.ofBits (F := Ideal) .f32 z))) A
        (mulf (broadcast ⟨2, ![m, n]⟩ (Scalar.ofBits (F := Ideal) .f32 c)) A))
      (select (cmpf .oge X (broadcastInDim ⟨2, ![M, n]⟩ ![] g (constant (F := Ideal) ⟨0, ![]⟩ .f32 z))) X
        (mulf (broadcastInDim ⟨2, ![M, n]⟩ ![] g (id (constant (F := Ideal) ⟨0, ![]⟩ .f32 c))) X)) := by
  intro a b
  rw [select_apply, select_apply, cmpf_apply, cmpf_apply, mulf_apply, mulf_apply, broadcast_apply, broadcast_apply,
    Cert.LibHostReads.splat_apply, Cert.LibHostReads.splat_apply, h a b]
  rfl

/-- The hyperbolic tangent, entry by entry: the kernel's and the host's are one function of an extended real. -/
theorem RowsOf.tanh {row : Fin m → Fin M} {A : FVec Ideal ⟨2, ![m, n]⟩ φ} {X : FVec Ideal ⟨2, ![M, n]⟩ φ}
    (h : RowsOf row A X) : RowsOf row (tanh A) (Host.tanh X) :=
  fun a b => congrArg Ideal.tanh (h a b)

/-- The exponential, entry by entry: the kernel's and the host's are one function of an extended real. -/
theorem RowsOf.exp {row : Fin m → Fin M} {A : FVec Ideal ⟨2, ![m, n]⟩ φ} {X : FVec Ideal ⟨2, ![M, n]⟩ φ}
    (h : RowsOf row A X) : RowsOf row (exp A) (Host.exp X) :=
  fun a b => congrArg Ideal.exp (h a b)

/-- A product, entry by entry. -/
theorem RowsOf.mulf {row : Fin m → Fin M} {A B : FVec Ideal ⟨2, ![m, n]⟩ φ} {X Y : FVec Ideal ⟨2, ![M, n]⟩ φ}
    (hA : RowsOf row A X) (hB : RowsOf row B Y) : RowsOf row (mulf A B) (mulf X Y) :=
  fun a b => congrArg₂ (· * ·) (hA a b) (hB a b)

/-- A sum, entry by entry. -/
theorem RowsOf.addf {row : Fin m → Fin M} {A B : FVec Ideal ⟨2, ![m, n]⟩ φ} {X Y : FVec Ideal ⟨2, ![M, n]⟩ φ}
    (hA : RowsOf row A X) (hB : RowsOf row B Y) : RowsOf row (addf A B) (addf X Y) :=
  fun a b => congrArg₂ (· + ·) (hA a b) (hB a b)

/-- The columns from `o` on, `k` of them: the same cut of the block and of the matrix. -/
theorem RowsOf.cols {k : Nat} {row : Fin m → Fin M} {A : FVec Ideal ⟨2, ![m, n]⟩ φ} {X : FVec Ideal ⟨2, ![M, n]⟩ ψ}
    (h : RowsOf row A X) (o : Nat)
    (hs : (⟨2, ![m, n]⟩ : Shape).Slices ![0, o] ⟨2, ![m, k]⟩) (hs' : (⟨2, ![M, n]⟩ : Shape).Slices ![0, o] ⟨2, ![M, k]⟩) :
    RowsOf row (extractStridedSlice ⟨2, ![m, k]⟩ ![0, o] A hs) (extractStridedSlice ⟨2, ![M, k]⟩ ![0, o] X hs') := by
  intro a b
  rw [slice2_axis1_eq o A hs a b, slice2_axis1_eq o X hs' (row a) b]
  exact h a _

/-- The sum along each row: the kernel's lane reduction from the neutral accumulator against the host's reduction
    from an initial value that is zero. -/
theorem RowsOf.rowSum {row : Fin m → Fin M} {A : FVec Ideal ⟨2, ![m, n]⟩ φ} {X : FVec Ideal ⟨2, ![M, n]⟩ φ}
    (h : RowsOf row A X) (acc : BitVec φ.bits)
    (hr : (⟨2, ![m, n]⟩ : Shape).Reduces [(1 : Fin 2)] ⟨1, ![m]⟩) (hφ : FKind.Formats φ) (hacc : acc = FKind.add.neutral φ hφ)
    {u : Shape} (init : u.Idx → Ideal φ) (hr' : (⟨2, ![M, n]⟩ : Shape).ReducesTo [(1 : Fin 2)] ⟨1, ![M]⟩)
    (hR : (⟨2, ![M, n]⟩ : Shape).Reduces [(1 : Fin 2)] ⟨1, ![M]⟩) (hu : 0 < u.numel)
    (h0 : init (Shape.Idx.first hu) = 0) :
    RowsOf1 row (multiReduction .add [(1 : Fin 2)] ⟨1, ![m]⟩ A acc hr hφ hacc) (Host.reduceAdd X init hr' hu) := by
  intro a
  rw [multiReduction_add_row A acc hr hφ hacc a]
  show _ = Ideal.hostReduceAdd hr' X (init (Shape.Idx.first hu)) (ix1 (row a))
  rw [Ideal.hostReduceAdd_single hr' hR, h0, zero_add]
  exact Finset.sum_congr rfl fun k _ => by rw [lift_row hR (row a) k]; exact h a k

/-- A sum of two per-row vectors, entry by entry. -/
theorem RowsOf1.addf {row : Fin m → Fin M} {u v : FVec Ideal ⟨1, ![m]⟩ φ} {U V : FVec Ideal ⟨1, ![M]⟩ φ}
    (hu : RowsOf1 row u U) (hv : RowsOf1 row v V) : RowsOf1 row (addf u v) (addf U V) :=
  fun a => congrArg₂ (· + ·) (hu a) (hv a)

/-- A scalar laid along the rows: the kernel's broadcast of a scalar word against the host's rank-0 constant
    broadcast to the vector. -/
theorem RowsOf1.splat (row : Fin m → Fin M) (z : BitVec 32) (g : (⟨0, ![]⟩ : Shape).BroadcastsInDim ⟨1, ![M]⟩ ![]) :
    RowsOf1 row (broadcast ⟨1, ![m]⟩ (Scalar.ofBits (F := Ideal) .f32 z))
      (broadcastInDim ⟨1, ![M]⟩ ![] g (constant (F := Ideal) ⟨0, ![]⟩ .f32 z)) := by
  intro a
  rw [broadcast_apply, Cert.LibHostReads.splat_apply]
  rfl

/-- Two blocks set side by side along the columns: the concatenation of the blocks holds the rows of the
    concatenation of the matrices. -/
theorem RowsOf.concat {n₁ n₂ : Nat} {row : Fin m → Fin M}
    {A₁ : FVec Ideal ⟨2, ![m, n₁]⟩ φ} {X₁ : FVec Ideal ⟨2, ![M, n₁]⟩ φ} (h₁ : RowsOf row A₁ X₁)
    {A₂ : FVec Ideal ⟨2, ![m, n₂]⟩ φ} {X₂ : FVec Ideal ⟨2, ![M, n₂]⟩ φ} (h₂ : RowsOf row A₂ X₂)
    (hc : Shape.Concatenates [(⟨2, ![m, n₁]⟩ : Shape), ⟨2, ![m, n₂]⟩] ⟨2, ![m, n]⟩ (1 : Fin 2))
    (hc' : Shape.Concatenates [(⟨2, ![M, n₁]⟩ : Shape), ⟨2, ![M, n₂]⟩] ⟨2, ![M, n]⟩ (1 : Fin 2)) :
    RowsOf row (concatenate ⟨2, ![m, n]⟩ (1 : Fin 2) [⟨⟨2, ![m, n₁]⟩, A₁⟩, ⟨⟨2, ![m, n₂]⟩, A₂⟩] hc)
      (concatenate ⟨2, ![M, n]⟩ (1 : Fin 2) [⟨⟨2, ![M, n₁]⟩, X₁⟩, ⟨⟨2, ![M, n₂]⟩, X₂⟩] hc') := by
  intro a b
  by_cases hb : b.val < n₁
  · rw [concatenate_pair_apply_left (1 : Fin 2) A₁ A₂ hc (ix2 a b) rfl (ix2 a ⟨b.val, hb⟩)
        (fun c => by match c with | ⟨0, _⟩ => rfl | ⟨1, _⟩ => rfl),
      concatenate_pair_apply_left (1 : Fin 2) X₁ X₂ hc' (ix2 (row a) b) rfl (ix2 (row a) ⟨b.val, hb⟩)
        (fun c => by match c with | ⟨0, _⟩ => rfl | ⟨1, _⟩ => rfl)]
    exact h₁ a _
  · have hn : n₁ + n₂ = n := by have e := hc.2.2; simpa using e
    have hb2 : b.val - n₁ < n₂ := by have := b.isLt; omega
    rw [concatenate_pair_apply_right (1 : Fin 2) A₁ A₂ hc (ix2 a b) rfl rfl (ix2 a ⟨b.val - n₁, hb2⟩)
        (fun c hne => by match c with | ⟨0, _⟩ => rfl | ⟨1, _⟩ => exact absurd rfl hne)
        (by show b.val - n₁ + n₁ = b.val; omega),
      concatenate_pair_apply_right (1 : Fin 2) X₁ X₂ hc' (ix2 (row a) b) rfl rfl (ix2 (row a) ⟨b.val - n₁, hb2⟩)
        (fun c hne => by match c with | ⟨0, _⟩ => rfl | ⟨1, _⟩ => exact absurd rfl hne)
        (by show b.val - n₁ + n₁ = b.val; omega)]
    exact h₂ a _

end Cert.LibRowwise

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibMlpBlock.lean ====
/-
  A perceptron layer whose bias is held as a one-row matrix, on a block of rows, at the extended reals.

  A dense layer X·W + B with the bias B of shape [1,N] treats the rows of X independently: row r of the result depends
  on row r of X alone. So a tiled program that runs the layer on a block of rows of X (any selection of rows, given by
  a map `row` from the block's row numbers to the matrix's) gets that block of rows of the host's layer on the whole
  of X. This file states that for the three forms such a program prints — the product alone, the product plus the bias
  row, and a bias row added to a block that is already there — against the host's spelling with the row broadcast down
  the rows, as closure lemmas of the relation `RowsOf row A X` (entry (a, b) of the block A is entry (row a, b) of X).
  Nothing of real arithmetic is used beyond 0 + x = x, so every statement holds at the infinities too. Generic in the
  extents and the operand formats.
-/
import proofs.«127333_j31559419691459_1_alg».proof.Proof.LibRowwise
import proofs.«127333_j31559419691459_1_alg».proof.Proof.LibBiasRows

noncomputable section

namespace Cert.LibMlpBlock

open Idealize.ShloMosaic Idealize.ShloMosaic.ValueIdx Cert.LibRowwise

variable {m M K N : Nat}

/-- A one-row matrix passed through an identity cast and laid along the `m` rows of a block reads, at (p, q), the
    row's entry q. -/
theorem rowDown_apply (B : FVec Ideal ⟨2, ![1, N]⟩ .f32)
    (hs : (⟨2, ![1, N]⟩ : Shape).ShapeCasts ⟨2, ![1, N]⟩) (hbc : (⟨2, ![1, N]⟩ : Shape).Broadcasts ⟨2, ![m, N]⟩)
    (p : Fin m) (q : Fin N) :
    broadcastTo ⟨2, ![m, N]⟩ (shapeCast ⟨2, ![1, N]⟩ B hs) hbc (ix2 p q) = B (ix2 (0 : Fin 1) q) := by
  rw [broadcastTo_1b_ab_apply, shapeCast_self]

/-- A block that holds rows of X, read at a block index `j` against a matrix index `i` whose row is the row that
    `j`'s row stands for and whose column is `j`'s. -/
theorem RowsOf.entry {n : Nat} {φ ψ : FTy} {row : Fin m → Fin M}
    {A : FVec Ideal ⟨2, ![m, n]⟩ φ} {X : FVec Ideal ⟨2, ![M, n]⟩ ψ} (h : RowsOf row A X)
    (j : (⟨2, ![m, n]⟩ : Shape).Idx) (i : (⟨2, ![M, n]⟩ : Shape).Idx)
    (h0 : (i 0).val = (row (j 0)).val) (h1 : (i 1).val = (j 1).val) : A j = X i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact h (j 0) (j 1)

/-- The product alone: the block's product with the weights into the zero accumulator holds the rows of the host's
    product of the whole matrix. The weights agree entry by entry; the two dimension records are the plain ones. -/
theorem RowsOf.product {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b)) :
    RowsOf row (matmul D prec A B (constant (F := Ideal) ⟨2, ![m, N]⟩ .f32 0x00000000#32))
      (Host.dotGeneral D' prec' X W) := by
  subst hD hD'
  intro a b
  exact Cert.LibRowBlockDot.matmul_rowBlock_apply prec prec' X W A B row hA hB a b

/-- A bias row added to a block that holds rows of X, through the identity casts and the row broadcast a tiled
    program prints, holds the same rows of the host's X plus the row broadcast down the rows. -/
theorem RowsOf.biasRow {row : Fin m → Fin M}
    {A : FVec Ideal ⟨2, ![m, N]⟩ .f32} {X : FVec Ideal ⟨2, ![M, N]⟩ .f32} (hA : RowsOf row A X)
    {bk bh : FVec Ideal ⟨2, ![1, N]⟩ .f32} (hb : ∀ q, bk (ix2 (0 : Fin 1) q) = bh (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (g : (⟨2, ![1, N]⟩ : Shape).BroadcastsInDim ⟨2, ![M, N]⟩ (![0, 1] : Fin 2 → Fin 2)) :
    RowsOf row (addf (shapeCast ⟨2, ![m, N]⟩ A hs) (broadcastTo ⟨2, ![m, N]⟩ (shapeCast ⟨2, ![1, N]⟩ bk hs') hbc))
      (addf X (broadcastInDim ⟨2, ![M, N]⟩ ![0, 1] g bh)) := by
  intro a b
  rw [addf_apply, addf_apply, shapeCast_self, rowDown_apply, Cert.LibBiasRows.rowBcast_apply, hA a b, hb b]

/-- A dense layer with the bias as a one-row matrix: the block's product into the zero accumulator plus the row laid
    along every row of the block, against the host's product of the whole matrix plus the row broadcast down the rows. -/
theorem RowsOf.denseRow {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b))
    {bk bh : FVec Ideal ⟨2, ![1, N]⟩ .f32} (hb : ∀ q, bk (ix2 (0 : Fin 1) q) = bh (ix2 (0 : Fin 1) q))
    (hs' : (⟨2, ![1, N]⟩ : Shape).ShapeCasts ⟨2, ![1, N]⟩) (hbc : (⟨2, ![1, N]⟩ : Shape).Broadcasts ⟨2, ![m, N]⟩)
    (g : (⟨2, ![1, N]⟩ : Shape).BroadcastsInDim ⟨2, ![M, N]⟩ (![0, 1] : Fin 2 → Fin 2)) :
    RowsOf row
      (addf (matmul D prec A B (constant (F := Ideal) ⟨2, ![m, N]⟩ .f32 0x00000000#32))
        (broadcastTo ⟨2, ![m, N]⟩ (shapeCast ⟨2, ![1, N]⟩ bk hs') hbc))
      (addf (Host.dotGeneral D' prec' X W) (broadcastInDim ⟨2, ![M, N]⟩ ![0, 1] g bh)) := by
  intro a b
  rw [addf_apply, addf_apply, RowsOf.product D hD D' hD' prec prec' hA hB a b, rowDown_apply,
    Cert.LibBiasRows.rowBcast_apply, hb b]

end Cert.LibMlpBlock

end
-- ==== Proof.Region0.lean ====
/-
  The input projection's region: the node table it leaves, as one function of the whole arrays it found.

  The region runs over ten points; point t loads rows 10000·t … 10000·t + 9999 of the node features, the whole weight
  matrix and the whole bias row, and writes back the same rows of the node table. The projection leaky (X·W + B) treats
  the rows of X independently, so what a point computes on its block of rows is that block of rows of the projection
  of all of X; the ten blocks tile the table, so the table ends holding the projection of the whole arrays.
-/
import proofs.«127333_j31559419691459_1_alg».proof.Proof.Gen.KernelIdeal.Frame
import proofs.«127333_j31559419691459_1_alg».proof.Proof.Gen.ReferenceIdeal
import proofs.«127333_j31559419691459_1_alg».proof.Proof.Spec
import proofs.«127333_j31559419691459_1_alg».proof.Proof.LibMlpBlock
import Idealize.ShloMosaic.Lib.Pipeline.Value
noncomputable section
namespace Cert.KRegion
open Idealize.ShloMosaic Idealize.ShloMosaic.TcCoe Idealize.SL.Sem Cert.KernelIdeal Cert.KernelIdeal.Gen
open Idealize.ShloMosaic.ValueIdx Cert.LibRowwise Cert.LibMlpBlock

namespace Region0

/-- The offset of a block that starts at the origin, as a constant function. -/
theorem origin2 : (![0, 0] : Fin 2 → Nat) = fun _ => 0 := funext fun a => by fin_cases a <;> rfl

/-- The projection of a block of rows of the node features is that block of rows of the projection of all of them:
    the product with the weights, the bias row and the leaky rectifier all treat the rows independently. -/
theorem proj_rows {row : Fin 10000 → Fin 100000}
    (x0 : Vec Ideal S10000x13 .f32) (x1 : Vec Ideal S13x64 .f32) (x2 : Vec Ideal S1x64 .f32)
    (X : FVec Ideal S100000x13 .f32) (W : FVec Ideal S13x64 .f32) (B : FVec Ideal S1x64 .f32)
    (hx : RowsOf (φ := .f32) (ψ := .f32) row x0 X) (hw : ∀ c b, x1 (ix2 c b) = W (ix2 c b))
    (hb : ∀ q, x2 (ix2 (0 : Fin 1) q) = B (ix2 (0 : Fin 1) q)) :
    RowsOf (φ := .f32) (ψ := .f32) row (k0_pay1 x0 x1 x2) (Cert.Spec.proj X W B) := by
  unfold k0_pay1 Cert.Spec.proj Cert.Spec.leaky
  exact RowsOf.leaky (RowsOf.denseRow _ rfl _ rfl none none hx hw hb _ _ _) _ _ _

/-- The index maps, decided once over the grid: the node features and the result move one block of rows per
    point, the weights and the bias row stay where they are; a point's number is below the ten blocks. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- What point t writes back is block t of the projection of the whole arrays as the region finds them. -/
theorem flushed0 (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal) (Cert.Spec.proj (V c main_arg0) (V c main_arg3) (V c main_v4)) := by
  show (cfg0.win 3).cut (grid0.coords t) ((dat0 (F := Ideal) V c).after 3 t) = _
  rw [after0_3]
  unfold out0_3
  rw [View.canon_unit_zero origin2]
  simp only [View.ld_unit_zero (S := S10000x13) origin2, View.ld_unit_zero (S := S13x64) origin2,
    View.ld_unit_zero (S := S1x64) origin2]
  obtain ⟨e00, e01, e10, e11, e20, e21, e30, e31, ht⟩ := blockIndex0 t
  funext j
  show k0_pay1 (iblk0 V c 0 t) (iblk0 V c 1 t) (iblk0 V c 2 t) j
    = Cert.Spec.proj (V c main_arg0) (V c main_arg3) (V c main_v4) (((cfg0.win 3).blk t).view.emb j)
  refine RowsOf.entry (row := fun a : Fin 10000 => (⟨t.val * 10000 + a.val, by have := a.isLt; omega⟩ : Fin 100000))
    (proj_rows (iblk0 V c 0 t) (iblk0 V c 1 t) (iblk0 V c 2 t) _ _ _ ?_ ?_ ?_) j _ ?_ ?_
  · intro a b
    show V c main_arg0 (((cfg0.win 0).blk t).view.emb (ix2 a b)) = V c main_arg0 (ix2 _ b)
    congr 1
    funext d; apply Fin.ext
    match d with
    | ⟨0, _⟩ => show win0_0.index t (0 : Fin 2) * 10000 + 1 * a.val = t.val * 10000 + a.val; omega
    | ⟨1, _⟩ => show win0_0.index t (1 : Fin 2) * 13 + 1 * b.val = b.val; omega
  · intro a b
    show V c main_arg3 (((cfg0.win 1).blk t).view.emb (ix2 a b)) = V c main_arg3 (ix2 a b)
    congr 1
    funext d; apply Fin.ext
    match d with
    | ⟨0, _⟩ => show win0_1.index t (0 : Fin 2) * 13 + 1 * a.val = a.val; omega
    | ⟨1, _⟩ => show win0_1.index t (1 : Fin 2) * 64 + 1 * b.val = b.val; omega
  · intro q
    show V c main_v4 (((cfg0.win 2).blk t).view.emb (ix2 (0 : Fin 1) q)) = V c main_v4 (ix2 (0 : Fin 1) q)
    congr 1
    funext d; apply Fin.ext
    match d with
    | ⟨0, _⟩ => show win0_2.index t (0 : Fin 2) * 1 + 1 * 0 = 0; omega
    | ⟨1, _⟩ => show win0_2.index t (1 : Fin 2) * 64 + 1 * q.val = q.val; omega
  · show win0_3.index t (0 : Fin 2) * 10000 + 1 * (j 0).val = t.val * 10000 + (j 0).val; omega
  · show win0_3.index t (1 : Fin 2) * 64 + 1 * (j 1).val = (j 1).val; omega

/-- An index of the node table is in point t's block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v5).slice (win0_3.rect t)).set ↔ _
  rw [View.set_slice_whole, Rect.mem_set_unit]
  exact Iff.rfl

/-- Every row of the node table is in some point's block: row r is in the block of point r / 10000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have htv : t.val = (i 0).val / 10000 := rfl
  obtain ⟨-, -, -, -, -, -, e30, e31, -⟩ := blockIndex0 t
  refine ⟨t, flush0_3 t, ?_⟩
  rw [mem_block0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

end Region0

/-- The node table after the input projection's region is the projection of the whole arrays the region found. -/
theorem arr0 (V : (c : Dev nD) → (b : Ref sig .tc) → Buf (Elt Ideal) ((c : Thread nD τ).loc b)) (c : Dev nD) :
    (dat0 (F := Ideal) V c).arrAt 3 cfg0.N = Cert.Spec.proj (V c main_arg0) (V c main_arg3) (V c main_v4) :=
  (dat0 (F := Ideal) V c).arrAt_eq_of_cover 3 _ (fun t _ => Region0.flushed0 V c t) Region0.cover0

end Cert.KRegion
end
-- ==== Proof.LibLayerRows.lean ====
/-
  One dense update of a node table with two products, on a block of rows, at the extended reals.

  The update H·Ws + M·Wn + B followed by the leaky rectifier x ↦ (x ≥ z ? x : c·x), with the bias B of shape [1,N],
  treats the rows of H and of M independently: row r of the result depends on row r of H and row r of M alone. So a
  tiled program that runs the update on a block of rows of H and the same block of rows of M (any selection of rows,
  given by a map `row` from the block's row numbers to the tables') gets that block of rows of the host's update on
  the whole tables. This file states that as one closure lemma of the relation `RowsOf row A X` (entry (a, b) of the
  block A is entry (row a, b) of X), for the spelling a tiled program prints — each product into the zero accumulator,
  the bias row through an identity cast laid along the rows, the two scalars of the rectifier broadcast — against the
  host's spelling with the row broadcast down the rows and the scalars as rank-0 constants. Nothing of real arithmetic
  is used beyond 0 + x = x, so the statement holds at the infinities too. Generic in the extents.
-/
import proofs.«127333_j31559419691459_1_alg».proof.Proof.LibRowwise
import proofs.«127333_j31559419691459_1_alg».proof.Proof.LibBiasRows
import proofs.«127333_j31559419691459_1_alg».proof.Proof.LibMlpBlock

noncomputable section

namespace Cert.LibLayerRows

open Idealize.ShloMosaic Idealize.ShloMosaic.ValueIdx Cert.LibRowwise

variable {m M K N : Nat}

/-- A bias row laid along the rows of a block that holds rows of X holds the same rows of the host's X plus the row
    broadcast down the rows. -/
theorem RowsOf.plusRow {row : Fin m → Fin M}
    {A : FVec Ideal ⟨2, ![m, N]⟩ .f32} {X : FVec Ideal ⟨2, ![M, N]⟩ .f32} (hA : RowsOf row A X)
    {bk bh : FVec Ideal ⟨2, ![1, N]⟩ .f32} (hb : ∀ q, bk (ix2 (0 : Fin 1) q) = bh (ix2 (0 : Fin 1) q))
    (hs' : (⟨2, ![1, N]⟩ : Shape).ShapeCasts ⟨2, ![1, N]⟩) (hbc : (⟨2, ![1, N]⟩ : Shape).Broadcasts ⟨2, ![m, N]⟩)
    (g : (⟨2, ![1, N]⟩ : Shape).BroadcastsInDim ⟨2, ![M, N]⟩ (![0, 1] : Fin 2 → Fin 2)) :
    RowsOf row (addf A (broadcastTo ⟨2, ![m, N]⟩ (shapeCast ⟨2, ![1, N]⟩ bk hs') hbc))
      (addf X (broadcastInDim ⟨2, ![M, N]⟩ ![0, 1] g bh)) := by
  intro a b
  rw [addf_apply, addf_apply, Cert.LibMlpBlock.rowDown_apply, Cert.LibBiasRows.rowBcast_apply, hA a b, hb b]

/-- The dense update on a block of rows: the rectifier of the two products plus the bias row, on blocks that hold the
    rows `row` of H and of M, holds the rows `row` of the host's update of the whole tables. The weights and the bias
    agree entry by entry; the dimension records are the plain ones. -/
theorem RowsOf.update {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A₀ A₁ : FVec Ideal ⟨2, ![m, K]⟩ .f32} {H Mg : FVec Ideal ⟨2, ![M, K]⟩ .f32}
    (h₀ : RowsOf row A₀ H) (h₁ : RowsOf row A₁ Mg)
    {B₀ B₁ Ws Wn : FVec Ideal ⟨2, ![K, N]⟩ .f32}
    (hW₀ : ∀ c b, B₀ (ix2 c b) = Ws (ix2 c b)) (hW₁ : ∀ c b, B₁ (ix2 c b) = Wn (ix2 c b))
    {bk bh : FVec Ideal ⟨2, ![1, N]⟩ .f32} (hb : ∀ q, bk (ix2 (0 : Fin 1) q) = bh (ix2 (0 : Fin 1) q))
    (hs' : (⟨2, ![1, N]⟩ : Shape).ShapeCasts ⟨2, ![1, N]⟩) (hbc : (⟨2, ![1, N]⟩ : Shape).Broadcasts ⟨2, ![m, N]⟩)
    (g : (⟨2, ![1, N]⟩ : Shape).BroadcastsInDim ⟨2, ![M, N]⟩ (![0, 1] : Fin 2 → Fin 2))
    (z c : BitVec 32) (gz : (⟨0, ![]⟩ : Shape).BroadcastsInDim ⟨2, ![M, N]⟩ ![]) :
    RowsOf row
      (select (cmpf .oge
          (addf (addf (matmul D prec A₀ B₀ (constant (F := Ideal) ⟨2, ![m, N]⟩ .f32 0x00000000#32))
              (matmul D prec A₁ B₁ (constant (F := Ideal) ⟨2, ![m, N]⟩ .f32 0x00000000#32)))
            (broadcastTo ⟨2, ![m, N]⟩ (shapeCast ⟨2, ![1, N]⟩ bk hs') hbc))
          (broadcast ⟨2, ![m, N]⟩ (Scalar.ofBits (F := Ideal) .f32 z)))
        (addf (addf (matmul D prec A₀ B₀ (constant (F := Ideal) ⟨2, ![m, N]⟩ .f32 0x00000000#32))
            (matmul D prec A₁ B₁ (constant (F := Ideal) ⟨2, ![m, N]⟩ .f32 0x00000000#32)))
          (broadcastTo ⟨2, ![m, N]⟩ (shapeCast ⟨2, ![1, N]⟩ bk hs') hbc))
        (mulf (broadcast ⟨2, ![m, N]⟩ (Scalar.ofBits (F := Ideal) .f32 c))
          (addf (addf (matmul D prec A₀ B₀ (constant (F := Ideal) ⟨2, ![m, N]⟩ .f32 0x00000000#32))
              (matmul D prec A₁ B₁ (constant (F := Ideal) ⟨2, ![m, N]⟩ .f32 0x00000000#32)))
            (broadcastTo ⟨2, ![m, N]⟩ (shapeCast ⟨2, ![1, N]⟩ bk hs') hbc))))
      (select (cmpf .oge
          (addf (addf (Host.dotGeneral D' prec' H Ws) (Host.dotGeneral D' prec' Mg Wn))
            (broadcastInDim ⟨2, ![M, N]⟩ ![0, 1] g bh))
          (broadcastInDim ⟨2, ![M, N]⟩ ![] gz (constant (F := Ideal) ⟨0, ![]⟩ .f32 z)))
        (addf (addf (Host.dotGeneral D' prec' H Ws) (Host.dotGeneral D' prec' Mg Wn))
          (broadcastInDim ⟨2, ![M, N]⟩ ![0, 1] g bh))
        (mulf (broadcastInDim ⟨2, ![M, N]⟩ ![] gz (constant (F := Ideal) ⟨0, ![]⟩ .f32 c))
          (addf (addf (Host.dotGeneral D' prec' H Ws) (Host.dotGeneral D' prec' Mg Wn))
            (broadcastInDim ⟨2, ![M, N]⟩ ![0, 1] g bh)))) :=
  RowsOf.leaky
    (RowsOf.plusRow
      (RowsOf.addf (Cert.LibMlpBlock.RowsOf.product D hD D' hD' prec prec' h₀ hW₀)
        (Cert.LibMlpBlock.RowsOf.product D hD D' hD' prec prec' h₁ hW₁))
      hb hs' hbc g)
    z c gz

/-- The same with each operand of the two products through an identity cast, as a tiled program prints them. -/
theorem RowsOf.updateCast {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A₀ A₁ : FVec Ideal ⟨2, ![m, K]⟩ .f32} {H Mg : FVec Ideal ⟨2, ![M, K]⟩ .f32}
    (h₀ : RowsOf row A₀ H) (h₁ : RowsOf row A₁ Mg)
    {B₀ B₁ Ws Wn : FVec Ideal ⟨2, ![K, N]⟩ .f32}
    (hW₀ : ∀ c b, B₀ (ix2 c b) = Ws (ix2 c b)) (hW₁ : ∀ c b, B₁ (ix2 c b) = Wn (ix2 c b))
    {bk bh : FVec Ideal ⟨2, ![1, N]⟩ .f32} (hb : ∀ q, bk (ix2 (0 : Fin 1) q) = bh (ix2 (0 : Fin 1) q))
    (hsA : (⟨2, ![m, K]⟩ : Shape).ShapeCasts ⟨2, ![m, K]⟩) (hsB : (⟨2, ![K, N]⟩ : Shape).ShapeCasts ⟨2, ![K, N]⟩)
    (hs' : (⟨2, ![1, N]⟩ : Shape).ShapeCasts ⟨2, ![1, N]⟩) (hbc : (⟨2, ![1, N]⟩ : Shape).Broadcasts ⟨2, ![m, N]⟩)
    (g : (⟨2, ![1, N]⟩ : Shape).BroadcastsInDim ⟨2, ![M, N]⟩ (![0, 1] : Fin 2 → Fin 2))
    (z c : BitVec 32) (gz : (⟨0, ![]⟩ : Shape).BroadcastsInDim ⟨2, ![M, N]⟩ ![]) :
    RowsOf row
      (select (cmpf .oge (addf (addf (matmul D prec (shapeCast ⟨2, ![m, K]⟩ A₀ hsA) (shapeCast ⟨2, ![K, N]⟩ B₀ hsB) (constant (F := Ideal) ⟨2, ![m, N]⟩ .f32 0x00000000#32)) (matmul D prec (shapeCast ⟨2, ![m, K]⟩ A₁ hsA) (shapeCast ⟨2, ![K, N]⟩ B₁ hsB) (constant (F := Ideal) ⟨2, ![m, N]⟩ .f32 0x00000000#32))) (broadcastTo ⟨2, ![m, N]⟩ (shapeCast ⟨2, ![1, N]⟩ bk hs') hbc))
          (broadcast ⟨2, ![m, N]⟩ (Scalar.ofBits (F := Ideal) .f32 z)))
        (addf (addf (matmul D prec (shapeCast ⟨2, ![m, K]⟩ A₀ hsA) (shapeCast ⟨2, ![K, N]⟩ B₀ hsB) (constant (F := Ideal) ⟨2, ![m, N]⟩ .f32 0x00000000#32)) (matmul D prec (shapeCast ⟨2, ![m, K]⟩ A₁ hsA) (shapeCast ⟨2, ![K, N]⟩ B₁ hsB) (constant (F := Ideal) ⟨2, ![m, N]⟩ .f32 0x00000000#32))) (broadcastTo ⟨2, ![m, N]⟩ (shapeCast ⟨2, ![1, N]⟩ bk hs') hbc))
        (mulf (broadcast ⟨2, ![m, N]⟩ (Scalar.ofBits (F := Ideal) .f32 c)) (addf (addf (matmul D prec (shapeCast ⟨2, ![m, K]⟩ A₀ hsA) (shapeCast ⟨2, ![K, N]⟩ B₀ hsB) (constant (F := Ideal) ⟨2, ![m, N]⟩ .f32 0x00000000#32)) (matmul D prec (shapeCast ⟨2, ![m, K]⟩ A₁ hsA) (shapeCast ⟨2, ![K, N]⟩ B₁ hsB) (constant (F := Ideal) ⟨2, ![m, N]⟩ .f32 0x00000000#32))) (broadcastTo ⟨2, ![m, N]⟩ (shapeCast ⟨2, ![1, N]⟩ bk hs') hbc))))
      (select (cmpf .oge (addf (addf (Host.dotGeneral D' prec' H Ws) (Host.dotGeneral D' prec' Mg Wn)) (broadcastInDim ⟨2, ![M, N]⟩ ![0, 1] g bh))
          (broadcastInDim ⟨2, ![M, N]⟩ ![] gz (constant (F := Ideal) ⟨0, ![]⟩ .f32 z)))
        (addf (addf (Host.dotGeneral D' prec' H Ws) (Host.dotGeneral D' prec' Mg Wn)) (broadcastInDim ⟨2, ![M, N]⟩ ![0, 1] g bh))
        (mulf (broadcastInDim ⟨2, ![M, N]⟩ ![] gz (constant (F := Ideal) ⟨0, ![]⟩ .f32 c)) (addf (addf (Host.dotGeneral D' prec' H Ws) (Host.dotGeneral D' prec' Mg Wn)) (broadcastInDim ⟨2, ![M, N]⟩ ![0, 1] g bh)))) := by
  rw [shapeCast_self A₀ hsA, shapeCast_self A₁ hsA, shapeCast_self B₀ hsB, shapeCast_self B₁ hsB]
  exact RowsOf.update D hD D' hD' prec prec' h₀ h₁ hW₀ hW₁ hb hs' hbc g z c gz

/-- Row a of block k of m rows is row k·m + a of a table of M rows that holds the block. -/
def blockRow (k : Nat) (h : (k + 1) * m ≤ M) : Fin m → Fin M :=
  fun a => ⟨k * m + a.val, by have := a.isLt; rw [Nat.succ_mul] at h; omega⟩

theorem blockRow_val (k : Nat) (h : (k + 1) * m ≤ M) (a : Fin m) : (blockRow k h a).val = k * m + a.val := rfl

end Cert.LibLayerRows

end
-- ==== Proof.Region1.lean ====
/-
  The node table after the first message-passing layer's region, as one function of the arrays the region finds.

  The region walks a grid of 10 points; at point t it reads block t (10000 rows) of the node table and of the
  message table, the two weight matrices and the bias row whole, and writes block t of the output table with the
  rectifier of (node block)·Ws + (message block)·Wn + bias row. That arithmetic treats rows independently, so the block
  written at point t is block t of the dense update of the whole tables; the ten blocks tile the output table, so the
  table ends holding the dense update of the whole tables.
-/
import proofs.«127333_j31559419691459_1_alg».proof.Proof.Gen.KernelIdeal.Frame
import proofs.«127333_j31559419691459_1_alg».proof.Proof.Gen.ReferenceIdeal
import proofs.«127333_j31559419691459_1_alg».proof.Proof.Spec
import proofs.«127333_j31559419691459_1_alg».proof.Proof.LibLayerRows
import Idealize.ShloMosaic.Lib.Pipeline.Value
noncomputable section
namespace Cert.KRegion
open Idealize.ShloMosaic Idealize.ShloMosaic.TcCoe Idealize.SL.Sem Cert.KernelIdeal Cert.KernelIdeal.Gen
open Idealize.ShloMosaic.ValueIdx Cert.LibRowwise

/-- The body's arithmetic on blocks that hold the rows `row` of the two tables, with the weights and the bias row as
    they are, holds the rows `row` of the dense update of the whole tables. -/
theorem pay1_rows {row : Fin 10000 → Fin 100000}
    (x0 x1 : Vec Ideal S10000x64 .f32) (x2 x3 : Vec Ideal S64x64 .f32) (x4 : Vec Ideal S1x64 .f32)
    (H Mg : FVec Ideal Cert.ReferenceIdeal.S100000x64 .f32) (Ws Wn : FVec Ideal S64x64 .f32) (B : FVec Ideal S1x64 .f32)
    (h0 : RowsOf (φ := .f32) row x0 H) (h1 : RowsOf (φ := .f32) row x1 Mg)
    (h2 : ∀ c b, x2 (ix2 c b) = Ws (ix2 c b)) (h3 : ∀ c b, x3 (ix2 c b) = Wn (ix2 c b))
    (h4 : ∀ q, x4 (ix2 (0 : Fin 1) q) = B (ix2 (0 : Fin 1) q)) :
    RowsOf (φ := .f32) row (k1_pay1 (F := Ideal) x0 x1 x2 x3 x4) (Cert.Spec.layer H Mg Ws Wn B) :=
  Cert.LibLayerRows.RowsOf.updateCast _ rfl _ rfl none none h0 h1 h2 h3 h4 _ _ _ _ _ _ _ _

theorem hz1 : (![0, 0] : Fin 2 → Nat) = fun _ => 0 := funext fun a => by fin_cases a <;> rfl

/-- The printed index maps, decided over the grid: the two tables' windows and the output's move one block of rows per
    point, the weights' and the bias row's stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point `t`'s block of rows fits in the table. -/
theorem fits1 (t : Fin cfg1.N) : (t.val + 1) * 10000 ≤ 100000 := by
  have h := t.isLt
  have hN : cfg1.N = 10 := N_1
  omega

section
variable (V : (c : Dev nD) → (b : Ref sig .tc) → Buf (Elt Ideal) ((c : Thread nD τ).loc b))

/-- The first table's block at point `t` holds rows 10000·t … 10000·t + 9999 of it. -/
theorem rows1_0 (c : Dev nD) (t : Fin cfg1.N) :
    RowsOf (φ := .f32) (ψ := .f32) (Cert.LibLayerRows.blockRow t.val (fits1 t)) (iblk1 V c 0 t) (V c main_v5) := by
  obtain ⟨e0, e1, -⟩ := idx_facts1 t
  intro a b
  show V c main_v5 (((cfg1.win 0).blk t).view.emb (ix2 a b)) = V c main_v5 (ix2 (Cert.LibLayerRows.blockRow t.val (fits1 t) a) b)
  congr 1
  funext ax; apply Fin.ext
  match ax with
  | ⟨0, _⟩ => show win1_0.index t (0 : Fin 2) * 10000 + 1 * a.val = t.val * 10000 + a.val; omega
  | ⟨1, _⟩ => show win1_0.index t (1 : Fin 2) * 64 + 1 * b.val = b.val; omega

/-- The second table's block at point `t` holds the same rows of it. -/
theorem rows1_1 (c : Dev nD) (t : Fin cfg1.N) :
    RowsOf (φ := .f32) (ψ := .f32) (Cert.LibLayerRows.blockRow t.val (fits1 t)) (iblk1 V c 1 t) (V c main_v15) := by
  obtain ⟨-, -, e0, e1, -⟩ := idx_facts1 t
  intro a b
  show V c main_v15 (((cfg1.win 1).blk t).view.emb (ix2 a b)) = V c main_v15 (ix2 (Cert.LibLayerRows.blockRow t.val (fits1 t) a) b)
  congr 1
  funext ax; apply Fin.ext
  match ax with
  | ⟨0, _⟩ => show win1_1.index t (0 : Fin 2) * 10000 + 1 * a.val = t.val * 10000 + a.val; omega
  | ⟨1, _⟩ => show win1_1.index t (1 : Fin 2) * 64 + 1 * b.val = b.val; omega

/-- The first weight matrix's block at every point is the matrix. -/
theorem whole1_2 (c : Dev nD) (t : Fin cfg1.N) (p q : Fin 64) : iblk1 V c 2 t (ix2 p q) = V c main_v17 (ix2 p q) := by
  obtain ⟨-, -, -, -, e0, e1, -⟩ := idx_facts1 t
  show V c main_v17 (((cfg1.win 2).blk t).view.emb (ix2 p q)) = V c main_v17 (ix2 p q)
  congr 1
  funext ax; apply Fin.ext
  match ax with
  | ⟨0, _⟩ => show win1_2.index t (0 : Fin 2) * 64 + 1 * p.val = p.val; omega
  | ⟨1, _⟩ => show win1_2.index t (1 : Fin 2) * 64 + 1 * q.val = q.val; omega

/-- The second weight matrix's block at every point is the matrix. -/
theorem whole1_3 (c : Dev nD) (t : Fin cfg1.N) (p q : Fin 64) : iblk1 V c 3 t (ix2 p q) = V c main_v19 (ix2 p q) := by
  obtain ⟨-, -, -, -, -, -, e0, e1, -⟩ := idx_facts1 t
  show V c main_v19 (((cfg1.win 3).blk t).view.emb (ix2 p q)) = V c main_v19 (ix2 p q)
  congr 1
  funext ax; apply Fin.ext
  match ax with
  | ⟨0, _⟩ => show win1_3.index t (0 : Fin 2) * 64 + 1 * p.val = p.val; omega
  | ⟨1, _⟩ => show win1_3.index t (1 : Fin 2) * 64 + 1 * q.val = q.val; omega

/-- The bias row's block at every point is the row. -/
theorem whole1_4 (c : Dev nD) (t : Fin cfg1.N) (q : Fin 64) :
    iblk1 V c 4 t (ix2 (0 : Fin 1) q) = V c main_v22 (ix2 (0 : Fin 1) q) := by
  obtain ⟨-, -, -, -, -, -, -, -, e0, e1, -⟩ := idx_facts1 t
  show V c main_v22 (((cfg1.win 4).blk t).view.emb (ix2 (0 : Fin 1) q)) = V c main_v22 (ix2 (0 : Fin 1) q)
  congr 1
  funext ax; apply Fin.ext
  match ax with
  | ⟨0, _⟩ => show win1_4.index t (0 : Fin 2) * 1 + 1 * 0 = 0; omega
  | ⟨1, _⟩ => show win1_4.index t (1 : Fin 2) * 64 + 1 * q.val = q.val; omega

/-- WHAT POINT `t` WRITES BACK is block `t` of the dense update of the whole tables as the region finds them. -/
theorem flushed1_eq (c : Dev nD) (t : Fin cfg1.N) :
    (dat1 (F := Ideal) V c).flushed 5 t = ((cfg1.win 5).blk t).view.read (Elt Ideal)
      (Cert.Spec.layer (V c main_v5) (V c main_v15) (V c main_v17) (V c main_v19) (V c main_v22)) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S64x64) hz1, View.ld_unit_zero (S := S1x64) hz1]
  have hrows := pay1_rows (iblk1 V c 0 t) (iblk1 V c 1 t) (iblk1 V c 2 t) (iblk1 V c 3 t) (iblk1 V c 4 t)
    (V c main_v5) (V c main_v15) (V c main_v17) (V c main_v19) (V c main_v22)
    (rows1_0 V c t) (rows1_1 V c t) (whole1_2 V c t) (whole1_3 V c t) (whole1_4 V c t)
  obtain ⟨-, -, -, -, -, -, -, -, -, -, e0, e1⟩ := idx_facts1 t
  funext j
  refine Cert.LibMlpBlock.RowsOf.entry hrows ((cfg1.win 5).xinj (grid1.coords t) j) (((cfg1.win 5).blk t).view.emb j) ?_ ?_
  · show win1_5.index t (0 : Fin 2) * 10000 + 1 * (j 0).val = t.val * 10000 + (j 0).val; omega
  · show win1_5.index t (1 : Fin 2) * 64 + 1 * (j 1).val = (j 1).val; omega

/-- An index of the table is in point `t`'s block iff each coordinate is in the block's range on its axis. -/
theorem mem_blk1 (t : Fin cfg1.N) (i : Cert.ReferenceIdeal.S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v23).slice (win1_5.rect t)).set ↔ _
  rw [View.set_slice_whole, Rect.mem_set_unit]
  exact Iff.rfl

/-- Every index of the table is in the block of the point that its row, divided by 10000, names. -/
theorem cover1 (i : Cert.ReferenceIdeal.S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_5 _, ?_⟩
  rw [mem_blk1]
  obtain ⟨-, -, -, -, -, -, -, -, -, -, e0, e1⟩ := idx_facts1 ⟨(i 0).val / 10000, by rw [hN]; omega⟩
  intro a
  match a with
  | ⟨0, _⟩ =>
    show win1_5.index _ (0 : Fin 2) * 10000 ≤ (i 0).val ∧ (i 0).val < win1_5.index _ (0 : Fin 2) * 10000 + 10000
    rw [e0]; show (i 0).val / 10000 * 10000 ≤ (i 0).val ∧ (i 0).val < (i 0).val / 10000 * 10000 + 10000; omega
  | ⟨1, _⟩ =>
    show win1_5.index _ (1 : Fin 2) * 64 ≤ (i 1).val ∧ (i 1).val < win1_5.index _ (1 : Fin 2) * 64 + 64
    rw [e1]; omega

end

/-- THE TABLE after the region: the dense update of the whole tables as the region finds them. -/
theorem arr1 (V : (c : Dev nD) → (b : Ref sig .tc) → Buf (Elt Ideal) ((c : Thread nD τ).loc b)) (c : Dev nD) :
    (dat1 (F := Ideal) V c).arrAt 5 cfg1.N = Cert.Spec.layer (V c main_v5) (V c main_v15) (V c main_v17) (V c main_v19) (V c main_v22) :=
  (dat1 (F := Ideal) V c).arrAt_eq_of_cover 5 _ (fun t _ => flushed1_eq V c t) (cover1)

end Cert.KRegion
end
-- ==== Proof.Region2.lean ====
/-
  The node table after the second message-passing layer's region, as one function of the arrays the region finds.

  The region walks a grid of 10 points; at point t it reads block t (10000 rows) of the node table and of the
  message table, the two weight matrices and the bias row whole, and writes block t of the output table with the
  rectifier of (node block)·Ws + (message block)·Wn + bias row. That arithmetic treats rows independently, so the block
  written at point t is block t of the dense update of the whole tables; the ten blocks tile the output table, so the
  table ends holding the dense update of the whole tables.
-/
import proofs.«127333_j31559419691459_1_alg».proof.Proof.Gen.KernelIdeal.Frame
import proofs.«127333_j31559419691459_1_alg».proof.Proof.Gen.ReferenceIdeal
import proofs.«127333_j31559419691459_1_alg».proof.Proof.Spec
import proofs.«127333_j31559419691459_1_alg».proof.Proof.LibLayerRows
import Idealize.ShloMosaic.Lib.Pipeline.Value
noncomputable section
namespace Cert.KRegion
open Idealize.ShloMosaic Idealize.ShloMosaic.TcCoe Idealize.SL.Sem Cert.KernelIdeal Cert.KernelIdeal.Gen
open Idealize.ShloMosaic.ValueIdx Cert.LibRowwise

/-- The body's arithmetic on blocks that hold the rows `row` of the two tables, with the weights and the bias row as
    they are, holds the rows `row` of the dense update of the whole tables. -/
theorem pay2_rows {row : Fin 10000 → Fin 100000}
    (x0 x1 : Vec Ideal S10000x64 .f32) (x2 x3 : Vec Ideal S64x64 .f32) (x4 : Vec Ideal S1x64 .f32)
    (H Mg : FVec Ideal Cert.ReferenceIdeal.S100000x64 .f32) (Ws Wn : FVec Ideal S64x64 .f32) (B : FVec Ideal S1x64 .f32)
    (h0 : RowsOf (φ := .f32) row x0 H) (h1 : RowsOf (φ := .f32) row x1 Mg)
    (h2 : ∀ c b, x2 (ix2 c b) = Ws (ix2 c b)) (h3 : ∀ c b, x3 (ix2 c b) = Wn (ix2 c b))
    (h4 : ∀ q, x4 (ix2 (0 : Fin 1) q) = B (ix2 (0 : Fin 1) q)) :
    RowsOf (φ := .f32) row (k2_pay1 (F := Ideal) x0 x1 x2 x3 x4) (Cert.Spec.layer H Mg Ws Wn B) :=
  Cert.LibLayerRows.RowsOf.updateCast _ rfl _ rfl none none h0 h1 h2 h3 h4 _ _ _ _ _ _ _ _

theorem hz2 : (![0, 0] : Fin 2 → Nat) = fun _ => 0 := funext fun a => by fin_cases a <;> rfl

/-- The printed index maps, decided over the grid: the two tables' windows and the output's move one block of rows per
    point, the weights' and the bias row's stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Point `t`'s block of rows fits in the table. -/
theorem fits2 (t : Fin cfg2.N) : (t.val + 1) * 10000 ≤ 100000 := by
  have h := t.isLt
  have hN : cfg2.N = 10 := N_2
  omega

section
variable (V : (c : Dev nD) → (b : Ref sig .tc) → Buf (Elt Ideal) ((c : Thread nD τ).loc b))

/-- The first table's block at point `t` holds rows 10000·t … 10000·t + 9999 of it. -/
theorem rows2_0 (c : Dev nD) (t : Fin cfg2.N) :
    RowsOf (φ := .f32) (ψ := .f32) (Cert.LibLayerRows.blockRow t.val (fits2 t)) (iblk2 V c 0 t) (V c main_v23) := by
  obtain ⟨e0, e1, -⟩ := idx_facts2 t
  intro a b
  show V c main_v23 (((cfg2.win 0).blk t).view.emb (ix2 a b)) = V c main_v23 (ix2 (Cert.LibLayerRows.blockRow t.val (fits2 t) a) b)
  congr 1
  funext ax; apply Fin.ext
  match ax with
  | ⟨0, _⟩ => show win2_0.index t (0 : Fin 2) * 10000 + 1 * a.val = t.val * 10000 + a.val; omega
  | ⟨1, _⟩ => show win2_0.index t (1 : Fin 2) * 64 + 1 * b.val = b.val; omega

/-- The second table's block at point `t` holds the same rows of it. -/
theorem rows2_1 (c : Dev nD) (t : Fin cfg2.N) :
    RowsOf (φ := .f32) (ψ := .f32) (Cert.LibLayerRows.blockRow t.val (fits2 t)) (iblk2 V c 1 t) (V c main_v33) := by
  obtain ⟨-, -, e0, e1, -⟩ := idx_facts2 t
  intro a b
  show V c main_v33 (((cfg2.win 1).blk t).view.emb (ix2 a b)) = V c main_v33 (ix2 (Cert.LibLayerRows.blockRow t.val (fits2 t) a) b)
  congr 1
  funext ax; apply Fin.ext
  match ax with
  | ⟨0, _⟩ => show win2_1.index t (0 : Fin 2) * 10000 + 1 * a.val = t.val * 10000 + a.val; omega
  | ⟨1, _⟩ => show win2_1.index t (1 : Fin 2) * 64 + 1 * b.val = b.val; omega

/-- The first weight matrix's block at every point is the matrix. -/
theorem whole2_2 (c : Dev nD) (t : Fin cfg2.N) (p q : Fin 64) : iblk2 V c 2 t (ix2 p q) = V c main_v35 (ix2 p q) := by
  obtain ⟨-, -, -, -, e0, e1, -⟩ := idx_facts2 t
  show V c main_v35 (((cfg2.win 2).blk t).view.emb (ix2 p q)) = V c main_v35 (ix2 p q)
  congr 1
  funext ax; apply Fin.ext
  match ax with
  | ⟨0, _⟩ => show win2_2.index t (0 : Fin 2) * 64 + 1 * p.val = p.val; omega
  | ⟨1, _⟩ => show win2_2.index t (1 : Fin 2) * 64 + 1 * q.val = q.val; omega

/-- The second weight matrix's block at every point is the matrix. -/
theorem whole2_3 (c : Dev nD) (t : Fin cfg2.N) (p q : Fin 64) : iblk2 V c 3 t (ix2 p q) = V c main_v37 (ix2 p q) := by
  obtain ⟨-, -, -, -, -, -, e0, e1, -⟩ := idx_facts2 t
  show V c main_v37 (((cfg2.win 3).blk t).view.emb (ix2 p q)) = V c main_v37 (ix2 p q)
  congr 1
  funext ax; apply Fin.ext
  match ax with
  | ⟨0, _⟩ => show win2_3.index t (0 : Fin 2) * 64 + 1 * p.val = p.val; omega
  | ⟨1, _⟩ => show win2_3.index t (1 : Fin 2) * 64 + 1 * q.val = q.val; omega

/-- The bias row's block at every point is the row. -/
theorem whole2_4 (c : Dev nD) (t : Fin cfg2.N) (q : Fin 64) :
    iblk2 V c 4 t (ix2 (0 : Fin 1) q) = V c main_v40 (ix2 (0 : Fin 1) q) := by
  obtain ⟨-, -, -, -, -, -, -, -, e0, e1, -⟩ := idx_facts2 t
  show V c main_v40 (((cfg2.win 4).blk t).view.emb (ix2 (0 : Fin 1) q)) = V c main_v40 (ix2 (0 : Fin 1) q)
  congr 1
  funext ax; apply Fin.ext
  match ax with
  | ⟨0, _⟩ => show win2_4.index t (0 : Fin 2) * 1 + 1 * 0 = 0; omega
  | ⟨1, _⟩ => show win2_4.index t (1 : Fin 2) * 64 + 1 * q.val = q.val; omega

/-- WHAT POINT `t` WRITES BACK is block `t` of the dense update of the whole tables as the region finds them. -/
theorem flushed2_eq (c : Dev nD) (t : Fin cfg2.N) :
    (dat2 (F := Ideal) V c).flushed 5 t = ((cfg2.win 5).blk t).view.read (Elt Ideal)
      (Cert.Spec.layer (V c main_v23) (V c main_v33) (V c main_v35) (V c main_v37) (V c main_v40)) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S64x64) hz2, View.ld_unit_zero (S := S1x64) hz2]
  have hrows := pay2_rows (iblk2 V c 0 t) (iblk2 V c 1 t) (iblk2 V c 2 t) (iblk2 V c 3 t) (iblk2 V c 4 t)
    (V c main_v23) (V c main_v33) (V c main_v35) (V c main_v37) (V c main_v40)
    (rows2_0 V c t) (rows2_1 V c t) (whole2_2 V c t) (whole2_3 V c t) (whole2_4 V c t)
  obtain ⟨-, -, -, -, -, -, -, -, -, -, e0, e1⟩ := idx_facts2 t
  funext j
  refine Cert.LibMlpBlock.RowsOf.entry hrows ((cfg2.win 5).xinj (grid2.coords t) j) (((cfg2.win 5).blk t).view.emb j) ?_ ?_
  · show win2_5.index t (0 : Fin 2) * 10000 + 1 * (j 0).val = t.val * 10000 + (j 0).val; omega
  · show win2_5.index t (1 : Fin 2) * 64 + 1 * (j 1).val = (j 1).val; omega

/-- An index of the table is in point `t`'s block iff each coordinate is in the block's range on its axis. -/
theorem mem_blk2 (t : Fin cfg2.N) (i : Cert.ReferenceIdeal.S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v41).slice (win2_5.rect t)).set ↔ _
  rw [View.set_slice_whole, Rect.mem_set_unit]
  exact Iff.rfl

/-- Every index of the table is in the block of the point that its row, divided by 10000, names. -/
theorem cover2 (i : Cert.ReferenceIdeal.S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_5 _, ?_⟩
  rw [mem_blk2]
  obtain ⟨-, -, -, -, -, -, -, -, -, -, e0, e1⟩ := idx_facts2 ⟨(i 0).val / 10000, by rw [hN]; omega⟩
  intro a
  match a with
  | ⟨0, _⟩ =>
    show win2_5.index _ (0 : Fin 2) * 10000 ≤ (i 0).val ∧ (i 0).val < win2_5.index _ (0 : Fin 2) * 10000 + 10000
    rw [e0]; show (i 0).val / 10000 * 10000 ≤ (i 0).val ∧ (i 0).val < (i 0).val / 10000 * 10000 + 10000; omega
  | ⟨1, _⟩ =>
    show win2_5.index _ (1 : Fin 2) * 64 ≤ (i 1).val ∧ (i 1).val < win2_5.index _ (1 : Fin 2) * 64 + 64
    rw [e1]; omega

end

/-- THE TABLE after the region: the dense update of the whole tables as the region finds them. -/
theorem arr2 (V : (c : Dev nD) → (b : Ref sig .tc) → Buf (Elt Ideal) ((c : Thread nD τ).loc b)) (c : Dev nD) :
    (dat2 (F := Ideal) V c).arrAt 5 cfg2.N = Cert.Spec.layer (V c main_v23) (V c main_v33) (V c main_v35) (V c main_v37) (V c main_v40) :=
  (dat2 (F := Ideal) V c).arrAt_eq_of_cover 5 _ (fun t _ => flushed2_eq V c t) (cover2)

end Cert.KRegion
end
-- ==== Proof.Region3.lean ====
/-
  The node table after the third message-passing layer's region, as one function of the arrays the region finds.

  The region walks a grid of 10 points; at point t it reads block t (10000 rows) of the node table and of the
  message table, the two weight matrices and the bias row whole, and writes block t of the output table with the
  rectifier of (node block)·Ws + (message block)·Wn + bias row. That arithmetic treats rows independently, so the block
  written at point t is block t of the dense update of the whole tables; the ten blocks tile the output table, so the
  table ends holding the dense update of the whole tables.
-/
import proofs.«127333_j31559419691459_1_alg».proof.Proof.Gen.KernelIdeal.Frame
import proofs.«127333_j31559419691459_1_alg».proof.Proof.Gen.ReferenceIdeal
import proofs.«127333_j31559419691459_1_alg».proof.Proof.Spec
import proofs.«127333_j31559419691459_1_alg».proof.Proof.LibLayerRows
import Idealize.ShloMosaic.Lib.Pipeline.Value
noncomputable section
namespace Cert.KRegion
open Idealize.ShloMosaic Idealize.ShloMosaic.TcCoe Idealize.SL.Sem Cert.KernelIdeal Cert.KernelIdeal.Gen
open Idealize.ShloMosaic.ValueIdx Cert.LibRowwise

/-- The body's arithmetic on blocks that hold the rows `row` of the two tables, with the weights and the bias row as
    they are, holds the rows `row` of the dense update of the whole tables. -/
theorem pay3_rows {row : Fin 10000 → Fin 100000}
    (x0 x1 : Vec Ideal S10000x64 .f32) (x2 x3 : Vec Ideal S64x64 .f32) (x4 : Vec Ideal S1x64 .f32)
    (H Mg : FVec Ideal Cert.ReferenceIdeal.S100000x64 .f32) (Ws Wn : FVec Ideal S64x64 .f32) (B : FVec Ideal S1x64 .f32)
    (h0 : RowsOf (φ := .f32) row x0 H) (h1 : RowsOf (φ := .f32) row x1 Mg)
    (h2 : ∀ c b, x2 (ix2 c b) = Ws (ix2 c b)) (h3 : ∀ c b, x3 (ix2 c b) = Wn (ix2 c b))
    (h4 : ∀ q, x4 (ix2 (0 : Fin 1) q) = B (ix2 (0 : Fin 1) q)) :
    RowsOf (φ := .f32) row (k3_pay1 (F := Ideal) x0 x1 x2 x3 x4) (Cert.Spec.layer H Mg Ws Wn B) :=
  Cert.LibLayerRows.RowsOf.updateCast _ rfl _ rfl none none h0 h1 h2 h3 h4 _ _ _ _ _ _ _ _

theorem hz3 : (![0, 0] : Fin 2 → Nat) = fun _ => 0 := funext fun a => by fin_cases a <;> rfl

/-- The printed index maps, decided over the grid: the two tables' windows and the output's move one block of rows per
    point, the weights' and the bias row's stay at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Point `t`'s block of rows fits in the table. -/
theorem fits3 (t : Fin cfg3.N) : (t.val + 1) * 10000 ≤ 100000 := by
  have h := t.isLt
  have hN : cfg3.N = 10 := N_3
  omega

section
variable (V : (c : Dev nD) → (b : Ref sig .tc) → Buf (Elt Ideal) ((c : Thread nD τ).loc b))

/-- The first table's block at point `t` holds rows 10000·t … 10000·t + 9999 of it. -/
theorem rows3_0 (c : Dev nD) (t : Fin cfg3.N) :
    RowsOf (φ := .f32) (ψ := .f32) (Cert.LibLayerRows.blockRow t.val (fits3 t)) (iblk3 V c 0 t) (V c main_v41) := by
  obtain ⟨e0, e1, -⟩ := idx_facts3 t
  intro a b
  show V c main_v41 (((cfg3.win 0).blk t).view.emb (ix2 a b)) = V c main_v41 (ix2 (Cert.LibLayerRows.blockRow t.val (fits3 t) a) b)
  congr 1
  funext ax; apply Fin.ext
  match ax with
  | ⟨0, _⟩ => show win3_0.index t (0 : Fin 2) * 10000 + 1 * a.val = t.val * 10000 + a.val; omega
  | ⟨1, _⟩ => show win3_0.index t (1 : Fin 2) * 64 + 1 * b.val = b.val; omega

/-- The second table's block at point `t` holds the same rows of it. -/
theorem rows3_1 (c : Dev nD) (t : Fin cfg3.N) :
    RowsOf (φ := .f32) (ψ := .f32) (Cert.LibLayerRows.blockRow t.val (fits3 t)) (iblk3 V c 1 t) (V c main_v51) := by
  obtain ⟨-, -, e0, e1, -⟩ := idx_facts3 t
  intro a b
  show V c main_v51 (((cfg3.win 1).blk t).view.emb (ix2 a b)) = V c main_v51 (ix2 (Cert.LibLayerRows.blockRow t.val (fits3 t) a) b)
  congr 1
  funext ax; apply Fin.ext
  match ax with
  | ⟨0, _⟩ => show win3_1.index t (0 : Fin 2) * 10000 + 1 * a.val = t.val * 10000 + a.val; omega
  | ⟨1, _⟩ => show win3_1.index t (1 : Fin 2) * 64 + 1 * b.val = b.val; omega

/-- The first weight matrix's block at every point is the matrix. -/
theorem whole3_2 (c : Dev nD) (t : Fin cfg3.N) (p q : Fin 64) : iblk3 V c 2 t (ix2 p q) = V c main_v53 (ix2 p q) := by
  obtain ⟨-, -, -, -, e0, e1, -⟩ := idx_facts3 t
  show V c main_v53 (((cfg3.win 2).blk t).view.emb (ix2 p q)) = V c main_v53 (ix2 p q)
  congr 1
  funext ax; apply Fin.ext
  match ax with
  | ⟨0, _⟩ => show win3_2.index t (0 : Fin 2) * 64 + 1 * p.val = p.val; omega
  | ⟨1, _⟩ => show win3_2.index t (1 : Fin 2) * 64 + 1 * q.val = q.val; omega

/-- The second weight matrix's block at every point is the matrix. -/
theorem whole3_3 (c : Dev nD) (t : Fin cfg3.N) (p q : Fin 64) : iblk3 V c 3 t (ix2 p q) = V c main_v55 (ix2 p q) := by
  obtain ⟨-, -, -, -, -, -, e0, e1, -⟩ := idx_facts3 t
  show V c main_v55 (((cfg3.win 3).blk t).view.emb (ix2 p q)) = V c main_v55 (ix2 p q)
  congr 1
  funext ax; apply Fin.ext
  match ax with
  | ⟨0, _⟩ => show win3_3.index t (0 : Fin 2) * 64 + 1 * p.val = p.val; omega
  | ⟨1, _⟩ => show win3_3.index t (1 : Fin 2) * 64 + 1 * q.val = q.val; omega

/-- The bias row's block at every point is the row. -/
theorem whole3_4 (c : Dev nD) (t : Fin cfg3.N) (q : Fin 64) :
    iblk3 V c 4 t (ix2 (0 : Fin 1) q) = V c main_v58 (ix2 (0 : Fin 1) q) := by
  obtain ⟨-, -, -, -, -, -, -, -, e0, e1, -⟩ := idx_facts3 t
  show V c main_v58 (((cfg3.win 4).blk t).view.emb (ix2 (0 : Fin 1) q)) = V c main_v58 (ix2 (0 : Fin 1) q)
  congr 1
  funext ax; apply Fin.ext
  match ax with
  | ⟨0, _⟩ => show win3_4.index t (0 : Fin 2) * 1 + 1 * 0 = 0; omega
  | ⟨1, _⟩ => show win3_4.index t (1 : Fin 2) * 64 + 1 * q.val = q.val; omega

/-- WHAT POINT `t` WRITES BACK is block `t` of the dense update of the whole tables as the region finds them. -/
theorem flushed3_eq (c : Dev nD) (t : Fin cfg3.N) :
    (dat3 (F := Ideal) V c).flushed 5 t = ((cfg3.win 5).blk t).view.read (Elt Ideal)
      (Cert.Spec.layer (V c main_v41) (V c main_v51) (V c main_v53) (V c main_v55) (V c main_v58)) := by
  show (cfg3.win 5).cut (grid3.coords t) ((dat3 V c).after 5 t) = _
  rw [after3_5]
  unfold out3_5
  rw [View.canon_unit_zero hz3]
  simp only [View.ld_unit_zero (S := S10000x64) hz3, View.ld_unit_zero (S := S64x64) hz3, View.ld_unit_zero (S := S1x64) hz3]
  have hrows := pay3_rows (iblk3 V c 0 t) (iblk3 V c 1 t) (iblk3 V c 2 t) (iblk3 V c 3 t) (iblk3 V c 4 t)
    (V c main_v41) (V c main_v51) (V c main_v53) (V c main_v55) (V c main_v58)
    (rows3_0 V c t) (rows3_1 V c t) (whole3_2 V c t) (whole3_3 V c t) (whole3_4 V c t)
  obtain ⟨-, -, -, -, -, -, -, -, -, -, e0, e1⟩ := idx_facts3 t
  funext j
  refine Cert.LibMlpBlock.RowsOf.entry hrows ((cfg3.win 5).xinj (grid3.coords t) j) (((cfg3.win 5).blk t).view.emb j) ?_ ?_
  · show win3_5.index t (0 : Fin 2) * 10000 + 1 * (j 0).val = t.val * 10000 + (j 0).val; omega
  · show win3_5.index t (1 : Fin 2) * 64 + 1 * (j 1).val = (j 1).val; omega

/-- An index of the table is in point `t`'s block iff each coordinate is in the block's range on its axis. -/
theorem mem_blk3 (t : Fin cfg3.N) (i : Cert.ReferenceIdeal.S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v59).slice (win3_5.rect t)).set ↔ _
  rw [View.set_slice_whole, Rect.mem_set_unit]
  exact Iff.rfl

/-- Every index of the table is in the block of the point that its row, divided by 10000, names. -/
theorem cover3 (i : Cert.ReferenceIdeal.S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_5 _, ?_⟩
  rw [mem_blk3]
  obtain ⟨-, -, -, -, -, -, -, -, -, -, e0, e1⟩ := idx_facts3 ⟨(i 0).val / 10000, by rw [hN]; omega⟩
  intro a
  match a with
  | ⟨0, _⟩ =>
    show win3_5.index _ (0 : Fin 2) * 10000 ≤ (i 0).val ∧ (i 0).val < win3_5.index _ (0 : Fin 2) * 10000 + 10000
    rw [e0]; show (i 0).val / 10000 * 10000 ≤ (i 0).val ∧ (i 0).val < (i 0).val / 10000 * 10000 + 10000; omega
  | ⟨1, _⟩ =>
    show win3_5.index _ (1 : Fin 2) * 64 ≤ (i 1).val ∧ (i 1).val < win3_5.index _ (1 : Fin 2) * 64 + 64
    rw [e1]; omega

end

/-- THE TABLE after the region: the dense update of the whole tables as the region finds them. -/
theorem arr3 (V : (c : Dev nD) → (b : Ref sig .tc) → Buf (Elt Ideal) ((c : Thread nD τ).loc b)) (c : Dev nD) :
    (dat3 (F := Ideal) V c).arrAt 5 cfg3.N = Cert.Spec.layer (V c main_v41) (V c main_v51) (V c main_v53) (V c main_v55) (V c main_v58) :=
  (dat3 (F := Ideal) V c).arrAt_eq_of_cover 5 _ (fun t _ => flushed3_eq V c t) (cover3)

end Cert.KRegion
end
-- ==== Proof.Region4.lean ====
/-
  The node table after the fourth message-passing layer's region, as one function of the arrays the region finds.

  The region walks a grid of 10 points; at point t it reads block t (10000 rows) of the node table and of the
  message table, the two weight matrices and the bias row whole, and writes block t of the output table with the
  rectifier of (node block)·Ws + (message block)·Wn + bias row. That arithmetic treats rows independently, so the block
  written at point t is block t of the dense update of the whole tables; the ten blocks tile the output table, so the
  table ends holding the dense update of the whole tables.
-/
import proofs.«127333_j31559419691459_1_alg».proof.Proof.Gen.KernelIdeal.Frame
import proofs.«127333_j31559419691459_1_alg».proof.Proof.Gen.ReferenceIdeal
import proofs.«127333_j31559419691459_1_alg».proof.Proof.Spec
import proofs.«127333_j31559419691459_1_alg».proof.Proof.LibLayerRows
import Idealize.ShloMosaic.Lib.Pipeline.Value
noncomputable section
namespace Cert.KRegion
open Idealize.ShloMosaic Idealize.ShloMosaic.TcCoe Idealize.SL.Sem Cert.KernelIdeal Cert.KernelIdeal.Gen
open Idealize.ShloMosaic.ValueIdx Cert.LibRowwise

/-- The body's arithmetic on blocks that hold the rows `row` of the two tables, with the weights and the bias row as
    they are, holds the rows `row` of the dense update of the whole tables. -/
theorem pay4_rows {row : Fin 10000 → Fin 100000}
    (x0 x1 : Vec Ideal S10000x64 .f32) (x2 x3 : Vec Ideal S64x64 .f32) (x4 : Vec Ideal S1x64 .f32)
    (H Mg : FVec Ideal Cert.ReferenceIdeal.S100000x64 .f32) (Ws Wn : FVec Ideal S64x64 .f32) (B : FVec Ideal S1x64 .f32)
    (h0 : RowsOf (φ := .f32) row x0 H) (h1 : RowsOf (φ := .f32) row x1 Mg)
    (h2 : ∀ c b, x2 (ix2 c b) = Ws (ix2 c b)) (h3 : ∀ c b, x3 (ix2 c b) = Wn (ix2 c b))
    (h4 : ∀ q, x4 (ix2 (0 : Fin 1) q) = B (ix2 (0 : Fin 1) q)) :
    RowsOf (φ := .f32) row (k4_pay1 (F := Ideal) x0 x1 x2 x3 x4) (Cert.Spec.layer H Mg Ws Wn B) :=
  Cert.LibLayerRows.RowsOf.updateCast _ rfl _ rfl none none h0 h1 h2 h3 h4 _ _ _ _ _ _ _ _

theorem hz4 : (![0, 0] : Fin 2 → Nat) = fun _ => 0 := funext fun a => by fin_cases a <;> rfl

/-- The printed index maps, decided over the grid: the two tables' windows and the output's move one block of rows per
    point, the weights' and the bias row's stay at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Point `t`'s block of rows fits in the table. -/
theorem fits4 (t : Fin cfg4.N) : (t.val + 1) * 10000 ≤ 100000 := by
  have h := t.isLt
  have hN : cfg4.N = 10 := N_4
  omega

section
variable (V : (c : Dev nD) → (b : Ref sig .tc) → Buf (Elt Ideal) ((c : Thread nD τ).loc b))

/-- The first table's block at point `t` holds rows 10000·t … 10000·t + 9999 of it. -/
theorem rows4_0 (c : Dev nD) (t : Fin cfg4.N) :
    RowsOf (φ := .f32) (ψ := .f32) (Cert.LibLayerRows.blockRow t.val (fits4 t)) (iblk4 V c 0 t) (V c main_v59) := by
  obtain ⟨e0, e1, -⟩ := idx_facts4 t
  intro a b
  show V c main_v59 (((cfg4.win 0).blk t).view.emb (ix2 a b)) = V c main_v59 (ix2 (Cert.LibLayerRows.blockRow t.val (fits4 t) a) b)
  congr 1
  funext ax; apply Fin.ext
  match ax with
  | ⟨0, _⟩ => show win4_0.index t (0 : Fin 2) * 10000 + 1 * a.val = t.val * 10000 + a.val; omega
  | ⟨1, _⟩ => show win4_0.index t (1 : Fin 2) * 64 + 1 * b.val = b.val; omega

/-- The second table's block at point `t` holds the same rows of it. -/
theorem rows4_1 (c : Dev nD) (t : Fin cfg4.N) :
    RowsOf (φ := .f32) (ψ := .f32) (Cert.LibLayerRows.blockRow t.val (fits4 t)) (iblk4 V c 1 t) (V c main_v69) := by
  obtain ⟨-, -, e0, e1, -⟩ := idx_facts4 t
  intro a b
  show V c main_v69 (((cfg4.win 1).blk t).view.emb (ix2 a b)) = V c main_v69 (ix2 (Cert.LibLayerRows.blockRow t.val (fits4 t) a) b)
  congr 1
  funext ax; apply Fin.ext
  match ax with
  | ⟨0, _⟩ => show win4_1.index t (0 : Fin 2) * 10000 + 1 * a.val = t.val * 10000 + a.val; omega
  | ⟨1, _⟩ => show win4_1.index t (1 : Fin 2) * 64 + 1 * b.val = b.val; omega

/-- The first weight matrix's block at every point is the matrix. -/
theorem whole4_2 (c : Dev nD) (t : Fin cfg4.N) (p q : Fin 64) : iblk4 V c 2 t (ix2 p q) = V c main_v71 (ix2 p q) := by
  obtain ⟨-, -, -, -, e0, e1, -⟩ := idx_facts4 t
  show V c main_v71 (((cfg4.win 2).blk t).view.emb (ix2 p q)) = V c main_v71 (ix2 p q)
  congr 1
  funext ax; apply Fin.ext
  match ax with
  | ⟨0, _⟩ => show win4_2.index t (0 : Fin 2) * 64 + 1 * p.val = p.val; omega
  | ⟨1, _⟩ => show win4_2.index t (1 : Fin 2) * 64 + 1 * q.val = q.val; omega

/-- The second weight matrix's block at every point is the matrix. -/
theorem whole4_3 (c : Dev nD) (t : Fin cfg4.N) (p q : Fin 64) : iblk4 V c 3 t (ix2 p q) = V c main_v73 (ix2 p q) := by
  obtain ⟨-, -, -, -, -, -, e0, e1, -⟩ := idx_facts4 t
  show V c main_v73 (((cfg4.win 3).blk t).view.emb (ix2 p q)) = V c main_v73 (ix2 p q)
  congr 1
  funext ax; apply Fin.ext
  match ax with
  | ⟨0, _⟩ => show win4_3.index t (0 : Fin 2) * 64 + 1 * p.val = p.val; omega
  | ⟨1, _⟩ => show win4_3.index t (1 : Fin 2) * 64 + 1 * q.val = q.val; omega

/-- The bias row's block at every point is the row. -/
theorem whole4_4 (c : Dev nD) (t : Fin cfg4.N) (q : Fin 64) :
    iblk4 V c 4 t (ix2 (0 : Fin 1) q) = V c main_v76 (ix2 (0 : Fin 1) q) := by
  obtain ⟨-, -, -, -, -, -, -, -, e0, e1, -⟩ := idx_facts4 t
  show V c main_v76 (((cfg4.win 4).blk t).view.emb (ix2 (0 : Fin 1) q)) = V c main_v76 (ix2 (0 : Fin 1) q)
  congr 1
  funext ax; apply Fin.ext
  match ax with
  | ⟨0, _⟩ => show win4_4.index t (0 : Fin 2) * 1 + 1 * 0 = 0; omega
  | ⟨1, _⟩ => show win4_4.index t (1 : Fin 2) * 64 + 1 * q.val = q.val; omega

/-- WHAT POINT `t` WRITES BACK is block `t` of the dense update of the whole tables as the region finds them. -/
theorem flushed4_eq (c : Dev nD) (t : Fin cfg4.N) :
    (dat4 (F := Ideal) V c).flushed 5 t = ((cfg4.win 5).blk t).view.read (Elt Ideal)
      (Cert.Spec.layer (V c main_v59) (V c main_v69) (V c main_v71) (V c main_v73) (V c main_v76)) := by
  show (cfg4.win 5).cut (grid4.coords t) ((dat4 V c).after 5 t) = _
  rw [after4_5]
  unfold out4_5
  rw [View.canon_unit_zero hz4]
  simp only [View.ld_unit_zero (S := S10000x64) hz4, View.ld_unit_zero (S := S64x64) hz4, View.ld_unit_zero (S := S1x64) hz4]
  have hrows := pay4_rows (iblk4 V c 0 t) (iblk4 V c 1 t) (iblk4 V c 2 t) (iblk4 V c 3 t) (iblk4 V c 4 t)
    (V c main_v59) (V c main_v69) (V c main_v71) (V c main_v73) (V c main_v76)
    (rows4_0 V c t) (rows4_1 V c t) (whole4_2 V c t) (whole4_3 V c t) (whole4_4 V c t)
  obtain ⟨-, -, -, -, -, -, -, -, -, -, e0, e1⟩ := idx_facts4 t
  funext j
  refine Cert.LibMlpBlock.RowsOf.entry hrows ((cfg4.win 5).xinj (grid4.coords t) j) (((cfg4.win 5).blk t).view.emb j) ?_ ?_
  · show win4_5.index t (0 : Fin 2) * 10000 + 1 * (j 0).val = t.val * 10000 + (j 0).val; omega
  · show win4_5.index t (1 : Fin 2) * 64 + 1 * (j 1).val = (j 1).val; omega

/-- An index of the table is in point `t`'s block iff each coordinate is in the block's range on its axis. -/
theorem mem_blk4 (t : Fin cfg4.N) (i : Cert.ReferenceIdeal.S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v77).slice (win4_5.rect t)).set ↔ _
  rw [View.set_slice_whole, Rect.mem_set_unit]
  exact Iff.rfl

/-- Every index of the table is in the block of the point that its row, divided by 10000, names. -/
theorem cover4 (i : Cert.ReferenceIdeal.S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 10 := N_4
  refine ⟨⟨(i 0).val / 10000, by rw [hN]; omega⟩, flush4_5 _, ?_⟩
  rw [mem_blk4]
  obtain ⟨-, -, -, -, -, -, -, -, -, -, e0, e1⟩ := idx_facts4 ⟨(i 0).val / 10000, by rw [hN]; omega⟩
  intro a
  match a with
  | ⟨0, _⟩ =>
    show win4_5.index _ (0 : Fin 2) * 10000 ≤ (i 0).val ∧ (i 0).val < win4_5.index _ (0 : Fin 2) * 10000 + 10000
    rw [e0]; show (i 0).val / 10000 * 10000 ≤ (i 0).val ∧ (i 0).val < (i 0).val / 10000 * 10000 + 10000; omega
  | ⟨1, _⟩ =>
    show win4_5.index _ (1 : Fin 2) * 64 ≤ (i 1).val ∧ (i 1).val < win4_5.index _ (1 : Fin 2) * 64 + 64
    rw [e1]; omega

end

/-- THE TABLE after the region: the dense update of the whole tables as the region finds them. -/
theorem arr4 (V : (c : Dev nD) → (b : Ref sig .tc) → Buf (Elt Ideal) ((c : Thread nD τ).loc b)) (c : Dev nD) :
    (dat4 (F := Ideal) V c).arrAt 5 cfg4.N = Cert.Spec.layer (V c main_v59) (V c main_v69) (V c main_v71) (V c main_v73) (V c main_v76) :=
  (dat4 (F := Ideal) V c).arrAt_eq_of_cover 5 _ (fun t _ => flushed4_eq V c t) (cover4)

end Cert.KRegion
end
-- ==== Proof.LibNormRows.lean ====
/-
  Row-wise normalization on a block of rows, at the extended reals.

  Layer normalization treats the rows of a matrix independently: the mean of a row, the mean of the squared
  deviations of that row, the reciprocal square root of that mean plus a constant, the scaling by a weight row and the
  shift by a bias row all read one row of the operand and small parameter rows. So a tiled program that normalizes a
  BLOCK of rows of X — the rows `row a` for a in the block — gets that block of rows of the host's normalization of the
  whole of X. This file adds the closure lemmas of the relation `RowsOf row A X` (entry (a, b) of the block A is entry
  (row a, b) of X) for the operations such code is made of, a kernel's spelling against the host's — a difference, a
  quotient, a reciprocal square root, a scalar laid over a block, a per-row vector made a column, a column laid along the
  rows, a parameter row laid down the rows — and the whole normalization as one statement. Nothing of real arithmetic is
  used beyond 0 + x = x (inside the row sum), so every statement holds at the infinities too. Generic in the extents.
-/
import proofs.«127333_j31559419691459_1_alg».proof.Proof.LibRowwise
import proofs.«127333_j31559419691459_1_alg».proof.Proof.LibMlpBlock

noncomputable section

open scoped BigOperators

namespace Cert.LibNormRows

open Idealize.ShloMosaic Idealize.ShloMosaic.ValueIdx Cert.LibRowwise

variable {m M n : Nat} {φ : FTy}

/-- A difference, entry by entry. -/
theorem rowsOf_subf {row : Fin m → Fin M} {A B : FVec Ideal ⟨2, ![m, n]⟩ φ} {X Y : FVec Ideal ⟨2, ![M, n]⟩ φ}
    (hA : RowsOf row A X) (hB : RowsOf row B Y) : RowsOf row (subf A B) (subf X Y) :=
  fun a b => congrArg₂ (· - ·) (hA a b) (hB a b)

/-- A quotient, entry by entry: the kernel's and the host's division are one function of two extended reals. -/
theorem rowsOf_divf {row : Fin m → Fin M} {A B : FVec Ideal ⟨2, ![m, n]⟩ φ} {X Y : FVec Ideal ⟨2, ![M, n]⟩ φ}
    (hA : RowsOf row A X) (hB : RowsOf row B Y) : RowsOf row (divf A B) (Host.divf X Y) :=
  fun a b => congrArg₂ Ideal.div (hA a b) (hB a b)

/-- The reciprocal square root, entry by entry: the kernel's and the host's are one function of an extended real. -/
theorem rowsOf_rsqrt {row : Fin m → Fin M} {A : FVec Ideal ⟨2, ![m, n]⟩ φ} {X : FVec Ideal ⟨2, ![M, n]⟩ φ}
    (h : RowsOf row A X) : RowsOf row (rsqrt A) (Host.rsqrt X) :=
  fun a b => congrArg Ideal.rsqrt (h a b)

/-- A scalar laid over a block: the kernel's broadcast of a scalar word against the host's rank-0 constant broadcast
    to the matrix. -/
theorem rowsOf_splat (row : Fin m → Fin M) (z : BitVec 32) (g : (⟨0, ![]⟩ : Shape).BroadcastsInDim ⟨2, ![M, n]⟩ ![]) :
    RowsOf row (broadcast ⟨2, ![m, n]⟩ (Scalar.ofBits (F := Ideal) .f32 z))
      (broadcastInDim ⟨2, ![M, n]⟩ ![] g (constant (F := Ideal) ⟨0, ![]⟩ .f32 z)) := by
  intro a b
  rw [broadcast_apply, Cert.LibHostReads.splat_apply]
  rfl

/-- One number per row made a column: the kernel's cast [m] → [m,1] against the host's broadcast [M] → [M,1] along
    axis 0. -/
theorem rowsOf_toCol {row : Fin m → Fin M} {u : FVec Ideal ⟨1, ![m]⟩ φ} {U : FVec Ideal ⟨1, ![M]⟩ φ}
    (h : RowsOf1 row u U) (hM : M ≠ 1) (hs : (⟨1, ![m]⟩ : Shape).ShapeCasts ⟨2, ![m, 1]⟩)
    (g : (⟨1, ![M]⟩ : Shape).BroadcastsInDim ⟨2, ![M, 1]⟩ ![0]) :
    RowsOf row (shapeCast ⟨2, ![m, 1]⟩ u hs) (broadcastInDim ⟨2, ![M, 1]⟩ ![0] g U) := by
  intro a b
  rw [shapeCast_a_a1_apply, Cert.LibHostReads.col_apply hM g U (row a) b]
  exact h a

/-- A column laid along the rows: the kernel's broadcast [m,1] → [m,n] against the host's [M,1] → [M,n]. -/
theorem rowsOf_colBcast {row : Fin m → Fin M} {A : FVec Ideal ⟨2, ![m, 1]⟩ φ} {X : FVec Ideal ⟨2, ![M, 1]⟩ φ}
    (h : RowsOf row A X) (hM : M ≠ 1) (hb : (⟨2, ![m, 1]⟩ : Shape).Broadcasts ⟨2, ![m, n]⟩)
    (g : (⟨2, ![M, 1]⟩ : Shape).BroadcastsInDim ⟨2, ![M, n]⟩ ![0, 1]) :
    RowsOf row (broadcastTo ⟨2, ![m, n]⟩ A hb) (broadcastInDim ⟨2, ![M, n]⟩ ![0, 1] g X) := by
  intro a b
  rw [broadcastTo_a1_ab_apply, Cert.LibHostReads.colBcast_apply hM g X (row a) b]
  exact h a 0

/-- A parameter row laid down the rows: the kernel's identity cast and broadcast [1,n] → [m,n] against the host's
    broadcast [1,n] → [M,n], for rows that agree entry by entry. -/
theorem rowsOf_rowBcast (row : Fin m → Fin M) {bk bh : FVec Ideal ⟨2, ![1, n]⟩ .f32}
    (hb : ∀ q, bk (ix2 (0 : Fin 1) q) = bh (ix2 (0 : Fin 1) q))
    (hs : (⟨2, ![1, n]⟩ : Shape).ShapeCasts ⟨2, ![1, n]⟩) (hbc : (⟨2, ![1, n]⟩ : Shape).Broadcasts ⟨2, ![m, n]⟩)
    (g : (⟨2, ![1, n]⟩ : Shape).BroadcastsInDim ⟨2, ![M, n]⟩ (![0, 1] : Fin 2 → Fin 2)) :
    RowsOf row (broadcastTo ⟨2, ![m, n]⟩ (shapeCast ⟨2, ![1, n]⟩ bk hs) hbc) (broadcastInDim ⟨2, ![M, n]⟩ ![0, 1] g bh) := by
  intro a b
  rw [Cert.LibMlpBlock.rowDown_apply, Cert.LibBiasRows.rowBcast_apply, hb b]

/-- The float zero word is the real zero, as the initial value of a host sum held in a rank-0 array. -/
theorem zeroInit (hu : 0 < (⟨0, ![]⟩ : Shape).numel) :
    (constant (F := Ideal) ⟨0, ![]⟩ .f32 0x00000000#32) (Shape.Idx.first hu) = 0 :=
  Ideal.ofBits_zero_f32

/-- LAYER NORMALIZATION ON A BLOCK OF ROWS. With H the block's rows of X and the weight and bias rows agreeing entry by
    entry, the kernel's spelling of ((H − mean) · rsqrt(var + e)) · γ + β — mean the row sum over the constant `c`, var
    the row sum of the squared deviations over `c`, both kept as columns and laid back along the rows — holds the same
    rows of the host's spelling on the whole of X. -/
theorem rowsOf_layerNorm {row : Fin m → Fin M} {H : FVec Ideal ⟨2, ![m, n]⟩ .f32} {X : FVec Ideal ⟨2, ![M, n]⟩ .f32}
    (hH : RowsOf row H X) {gk gh bk bh : FVec Ideal ⟨2, ![1, n]⟩ .f32}
    (hg : ∀ q, gk (ix2 (0 : Fin 1) q) = gh (ix2 (0 : Fin 1) q)) (hb : ∀ q, bk (ix2 (0 : Fin 1) q) = bh (ix2 (0 : Fin 1) q))
    (c e : BitVec 32) (hM : M ≠ 1)
    (acc : BitVec FTy.f32.bits) (hr : (⟨2, ![m, n]⟩ : Shape).Reduces [(1 : Fin 2)] ⟨1, ![m]⟩) (hφ : FKind.Formats FTy.f32)
    (hacc : acc = FKind.add.neutral .f32 hφ)
    (hsc : (⟨1, ![m]⟩ : Shape).ShapeCasts ⟨2, ![m, 1]⟩) (hbc : (⟨2, ![m, 1]⟩ : Shape).Broadcasts ⟨2, ![m, n]⟩)
    (hs1 : (⟨2, ![1, n]⟩ : Shape).ShapeCasts ⟨2, ![1, n]⟩) (hb1 : (⟨2, ![1, n]⟩ : Shape).Broadcasts ⟨2, ![m, n]⟩)
    (hr' : (⟨2, ![M, n]⟩ : Shape).ReducesTo [(1 : Fin 2)] ⟨1, ![M]⟩) (hR : (⟨2, ![M, n]⟩ : Shape).Reduces [(1 : Fin 2)] ⟨1, ![M]⟩)
    (hu : 0 < (⟨0, ![]⟩ : Shape).numel)
    (g0 : (⟨1, ![M]⟩ : Shape).BroadcastsInDim ⟨2, ![M, 1]⟩ ![0]) (gs : (⟨0, ![]⟩ : Shape).BroadcastsInDim ⟨2, ![M, 1]⟩ ![])
    (gc : (⟨2, ![M, 1]⟩ : Shape).BroadcastsInDim ⟨2, ![M, n]⟩ ![0, 1])
    (gr : (⟨2, ![1, n]⟩ : Shape).BroadcastsInDim ⟨2, ![M, n]⟩ (![0, 1] : Fin 2 → Fin 2)) :
    RowsOf row
      (addf (mulf (mulf
            (subf H (broadcastTo ⟨2, ![m, n]⟩ (divf (shapeCast ⟨2, ![m, 1]⟩ (multiReduction .add [(1 : Fin 2)] ⟨1, ![m]⟩ H acc hr hφ hacc) hsc)
              (broadcast ⟨2, ![m, 1]⟩ (Scalar.ofBits (F := Ideal) .f32 c))) hbc))
            (broadcastTo ⟨2, ![m, n]⟩ (rsqrt (addf (divf (shapeCast ⟨2, ![m, 1]⟩ (multiReduction .add [(1 : Fin 2)] ⟨1, ![m]⟩
                (mulf (subf H (broadcastTo ⟨2, ![m, n]⟩ (divf (shapeCast ⟨2, ![m, 1]⟩ (multiReduction .add [(1 : Fin 2)] ⟨1, ![m]⟩ H acc hr hφ hacc) hsc)
                    (broadcast ⟨2, ![m, 1]⟩ (Scalar.ofBits (F := Ideal) .f32 c))) hbc))
                  (subf H (broadcastTo ⟨2, ![m, n]⟩ (divf (shapeCast ⟨2, ![m, 1]⟩ (multiReduction .add [(1 : Fin 2)] ⟨1, ![m]⟩ H acc hr hφ hacc) hsc)
                    (broadcast ⟨2, ![m, 1]⟩ (Scalar.ofBits (F := Ideal) .f32 c))) hbc)))
                acc hr hφ hacc) hsc) (broadcast ⟨2, ![m, 1]⟩ (Scalar.ofBits (F := Ideal) .f32 c)))
              (broadcast ⟨2, ![m, 1]⟩ (Scalar.ofBits (F := Ideal) .f32 e)))) hbc))
          (broadcastTo ⟨2, ![m, n]⟩ (shapeCast ⟨2, ![1, n]⟩ gk hs1) hb1))
        (broadcastTo ⟨2, ![m, n]⟩ (shapeCast ⟨2, ![1, n]⟩ bk hs1) hb1))
      (addf (mulf (mulf
            (subf X (broadcastInDim ⟨2, ![M, n]⟩ ![0, 1] gc (Host.divf (broadcastInDim ⟨2, ![M, 1]⟩ ![0] g0
                (Host.reduceAdd X (constant (F := Ideal) ⟨0, ![]⟩ .f32 0x00000000#32) hr' hu))
              (broadcastInDim ⟨2, ![M, 1]⟩ ![] gs (constant (F := Ideal) ⟨0, ![]⟩ .f32 c)))))
            (broadcastInDim ⟨2, ![M, n]⟩ ![0, 1] gc (Host.rsqrt (addf (Host.divf (broadcastInDim ⟨2, ![M, 1]⟩ ![0] g0
                (Host.reduceAdd
                  (mulf (subf X (broadcastInDim ⟨2, ![M, n]⟩ ![0, 1] gc (Host.divf (broadcastInDim ⟨2, ![M, 1]⟩ ![0] g0
                      (Host.reduceAdd X (constant (F := Ideal) ⟨0, ![]⟩ .f32 0x00000000#32) hr' hu))
                    (broadcastInDim ⟨2, ![M, 1]⟩ ![] gs (constant (F := Ideal) ⟨0, ![]⟩ .f32 c)))))
                  (subf X (broadcastInDim ⟨2, ![M, n]⟩ ![0, 1] gc (Host.divf (broadcastInDim ⟨2, ![M, 1]⟩ ![0] g0
                      (Host.reduceAdd X (constant (F := Ideal) ⟨0, ![]⟩ .f32 0x00000000#32) hr' hu))
                    (broadcastInDim ⟨2, ![M, 1]⟩ ![] gs (constant (F := Ideal) ⟨0, ![]⟩ .f32 c))))))
                  (constant (F := Ideal) ⟨0, ![]⟩ .f32 0x00000000#32) hr' hu))
              (broadcastInDim ⟨2, ![M, 1]⟩ ![] gs (constant (F := Ideal) ⟨0, ![]⟩ .f32 c)))
              (broadcastInDim ⟨2, ![M, 1]⟩ ![] gs (constant (F := Ideal) ⟨0, ![]⟩ .f32 e))))))
          (broadcastInDim ⟨2, ![M, n]⟩ ![0, 1] gr gh))
        (broadcastInDim ⟨2, ![M, n]⟩ ![0, 1] gr bh)) := by
  have hmean := rowsOf_divf (rowsOf_toCol (RowsOf.rowSum hH acc hr hφ hacc _ hr' hR hu (zeroInit hu)) hM hsc g0)
    (rowsOf_splat (n := 1) row c gs)
  have hdev := rowsOf_subf hH (rowsOf_colBcast hmean hM hbc gc)
  have hvar := rowsOf_divf (rowsOf_toCol (RowsOf.rowSum (RowsOf.mulf hdev hdev) acc hr hφ hacc _ hr' hR hu (zeroInit hu)) hM hsc g0)
    (rowsOf_splat (n := 1) row c gs)
  have hinv := rowsOf_colBcast (rowsOf_rsqrt (RowsOf.addf hvar (rowsOf_splat (n := 1) row e gs))) hM hbc gc
  exact RowsOf.addf (RowsOf.mulf (RowsOf.mulf hdev hinv) (rowsOf_rowBcast row hg hs1 hb1 gr)) (rowsOf_rowBcast row hb hs1 hb1 gr)

end Cert.LibNormRows

end
-- ==== Proof.Region5.lean ====
/-
  The head's region: the result it leaves, as one function of the whole arrays it found.

  The region has one point, and every window's block is its whole array: the point loads the pooled sums, the counts,
  the three weight matrices and the three bias rows, and writes back the whole result. What it computes — the mean per
  graph (the sums over the counts, a count below one taken as one), the output projection, a dense stage, the leaky
  rectifier, the last dense stage — treats the rows independently, so on the rows it holds (all of them, in order) it
  is the head of the whole arrays; the one block covers the result.
-/
import proofs.«127333_j31559419691459_1_alg».proof.Proof.Gen.KernelIdeal.Frame
import proofs.«127333_j31559419691459_1_alg».proof.Proof.Gen.ReferenceIdeal
import proofs.«127333_j31559419691459_1_alg».proof.Proof.Spec
import proofs.«127333_j31559419691459_1_alg».proof.Proof.LibMlpBlock
import proofs.«127333_j31559419691459_1_alg».proof.Proof.LibNormRows
import Idealize.ShloMosaic.Lib.Pipeline.Value
noncomputable section
namespace Cert.KRegion
open Idealize.ShloMosaic Idealize.ShloMosaic.TcCoe Idealize.SL.Sem Cert.KernelIdeal Cert.KernelIdeal.Gen
open Idealize.ShloMosaic.ValueIdx Cert.LibRowwise Cert.LibMlpBlock

namespace Region5

/-- The offset of a block that starts at the origin, as a constant function. -/
theorem origin2 : (![0, 0] : Fin 2 → Nat) = fun _ => 0 := funext fun a => by fin_cases a <;> rfl

/-- The larger of two numbers, entry by entry. -/
theorem rowsOf_maxf {m M n : Nat} {φ : FTy} {row : Fin m → Fin M} {A B : FVec Ideal ⟨2, ![m, n]⟩ φ}
    {X Y : FVec Ideal ⟨2, ![M, n]⟩ φ} (hA : RowsOf row A X) (hB : RowsOf row B Y) :
    RowsOf row (maximumf A B) (maximumf X Y) :=
  fun a b => congrArg₂ max (hA a b) (hB a b)

/-- A block recast to its own shape still holds the rows. -/
theorem rowsOf_castSelf {m M n : Nat} {φ ψ : FTy} {row : Fin m → Fin M} {A : FVec Ideal ⟨2, ![m, n]⟩ φ}
    {X : FVec Ideal ⟨2, ![M, n]⟩ ψ} (h : RowsOf row A X) (hs : (⟨2, ![m, n]⟩ : Shape).ShapeCasts ⟨2, ![m, n]⟩) :
    RowsOf row (shapeCast ⟨2, ![m, n]⟩ A hs) X :=
  fun a b => by rw [shapeCast_self]; exact h a b

/-- The head on a selection of rows of the pooled sums and counts is that selection of rows of the head on all of them:
    the mean per graph (the sums over the counts, a count below one taken as one), the output projection, the dense
    stage, the leaky rectifier and the last dense stage all treat the rows independently. -/
theorem head_rows {row : Fin 1024 → Fin 1024}
    (x0 : Vec Ideal S1024x64 .f32) (x1 : Vec Ideal S1024x1 .f32) (x2 : Vec Ideal S64x72 .f32) (x3 : Vec Ideal S1x72 .f32)
    (x4 : Vec Ideal S72x36 .f32) (x5 : Vec Ideal S1x36 .f32) (x6 : Vec Ideal S36x1 .f32) (x7 : Vec Ideal S1x1 .f32)
    (sums : FVec Ideal S1024x64 .f32) (cnt : FVec Ideal S1024x1 .f32) (Wout : FVec Ideal S64x72 .f32)
    (Bout : FVec Ideal S1x72 .f32) (W1 : FVec Ideal S72x36 .f32) (B1 : FVec Ideal S1x36 .f32)
    (W2 : FVec Ideal S36x1 .f32) (B2 : FVec Ideal S1x1 .f32)
    (h0 : RowsOf (φ := .f32) (ψ := .f32) row x0 sums) (h1 : RowsOf (φ := .f32) (ψ := .f32) row x1 cnt)
    (h2 : ∀ c b, x2 (ix2 c b) = Wout (ix2 c b)) (h3 : ∀ q, x3 (ix2 (0 : Fin 1) q) = Bout (ix2 (0 : Fin 1) q))
    (h4 : ∀ c b, x4 (ix2 c b) = W1 (ix2 c b)) (h5 : ∀ q, x5 (ix2 (0 : Fin 1) q) = B1 (ix2 (0 : Fin 1) q))
    (h6 : ∀ c b, x6 (ix2 c b) = W2 (ix2 c b)) (h7 : ∀ q, x7 (ix2 (0 : Fin 1) q) = B2 (ix2 (0 : Fin 1) q)) :
    RowsOf (φ := .f32) (ψ := .f32) row (k5_pay1 x0 x1 x2 x3 x4 x5 x6 x7)
      (Cert.Spec.head sums cnt Wout Bout W1 B1 W2 B2) := by
  unfold k5_pay1 Cert.Spec.head Cert.Spec.leaky36
  exact RowsOf.denseRow _ rfl _ rfl none none
    (RowsOf.leaky
      (RowsOf.denseRow _ rfl _ rfl none none
        (RowsOf.denseRow _ rfl _ rfl none none
          (Cert.LibNormRows.rowsOf_divf (rowsOf_castSelf h0 _)
            (Cert.LibNormRows.rowsOf_colBcast
              (rowsOf_maxf (rowsOf_castSelf h1 _) (Cert.LibNormRows.rowsOf_splat (n := 1) row _ _))
              (by decide) _ _))
          h2 h3 _ _ _)
        h4 h5 _ _ _)
      _ _ _)
    h6 h7 _ _ _

/-- The index maps, decided once over the grid: the grid has one point and every window's block is its whole
    array, at block index zero on both axes. -/
theorem blockIndex5 : ∀ t : Fin cfg5.N,
    win5_0.index t (0 : Fin 2) = 0
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0 :=
  (by decide +kernel : ∀ t : Fin grid5.N, _)

/-- Window 0's block is its whole array: an entry of the block is the same entry of the array. -/
theorem block5_0 (V : (c : Dev nD) → (b : Ref sig .tc) → Buf (Elt Ideal) ((c : Thread nD τ).loc b)) (c : Dev nD)
    (t : Fin cfg5.N) (a : Fin 1024) (b : Fin 64) : iblk5 V c 0 t (ix2 a b) = V c main_v80 (ix2 a b) := by
  have e0 : win5_0.index t (0 : Fin 2) = 0 := (blockIndex5 t).1
  have e1 : win5_0.index t (1 : Fin 2) = 0 := (blockIndex5 t).2.1
  show V c main_v80 (((cfg5.win 0).blk t).view.emb (ix2 a b)) = V c main_v80 (ix2 a b)
  congr 1
  funext d; apply Fin.ext
  match d with
  | ⟨0, _⟩ => show win5_0.index t (0 : Fin 2) * 1024 + 1 * a.val = a.val; omega
  | ⟨1, _⟩ => show win5_0.index t (1 : Fin 2) * 64 + 1 * b.val = b.val; omega

/-- Window 1's block is its whole array: an entry of the block is the same entry of the array. -/
theorem block5_1 (V : (c : Dev nD) → (b : Ref sig .tc) → Buf (Elt Ideal) ((c : Thread nD τ).loc b)) (c : Dev nD)
    (t : Fin cfg5.N) (a : Fin 1024) (b : Fin 1) : iblk5 V c 1 t (ix2 a b) = V c main_v84 (ix2 a b) := by
  have e0 : win5_1.index t (0 : Fin 2) = 0 := (blockIndex5 t).2.2.1
  have e1 : win5_1.index t (1 : Fin 2) = 0 := (blockIndex5 t).2.2.2.1
  show V c main_v84 (((cfg5.win 1).blk t).view.emb (ix2 a b)) = V c main_v84 (ix2 a b)
  congr 1
  funext d; apply Fin.ext
  match d with
  | ⟨0, _⟩ => show win5_1.index t (0 : Fin 2) * 1024 + 1 * a.val = a.val; omega
  | ⟨1, _⟩ => show win5_1.index t (1 : Fin 2) * 1 + 1 * b.val = b.val; omega

/-- Window 2's block is its whole array: an entry of the block is the same entry of the array. -/
theorem block5_2 (V : (c : Dev nD) → (b : Ref sig .tc) → Buf (Elt Ideal) ((c : Thread nD τ).loc b)) (c : Dev nD)
    (t : Fin cfg5.N) (a : Fin 64) (b : Fin 72) : iblk5 V c 2 t (ix2 a b) = V c main_arg8 (ix2 a b) := by
  have e0 : win5_2.index t (0 : Fin 2) = 0 := (blockIndex5 t).2.2.2.2.1
  have e1 : win5_2.index t (1 : Fin 2) = 0 := (blockIndex5 t).2.2.2.2.2.1
  show V c main_arg8 (((cfg5.win 2).blk t).view.emb (ix2 a b)) = V c main_arg8 (ix2 a b)
  congr 1
  funext d; apply Fin.ext
  match d with
  | ⟨0, _⟩ => show win5_2.index t (0 : Fin 2) * 64 + 1 * a.val = a.val; omega
  | ⟨1, _⟩ => show win5_2.index t (1 : Fin 2) * 72 + 1 * b.val = b.val; omega

/-- Window 3's block is its whole array: an entry of the block is the same entry of the array. -/
theorem block5_3 (V : (c : Dev nD) → (b : Ref sig .tc) → Buf (Elt Ideal) ((c : Thread nD τ).loc b)) (c : Dev nD)
    (t : Fin cfg5.N) (a : Fin 1) (b : Fin 72) : iblk5 V c 3 t (ix2 a b) = V c main_v85 (ix2 a b) := by
  have e0 : win5_3.index t (0 : Fin 2) = 0 := (blockIndex5 t).2.2.2.2.2.2.1
  have e1 : win5_3.index t (1 : Fin 2) = 0 := (blockIndex5 t).2.2.2.2.2.2.2.1
  show V c main_v85 (((cfg5.win 3).blk t).view.emb (ix2 a b)) = V c main_v85 (ix2 a b)
  congr 1
  funext d; apply Fin.ext
  match d with
  | ⟨0, _⟩ => show win5_3.index t (0 : Fin 2) * 1 + 1 * a.val = a.val; omega
  | ⟨1, _⟩ => show win5_3.index t (1 : Fin 2) * 72 + 1 * b.val = b.val; omega

/-- Window 4's block is its whole array: an entry of the block is the same entry of the array. -/
theorem block5_4 (V : (c : Dev nD) → (b : Ref sig .tc) → Buf (Elt Ideal) ((c : Thread nD τ).loc b)) (c : Dev nD)
    (t : Fin cfg5.N) (a : Fin 72) (b : Fin 36) : iblk5 V c 4 t (ix2 a b) = V c main_arg10 (ix2 a b) := by
  have e0 : win5_4.index t (0 : Fin 2) = 0 := (blockIndex5 t).2.2.2.2.2.2.2.2.1
  have e1 : win5_4.index t (1 : Fin 2) = 0 := (blockIndex5 t).2.2.2.2.2.2.2.2.2.1
  show V c main_arg10 (((cfg5.win 4).blk t).view.emb (ix2 a b)) = V c main_arg10 (ix2 a b)
  congr 1
  funext d; apply Fin.ext
  match d with
  | ⟨0, _⟩ => show win5_4.index t (0 : Fin 2) * 72 + 1 * a.val = a.val; omega
  | ⟨1, _⟩ => show win5_4.index t (1 : Fin 2) * 36 + 1 * b.val = b.val; omega

/-- Window 5's block is its whole array: an entry of the block is the same entry of the array. -/
theorem block5_5 (V : (c : Dev nD) → (b : Ref sig .tc) → Buf (Elt Ideal) ((c : Thread nD τ).loc b)) (c : Dev nD)
    (t : Fin cfg5.N) (a : Fin 1) (b : Fin 36) : iblk5 V c 5 t (ix2 a b) = V c main_v86 (ix2 a b) := by
  have e0 : win5_5.index t (0 : Fin 2) = 0 := (blockIndex5 t).2.2.2.2.2.2.2.2.2.2.1
  have e1 : win5_5.index t (1 : Fin 2) = 0 := (blockIndex5 t).2.2.2.2.2.2.2.2.2.2.2.1
  show V c main_v86 (((cfg5.win 5).blk t).view.emb (ix2 a b)) = V c main_v86 (ix2 a b)
  congr 1
  funext d; apply Fin.ext
  match d with
  | ⟨0, _⟩ => show win5_5.index t (0 : Fin 2) * 1 + 1 * a.val = a.val; omega
  | ⟨1, _⟩ => show win5_5.index t (1 : Fin 2) * 36 + 1 * b.val = b.val; omega

/-- Window 6's block is its whole array: an entry of the block is the same entry of the array. -/
theorem block5_6 (V : (c : Dev nD) → (b : Ref sig .tc) → Buf (Elt Ideal) ((c : Thread nD τ).loc b)) (c : Dev nD)
    (t : Fin cfg5.N) (a : Fin 36) (b : Fin 1) : iblk5 V c 6 t (ix2 a b) = V c main_arg12 (ix2 a b) := by
  have e0 : win5_6.index t (0 : Fin 2) = 0 := (blockIndex5 t).2.2.2.2.2.2.2.2.2.2.2.2.1
  have e1 : win5_6.index t (1 : Fin 2) = 0 := (blockIndex5 t).2.2.2.2.2.2.2.2.2.2.2.2.2.1
  show V c main_arg12 (((cfg5.win 6).blk t).view.emb (ix2 a b)) = V c main_arg12 (ix2 a b)
  congr 1
  funext d; apply Fin.ext
  match d with
  | ⟨0, _⟩ => show win5_6.index t (0 : Fin 2) * 36 + 1 * a.val = a.val; omega
  | ⟨1, _⟩ => show win5_6.index t (1 : Fin 2) * 1 + 1 * b.val = b.val; omega

/-- Window 7's block is its whole array: an entry of the block is the same entry of the array. -/
theorem block5_7 (V : (c : Dev nD) → (b : Ref sig .tc) → Buf (Elt Ideal) ((c : Thread nD τ).loc b)) (c : Dev nD)
    (t : Fin cfg5.N) (a : Fin 1) (b : Fin 1) : iblk5 V c 7 t (ix2 a b) = V c main_v87 (ix2 a b) := by
  have e0 : win5_7.index t (0 : Fin 2) = 0 := (blockIndex5 t).2.2.2.2.2.2.2.2.2.2.2.2.2.2.1
  have e1 : win5_7.index t (1 : Fin 2) = 0 := (blockIndex5 t).2.2.2.2.2.2.2.2.2.2.2.2.2.2.2.1
  show V c main_v87 (((cfg5.win 7).blk t).view.emb (ix2 a b)) = V c main_v87 (ix2 a b)
  congr 1
  funext d; apply Fin.ext
  match d with
  | ⟨0, _⟩ => show win5_7.index t (0 : Fin 2) * 1 + 1 * a.val = a.val; omega
  | ⟨1, _⟩ => show win5_7.index t (1 : Fin 2) * 1 + 1 * b.val = b.val; omega

/-- What the one point writes back is the head of the whole arrays as the region finds them (read through the block,
    which is the whole array). -/
theorem flushed5 (V : (c : Dev nD) → (b : Ref sig .tc) → Buf (Elt Ideal) ((c : Thread nD τ).loc b)) (c : Dev nD)
    (t : Fin cfg5.N) :
    (dat5 (F := Ideal) V c).flushed 8 t
      = ((cfg5.win 8).blk t).view.read (Elt Ideal) (Cert.Spec.head (V c main_v80) (V c main_v84) (V c main_arg8)
          (V c main_v85) (V c main_arg10) (V c main_v86) (V c main_arg12) (V c main_v87)) := by
  show (cfg5.win 8).cut (grid5.coords t) ((dat5 (F := Ideal) V c).after 8 t) = _
  rw [after5_8]
  unfold out5_8
  rw [View.canon_unit_zero origin2]
  simp only [View.ld_unit_zero (S := S1024x64) origin2, View.ld_unit_zero (S := S1024x1) origin2,
    View.ld_unit_zero (S := S64x72) origin2, View.ld_unit_zero (S := S1x72) origin2,
    View.ld_unit_zero (S := S72x36) origin2, View.ld_unit_zero (S := S1x36) origin2,
    View.ld_unit_zero (S := S36x1) origin2, View.ld_unit_zero (S := S1x1) origin2]
  have e0 : win5_8.index t (0 : Fin 2) = 0 := (blockIndex5 t).2.2.2.2.2.2.2.2.2.2.2.2.2.2.2.2.1
  have e1 : win5_8.index t (1 : Fin 2) = 0 := (blockIndex5 t).2.2.2.2.2.2.2.2.2.2.2.2.2.2.2.2.2
  funext j
  show k5_pay1 (iblk5 V c 0 t) (iblk5 V c 1 t) (iblk5 V c 2 t) (iblk5 V c 3 t) (iblk5 V c 4 t) (iblk5 V c 5 t)
      (iblk5 V c 6 t) (iblk5 V c 7 t) j
    = Cert.Spec.head (V c main_v80) (V c main_v84) (V c main_arg8) (V c main_v85) (V c main_arg10) (V c main_v86)
        (V c main_arg12) (V c main_v87) (((cfg5.win 8).blk t).view.emb j)
  refine RowsOf.entry (row := fun a : Fin 1024 => a)
    (head_rows (iblk5 V c 0 t) (iblk5 V c 1 t) (iblk5 V c 2 t) (iblk5 V c 3 t) (iblk5 V c 4 t) (iblk5 V c 5 t)
      (iblk5 V c 6 t) (iblk5 V c 7 t) _ _ _ _ _ _ _ _
      (block5_0 V c t) (block5_1 V c t) (block5_2 V c t) (block5_3 V c t 0) (block5_4 V c t) (block5_5 V c t 0)
      (block5_6 V c t) (block5_7 V c t 0)) j _ ?_ ?_
  · show win5_8.index t (0 : Fin 2) * 1024 + 1 * (j 0).val = (j 0).val; omega
  · show win5_8.index t (1 : Fin 2) * 1 + 1 * (j 1).val = (j 1).val; omega

/-- An index of the result is in the one point's block iff each coordinate is in the block's range on its axis. -/
theorem mem_block5 (t : Fin cfg5.N) (i : S1024x1.Idx) :
    i ∈ ((cfg5.win 8).blk t).view.set ↔ ∀ a : Fin 2, win5_8.index t a * S1024x1.size a ≤ (i a).val
      ∧ (i a).val < win5_8.index t a * S1024x1.size a + S1024x1.size a := by
  show i ∈ ((View.whole main_v88).slice (win5_8.rect t)).set ↔ _
  rw [View.set_slice_whole, Rect.mem_set_unit]
  exact Iff.rfl

/-- Every index of the result is in the one point's block, which is the whole array. -/
theorem cover5 (i : S1024x1.Idx) :
    ∃ t : Fin cfg5.N, (cfg5.win 8).flush t = true ∧ i ∈ ((cfg5.win 8).blk t).view.set := by
  have hi0 : (i 0).val < 1024 := (i 0).isLt
  have hi1 : (i 1).val < 1 := (i 1).isLt
  have hN : cfg5.N = 1 := N_5
  let t : Fin cfg5.N := ⟨0, by rw [hN]; omega⟩
  have e0 : win5_8.index t (0 : Fin 2) = 0 := (blockIndex5 t).2.2.2.2.2.2.2.2.2.2.2.2.2.2.2.2.1
  have e1 : win5_8.index t (1 : Fin 2) = 0 := (blockIndex5 t).2.2.2.2.2.2.2.2.2.2.2.2.2.2.2.2.2
  refine ⟨t, flush5_8 t, ?_⟩
  rw [mem_block5]
  intro a
  match a with
  | ⟨0, _⟩ =>
    show win5_8.index t (0 : Fin 2) * 1024 ≤ (i 0).val ∧ (i 0).val < win5_8.index t (0 : Fin 2) * 1024 + 1024
    omega
  | ⟨1, _⟩ =>
    show win5_8.index t (1 : Fin 2) * 1 ≤ (i 1).val ∧ (i 1).val < win5_8.index t (1 : Fin 2) * 1 + 1
    omega

end Region5

/-- The result after the head's region is the head of the whole arrays the region found. -/
theorem arr5 (V : (c : Dev nD) → (b : Ref sig .tc) → Buf (Elt Ideal) ((c : Thread nD τ).loc b)) (c : Dev nD) :
    (dat5 (F := Ideal) V c).arrAt 8 cfg5.N = Cert.Spec.head (V c main_v80) (V c main_v84) (V c main_arg8) (V c main_v85) (V c main_arg10) (V c main_v86) (V c main_arg12) (V c main_v87) :=
  (dat5 (F := Ideal) V c).arrAt_eq_of_cover 8 _ (fun t _ => Region5.flushed5 V c t) Region5.cover5

end Cert.KRegion
end
-- ==== Proof.RefRun.lean ====
import proofs.«127333_j31559419691459_1_alg».proof.Proof.Gen.ReferenceIdeal
import proofs.«127333_j31559419691459_1_alg».proof.Proof.Spec
import Idealize.ShloMosaic.Lib.StableHlo.Run
noncomputable section
namespace Cert.RefRun
open Cert.ReferenceIdeal Cert.ReferenceIdeal.Gen Idealize.ShloMosaic Idealize.ShloMosaic.TcCoe Idealize.SL.Sem Idealize.ShloMosaic.StableHlo

/-! # The reference's run, read back

@main is a straight line of host operations (its six calls of the leaky rectifier are the callee's seven operations
listed at the call site, the nested select among them), so its run is the fold of the operations' results over the
launch contents (`run_seq`). The fold is read back stretch by stretch into the network of `Cert.Spec`. -/

variable {F : FTy → Type} [FloatOps F]

abbrev sA0 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg3 main_v4 ((fun l r => Host.dotGeneral dot_S100000x13_S13x64_S100000x64_1_0_0_1_n_n none l r) : (⟨S100000x13, .f32⟩ : BufTy).Contents (Elt F) → (⟨S13x64, .f32⟩ : BufTy).Contents (Elt F) → (⟨S100000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v7 : TRef sig ⟨S100000x64, .f32⟩) main_call0.v0 main_call0.v1 (cmpf .oge),
    TRef.nullary main_call0.cst_0 (constant S_ .f32 0x3C23D70A#32),
    TRef.unary main_call0.cst_0 main_call0.v2 (broadcastInDim S100000x64 ![] bcast_S_S100000x64),
    TRef.binary main_call0.v2 (.of main_v7 : TRef sig ⟨S100000x64, .f32⟩) main_call0.v3 mulf,
    TRef.ternary main_call0.v1 (.of main_v7 : TRef sig ⟨S100000x64, .f32⟩) main_call0.v3 main_call0.call0.v0 select ]

abbrev sA1 : List (HloOp τ sig (Elt F)) :=
  [ nullary main_c (constantI S_ 32 0#32),
    unary main_c main_v9 (broadcastInDim S3200000 ![] bcast_S_S3200000 : (⟨S_, .i32⟩ : BufTy).Contents (Elt F) → (⟨S3200000, .i32⟩ : BufTy).Contents (Elt F)),
    binary main_v1 main_v9 main_v10 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v11 (broadcastInDim S3200000 ![] bcast_S_S3200000 : (⟨S_, .i32⟩ : BufTy).Contents (Elt F) → (⟨S3200000, .i32⟩ : BufTy).Contents (Elt F)),
    binary main_v1 main_v11 main_v12 (addi : (⟨S3200000, .i32⟩ : BufTy).Contents (Elt F) → (⟨S3200000, .i32⟩ : BufTy).Contents (Elt F) → (⟨S3200000, .i32⟩ : BufTy).Contents (Elt F)),
    ternary main_v10 main_v12 main_v1 main_v13 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v13 main_v14 (broadcastInDim S3200000x1 ![0] bcast_S3200000_S3200000x1_0 : (⟨S3200000, .i32⟩ : BufTy).Contents (Elt F) → (⟨S3200000x1, .i32⟩ : BufTy).Contents (Elt F)),
    binary main_v8 main_v14 main_v15 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst (constant S_ .f32 0x00000000#32),
    unary main_cst main_v16 (broadcastInDim S100000x64 ![] bcast_S_S100000x64 : (⟨S_, .f32⟩ : BufTy).Contents (Elt F) → (⟨S100000x64, .f32⟩ : BufTy).Contents (Elt F)),
    unary main_v3 main_v17 (broadcastInDim S3200000x1 ![0] bcast_S3200000_S3200000x1_0 : (⟨S3200000, .i32⟩ : BufTy).Contents (Elt F) → (⟨S3200000x1, .i32⟩ : BufTy).Contents (Elt F)),
    ternary main_v16 main_v17 main_v15 main_v18 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_arg5 main_v19 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v19 main_v20 rfl shapeCasts_S1x64x64_S64x64,
    binary main_v8 main_v20 main_v21 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v22 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v22 main_v23 rfl shapeCasts_S1x64x64_S64x64,
    binary main_v18 main_v23 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v21 main_v24 main_v25 (addf : (⟨S100000x64, .f32⟩ : BufTy).Contents (Elt F) → (⟨S100000x64, .f32⟩ : BufTy).Contents (Elt F) → (⟨S100000x64, .f32⟩ : BufTy).Contents (Elt F)),
    unary main_arg7 main_v26 ((extractStridedSlice S1x64 ![0, 0] · slices_S4x64_S1x64_0_0) : (⟨S4x64, .f32⟩ : BufTy).Contents (Elt F) → (⟨S1x64, .f32⟩ : BufTy).Contents (Elt F)),
    reshape main_v26 main_v27 rfl shapeCasts_S1x64_S64,
    unary main_v27 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v25 main_v29 main_v30 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v30 : TRef sig ⟨S100000x64, .f32⟩) main_call1.v0 main_call1.v1 (cmpf .oge),
    TRef.nullary main_call1.cst_0 (constant S_ .f32 0x3C23D70A#32),
    TRef.unary main_call1.cst_0 main_call1.v2 (broadcastInDim S100000x64 ![] bcast_S_S100000x64),
    TRef.binary main_call1.v2 (.of main_v30 : TRef sig ⟨S100000x64, .f32⟩) main_call1.v3 mulf,
    TRef.ternary main_call1.v1 (.of main_v30 : TRef sig ⟨S100000x64, .f32⟩) main_call1.v3 main_call1.call0.v0 select ]

abbrev sA2 : List (HloOp τ sig (Elt F)) :=
  [ nullary main_c_1 (constantI S_ 32 0#32),
    unary main_c_1 main_v32 (broadcastInDim S3200000 ![] bcast_S_S3200000 : (⟨S_, .i32⟩ : BufTy).Contents (Elt F) → (⟨S3200000, .i32⟩ : BufTy).Contents (Elt F)),
    binary main_v1 main_v32 main_v33 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v34 (broadcastInDim S3200000 ![] bcast_S_S3200000 : (⟨S_, .i32⟩ : BufTy).Contents (Elt F) → (⟨S3200000, .i32⟩ : BufTy).Contents (Elt F)),
    binary main_v1 main_v34 main_v35 (addi : (⟨S3200000, .i32⟩ : BufTy).Contents (Elt F) → (⟨S3200000, .i32⟩ : BufTy).Contents (Elt F) → (⟨S3200000, .i32⟩ : BufTy).Contents (Elt F)),
    ternary main_v33 main_v35 main_v1 main_v36 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v36 main_v37 (broadcastInDim S3200000x1 ![0] bcast_S3200000_S3200000x1_0 : (⟨S3200000, .i32⟩ : BufTy).Contents (Elt F) → (⟨S3200000x1, .i32⟩ : BufTy).Contents (Elt F)),
    binary main_v31 main_v37 main_v38 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst_3 (constant S_ .f32 0x00000000#32),
    unary main_cst_3 main_v39 (broadcastInDim S100000x64 ![] bcast_S_S100000x64 : (⟨S_, .f32⟩ : BufTy).Contents (Elt F) → (⟨S100000x64, .f32⟩ : BufTy).Contents (Elt F)),
    unary main_v3 main_v40 (broadcastInDim S3200000x1 ![0] bcast_S3200000_S3200000x1_0 : (⟨S3200000, .i32⟩ : BufTy).Contents (Elt F) → (⟨S3200000x1, .i32⟩ : BufTy).Contents (Elt F)),
    ternary main_v39 main_v40 main_v38 main_v41 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_arg5 main_v42 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v42 main_v43 rfl shapeCasts_S1x64x64_S64x64,
    binary main_v31 main_v43 main_v44 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v45 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v45 main_v46 rfl shapeCasts_S1x64x64_S64x64,
    binary main_v41 main_v46 main_v47 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v44 main_v47 main_v48 (addf : (⟨S100000x64, .f32⟩ : BufTy).Contents (Elt F) → (⟨S100000x64, .f32⟩ : BufTy).Contents (Elt F) → (⟨S100000x64, .f32⟩ : BufTy).Contents (Elt F)),
    unary main_arg7 main_v49 ((extractStridedSlice S1x64 ![1, 0] · slices_S4x64_S1x64_1_0) : (⟨S4x64, .f32⟩ : BufTy).Contents (Elt F) → (⟨S1x64, .f32⟩ : BufTy).Contents (Elt F)),
    reshape main_v49 main_v50 rfl shapeCasts_S1x64_S64,
    unary main_v50 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v48 main_v52 main_v53 (addf : (⟨S100000x64, .f32⟩ : BufTy).Contents (Elt F) → (⟨S100000x64, .f32⟩ : BufTy).Contents (Elt F) → (⟨S100000x64, .f32⟩ : BufTy).Contents (Elt F)) ]

abbrev sB0 : List (HloOp τ sig (Elt F)) :=
  [ TRef.nullary main_call2.cst (constant S_ .f32 0x00000000#32),
    TRef.unary main_call2.cst main_call2.v0 (broadcastInDim S100000x64 ![] bcast_S_S100000x64),
    TRef.binary (.of main_v53 : TRef sig ⟨S100000x64, .f32⟩) main_call2.v0 main_call2.v1 (cmpf .oge),
    TRef.nullary main_call2.cst_0 (constant S_ .f32 0x3C23D70A#32),
    TRef.unary main_call2.cst_0 main_call2.v2 (broadcastInDim S100000x64 ![] bcast_S_S100000x64),
    TRef.binary main_call2.v2 (.of main_v53 : TRef sig ⟨S100000x64, .f32⟩) main_call2.v3 mulf,
    TRef.ternary main_call2.v1 (.of main_v53 : TRef sig ⟨S100000x64, .f32⟩) main_call2.v3 main_call2.call0.v0 select ]

abbrev sB1 : List (HloOp τ sig (Elt F)) :=
  [ nullary main_c_4 (constantI S_ 32 0#32),
    unary main_c_4 main_v55 (broadcastInDim S3200000 ![] bcast_S_S3200000 : (⟨S_, .i32⟩ : BufTy).Contents (Elt F) → (⟨S3200000, .i32⟩ : BufTy).Contents (Elt F)),
    binary main_v1 main_v55 main_v56 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 100000#32),
    unary main_c_5 main_v57 (broadcastInDim S3200000 ![] bcast_S_S3200000 : (⟨S_, .i32⟩ : BufTy).Contents (Elt F) → (⟨S3200000, .i32⟩ : BufTy).Contents (Elt F)),
    binary main_v1 main_v57 main_v58 (addi : (⟨S3200000, .i32⟩ : BufTy).Contents (Elt F) → (⟨S3200000, .i32⟩ : BufTy).Contents (Elt F) → (⟨S3200000, .i32⟩ : BufTy).Contents (Elt F)),
    ternary main_v56 main_v58 main_v1 main_v59 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v59 main_v60 (broadcastInDim S3200000x1 ![0] bcast_S3200000_S3200000x1_0 : (⟨S3200000, .i32⟩ : BufTy).Contents (Elt F) → (⟨S3200000x1, .i32⟩ : BufTy).Contents (Elt F)),
    binary main_v54 main_v60 main_v61 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst_6 (constant S_ .f32 0x00000000#32),
    unary main_cst_6 main_v62 (broadcastInDim S100000x64 ![] bcast_S_S100000x64 : (⟨S_, .f32⟩ : BufTy).Contents (Elt F) → (⟨S100000x64, .f32⟩ : BufTy).Contents (Elt F)),
    unary main_v3 main_v63 (broadcastInDim S3200000x1 ![0] bcast_S3200000_S3200000x1_0 : (⟨S3200000, .i32⟩ : BufTy).Contents (Elt F) → (⟨S3200000x1, .i32⟩ : BufTy).Contents (Elt F)),
    ternary main_v62 main_v63 main_v61 main_v64 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_arg5 main_v65 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v65 main_v66 rfl shapeCasts_S1x64x64_S64x64,
    binary main_v54 main_v66 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v68 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v68 main_v69 rfl shapeCasts_S1x64x64_S64x64,
    binary main_v64 main_v69 main_v70 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v67 main_v70 main_v71 (addf : (⟨S100000x64, .f32⟩ : BufTy).Contents (Elt F) → (⟨S100000x64, .f32⟩ : BufTy).Contents (Elt F) → (⟨S100000x64, .f32⟩ : BufTy).Contents (Elt F)),
    unary main_arg7 main_v72 ((extractStridedSlice S1x64 ![2, 0] · slices_S4x64_S1x64_2_0) : (⟨S4x64, .f32⟩ : BufTy).Contents (Elt F) → (⟨S1x64, .f32⟩ : BufTy).Contents (Elt F)),
    reshape main_v72 main_v73 rfl shapeCasts_S1x64_S64,
    unary main_v73 main_v74 (broadcastInDim S1x64 ![1] bcast_S64_S1x64_1 : (⟨S64, .f32⟩ : BufTy).Contents (Elt F) → (⟨S1x64, .f32⟩ : BufTy).Contents (Elt F)),
    unary main_v74 main_v75 (broadcastInDim S100000x64 ![0, 1] bcast_S1x64_S100000x64_0_1 : (⟨S1x64, .f32⟩ : BufTy).Contents (Elt F) → (⟨S100000x64, .f32⟩ : BufTy).Contents (Elt F)),
    binary main_v71 main_v75 main_v76 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v76 : TRef sig ⟨S100000x64, .f32⟩) main_call3.v0 main_call3.v1 (cmpf .oge),
    TRef.nullary main_call3.cst_0 (constant S_ .f32 0x3C23D70A#32),
    TRef.unary main_call3.cst_0 main_call3.v2 (broadcastInDim S100000x64 ![] bcast_S_S100000x64),
    TRef.binary main_call3.v2 (.of main_v76 : TRef sig ⟨S100000x64, .f32⟩) main_call3.v3 mulf,
    TRef.ternary main_call3.v1 (.of main_v76 : TRef sig ⟨S100000x64, .f32⟩) main_call3.v3 main_call3.call0.v0 select ]

abbrev sB2 : List (HloOp τ sig (Elt F)) :=
  [ nullary main_c_7 (constantI S_ 32 0#32),
    unary main_c_7 main_v78 (broadcastInDim S3200000 ![] bcast_S_S3200000 : (⟨S_, .i32⟩ : BufTy).Contents (Elt F) → (⟨S3200000, .i32⟩ : BufTy).Contents (Elt F)),
    binary main_v1 main_v78 main_v79 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 100000#32),
    unary main_c_8 main_v80 (broadcastInDim S3200000 ![] bcast_S_S3200000 : (⟨S_, .i32⟩ : BufTy).Contents (Elt F) → (⟨S3200000, .i32⟩ : BufTy).Contents (Elt F)),
    binary main_v1 main_v80 main_v81 (addi : (⟨S3200000, .i32⟩ : BufTy).Contents (Elt F) → (⟨S3200000, .i32⟩ : BufTy).Contents (Elt F) → (⟨S3200000, .i32⟩ : BufTy).Contents (Elt F)),
    ternary main_v79 main_v81 main_v1 main_v82 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v82 main_v83 (broadcastInDim S3200000x1 ![0] bcast_S3200000_S3200000x1_0 : (⟨S3200000, .i32⟩ : BufTy).Contents (Elt F) → (⟨S3200000x1, .i32⟩ : BufTy).Contents (Elt F)),
    binary main_v77 main_v83 main_v84 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst_9 (constant S_ .f32 0x00000000#32),
    unary main_cst_9 main_v85 (broadcastInDim S100000x64 ![] bcast_S_S100000x64 : (⟨S_, .f32⟩ : BufTy).Contents (Elt F) → (⟨S100000x64, .f32⟩ : BufTy).Contents (Elt F)),
    unary main_v3 main_v86 (broadcastInDim S3200000x1 ![0] bcast_S3200000_S3200000x1_0 : (⟨S3200000, .i32⟩ : BufTy).Contents (Elt F) → (⟨S3200000x1, .i32⟩ : BufTy).Contents (Elt F)),
    ternary main_v85 main_v86 main_v84 main_v87 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_arg5 main_v88 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v88 main_v89 rfl shapeCasts_S1x64x64_S64x64,
    binary main_v77 main_v89 main_v90 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v91 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v91 main_v92 rfl shapeCasts_S1x64x64_S64x64,
    binary main_v87 main_v92 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v90 main_v93 main_v94 (addf : (⟨S100000x64, .f32⟩ : BufTy).Contents (Elt F) → (⟨S100000x64, .f32⟩ : BufTy).Contents (Elt F) → (⟨S100000x64, .f32⟩ : BufTy).Contents (Elt F)),
    unary main_arg7 main_v95 ((extractStridedSlice S1x64 ![3, 0] · slices_S4x64_S1x64_3_0) : (⟨S4x64, .f32⟩ : BufTy).Contents (Elt F) → (⟨S1x64, .f32⟩ : BufTy).Contents (Elt F)),
    reshape main_v95 main_v96 rfl shapeCasts_S1x64_S64,
    unary main_v96 main_v97 (broadcastInDim S1x64 ![1] bcast_S64_S1x64_1 : (⟨S64, .f32⟩ : BufTy).Contents (Elt F) → (⟨S1x64, .f32⟩ : BufTy).Contents (Elt F)),
    unary main_v97 main_v98 (broadcastInDim S100000x64 ![0, 1] bcast_S1x64_S100000x64_0_1 : (⟨S1x64, .f32⟩ : BufTy).Contents (Elt F) → (⟨S100000x64, .f32⟩ : BufTy).Contents (Elt F)),
    binary main_v94 main_v98 main_v99 (addf : (⟨S100000x64, .f32⟩ : BufTy).Contents (Elt F) → (⟨S100000x64, .f32⟩ : BufTy).Contents (Elt F) → (⟨S100000x64, .f32⟩ : BufTy).Contents (Elt F)),
    TRef.nullary main_call4.cst (constant S_ .f32 0x00000000#32),
    TRef.unary main_call4.cst main_call4.v0 (broadcastInDim S100000x64 ![] bcast_S_S100000x64),
    TRef.binary (.of main_v99 : TRef sig ⟨S100000x64, .f32⟩) main_call4.v0 main_call4.v1 (cmpf .oge),
    TRef.nullary main_call4.cst_0 (constant S_ .f32 0x3C23D70A#32),
    TRef.unary main_call4.cst_0 main_call4.v2 (broadcastInDim S100000x64 ![] bcast_S_S100000x64),
    TRef.binary main_call4.v2 (.of main_v99 : TRef sig ⟨S100000x64, .f32⟩) main_call4.v3 mulf,
    TRef.ternary main_call4.v1 (.of main_v99 : TRef sig ⟨S100000x64, .f32⟩) main_call4.v3 main_call4.call0.v0 select ]

abbrev sB3 : List (HloOp τ sig (Elt F)) :=
  [ nullary main_cst_10 (constant S_ .f32 0x00000000#32),
    unary main_cst_10 main_v101 (broadcastInDim S1024x64 ![] bcast_S_S1024x64 : (⟨S_, .f32⟩ : BufTy).Contents (Elt F) → (⟨S1024x64, .f32⟩ : BufTy).Contents (Elt F)),
    unary main_arg2 main_v102 (broadcastInDim S100000x1 ![0] bcast_S100000_S100000x1_0 : (⟨S100000, .i32⟩ : BufTy).Contents (Elt F) → (⟨S100000x1, .i32⟩ : BufTy).Contents (Elt F)),
    ternary main_v101 main_v102 main_v100 main_v103 ((fun x i u => Host.scatterAdd scatter_S1024x64_S100000x1_S100000x64_1_0_0_1 x i u) : (⟨S1024x64, .f32⟩ : BufTy).Contents (Elt F) → (⟨S100000x1, .i32⟩ : BufTy).Contents (Elt F) → (⟨S100000x64, .f32⟩ : BufTy).Contents (Elt F) → (⟨S1024x64, .f32⟩ : BufTy).Contents (Elt F)),
    nullary main_cst_11 (constant S_ .f32 0x3F800000#32),
    unary main_cst_11 main_v104 (broadcastInDim S100000x1 ![] bcast_S_S100000x1 : (⟨S_, .f32⟩ : BufTy).Contents (Elt F) → (⟨S100000x1, .f32⟩ : BufTy).Contents (Elt F)),
    nullary main_cst_12 (constant S_ .f32 0x00000000#32) ]

abbrev sC0 : List (HloOp τ sig (Elt F)) :=
  [ unary main_cst_12 main_v105 (broadcastInDim S1024x1 ![] bcast_S_S1024x1 : (⟨S_, .f32⟩ : BufTy).Contents (Elt F) → (⟨S1024x1, .f32⟩ : BufTy).Contents (Elt F)),
    unary main_arg2 main_v106 (broadcastInDim S100000x1 ![0] bcast_S100000_S100000x1_0 : (⟨S100000, .i32⟩ : BufTy).Contents (Elt F) → (⟨S100000x1, .i32⟩ : BufTy).Contents (Elt F)),
    ternary main_v105 main_v106 main_v104 main_v107 ((fun x i u => Host.scatterAdd scatter_S1024x1_S100000x1_S100000x1_1_0_0_1 x i u) : (⟨S1024x1, .f32⟩ : BufTy).Contents (Elt F) → (⟨S100000x1, .i32⟩ : BufTy).Contents (Elt F) → (⟨S100000x1, .f32⟩ : BufTy).Contents (Elt F) → (⟨S1024x1, .f32⟩ : BufTy).Contents (Elt F)),
    nullary main_cst_13 (constant S_ .f32 0x3F800000#32),
    unary main_cst_13 main_v108 (broadcastInDim S1024x1 ![] bcast_S_S1024x1 : (⟨S_, .f32⟩ : BufTy).Contents (Elt F) → (⟨S1024x1, .f32⟩ : BufTy).Contents (Elt F)),
    binary main_v107 main_v108 main_v109 (maximumf : (⟨S1024x1, .f32⟩ : BufTy).Contents (Elt F) → (⟨S1024x1, .f32⟩ : BufTy).Contents (Elt F) → (⟨S1024x1, .f32⟩ : BufTy).Contents (Elt F)),
    unary main_v109 main_v110 (broadcastInDim S1024x64 ![0, 1] bcast_S1024x1_S1024x64_0_1 : (⟨S1024x1, .f32⟩ : BufTy).Contents (Elt F) → (⟨S1024x64, .f32⟩ : BufTy).Contents (Elt F)),
    binary main_v103 main_v110 main_v111 (Host.divf : (⟨S1024x64, .f32⟩ : BufTy).Contents (Elt F) → (⟨S1024x64, .f32⟩ : BufTy).Contents (Elt F) → (⟨S1024x64, .f32⟩ : BufTy).Contents (Elt F)),
    binary main_v111 main_arg8 main_v112 ((fun l r => Host.dotGeneral dot_S1024x64_S64x72_S1024x72_1_0_0_1_n_n none l r) : (⟨S1024x64, .f32⟩ : BufTy).Contents (Elt F) → (⟨S64x72, .f32⟩ : BufTy).Contents (Elt F) → (⟨S1024x72, .f32⟩ : BufTy).Contents (Elt F)),
    unary main_arg9 main_v113 (broadcastInDim S1x72 ![1] bcast_S72_S1x72_1 : (⟨S72, .f32⟩ : BufTy).Contents (Elt F) → (⟨S1x72, .f32⟩ : BufTy).Contents (Elt F)),
    unary main_v113 main_v114 (broadcastInDim S1024x72 ![0, 1] bcast_S1x72_S1024x72_0_1 : (⟨S1x72, .f32⟩ : BufTy).Contents (Elt F) → (⟨S1024x72, .f32⟩ : BufTy).Contents (Elt F)),
    binary main_v112 main_v114 main_v115 (addf : (⟨S1024x72, .f32⟩ : BufTy).Contents (Elt F) → (⟨S1024x72, .f32⟩ : BufTy).Contents (Elt F) → (⟨S1024x72, .f32⟩ : BufTy).Contents (Elt F)),
    binary main_v115 main_arg10 main_v116 ((fun l r => Host.dotGeneral dot_S1024x72_S72x36_S1024x36_1_0_0_1_n_n none l r) : (⟨S1024x72, .f32⟩ : BufTy).Contents (Elt F) → (⟨S72x36, .f32⟩ : BufTy).Contents (Elt F) → (⟨S1024x36, .f32⟩ : BufTy).Contents (Elt F)),
    unary main_arg11 main_v117 (broadcastInDim S1x36 ![1] bcast_S36_S1x36_1 : (⟨S36, .f32⟩ : BufTy).Contents (Elt F) → (⟨S1x36, .f32⟩ : BufTy).Contents (Elt F)),
    unary main_v117 main_v118 (broadcastInDim S1024x36 ![0, 1] bcast_S1x36_S1024x36_0_1 : (⟨S1x36, .f32⟩ : BufTy).Contents (Elt F) → (⟨S1024x36, .f32⟩ : BufTy).Contents (Elt F)),
    binary main_v116 main_v118 main_v119 (addf : (⟨S1024x36, .f32⟩ : BufTy).Contents (Elt F) → (⟨S1024x36, .f32⟩ : BufTy).Contents (Elt F) → (⟨S1024x36, .f32⟩ : BufTy).Contents (Elt F)) ]

abbrev sC1 : List (HloOp τ sig (Elt F)) :=
  [ TRef.nullary main_call5.cst (constant S_ .f32 0x00000000#32),
    TRef.unary main_call5.cst main_call5.v0 (broadcastInDim S1024x36 ![] bcast_S_S1024x36),
    TRef.binary (.of main_v119 : TRef sig ⟨S1024x36, .f32⟩) main_call5.v0 main_call5.v1 (cmpf .oge),
    TRef.nullary main_call5.cst_0 (constant S_ .f32 0x3C23D70A#32),
    TRef.unary main_call5.cst_0 main_call5.v2 (broadcastInDim S1024x36 ![] bcast_S_S1024x36),
    TRef.binary main_call5.v2 (.of main_v119 : TRef sig ⟨S1024x36, .f32⟩) main_call5.v3 mulf,
    TRef.ternary main_call5.v1 (.of main_v119 : TRef sig ⟨S1024x36, .f32⟩) main_call5.v3 main_call5.call0.v0 select ]

abbrev sC2 : List (HloOp τ sig (Elt F)) :=
  [ binary main_v120 main_arg12 main_v121 ((fun l r => Host.dotGeneral dot_S1024x36_S36x1_S1024x1_1_0_0_1_n_n none l r) : (⟨S1024x36, .f32⟩ : BufTy).Contents (Elt F) → (⟨S36x1, .f32⟩ : BufTy).Contents (Elt F) → (⟨S1024x1, .f32⟩ : BufTy).Contents (Elt F)),
    unary main_arg13 main_v122 (broadcastInDim S1x1 ![1] bcast_S1_S1x1_1 : (⟨S1, .f32⟩ : BufTy).Contents (Elt F) → (⟨S1x1, .f32⟩ : BufTy).Contents (Elt F)),
    unary main_v122 main_v123 (broadcastInDim S1024x1 ![0, 1] bcast_S1x1_S1024x1_0_1 : (⟨S1x1, .f32⟩ : BufTy).Contents (Elt F) → (⟨S1024x1, .f32⟩ : BufTy).Contents (Elt F)),
    binary main_v121 main_v123 main_v124 (addf : (⟨S1024x1, .f32⟩ : BufTy).Contents (Elt F) → (⟨S1024x1, .f32⟩ : BufTy).Contents (Elt F) → (⟨S1024x1, .f32⟩ : BufTy).Contents (Elt F)) ]

abbrev ops_part0 : List (HloOp τ sig (Elt F)) := sA0 ++ (sA1 ++ (sA2))
abbrev ops_part1 : List (HloOp τ sig (Elt F)) := sB0 ++ (sB1 ++ (sB2 ++ (sB3)))
abbrev ops_part2 : List (HloOp τ sig (Elt F)) := sC0 ++ (sC1 ++ (sC2))

/-- The program's operations, in order: the calls' operations listed at the call sites. -/
abbrev ops : List (HloOp τ sig (Elt F)) := ops_part0 ++ (ops_part1 ++ ops_part2)

set_option maxRecDepth 8192 in
theorem main_part0_eq (c : Dev nD) : main_part0 (F := F) c = seq ops_part0 := by
  simp only [main_part0, fn_leaky_relu.body, fn_where.body, fn_leaky_relu_0.body, fn_where_1.body, bind_assoc, pure_bind]
  rfl
set_option maxRecDepth 8192 in
theorem main_part1_eq (c : Dev nD) : main_part1 (F := F) c = seq ops_part1 := by
  simp only [main_part1, fn_leaky_relu.body, fn_where.body, fn_leaky_relu_0.body, fn_where_1.body, bind_assoc, pure_bind]
  rfl
set_option maxRecDepth 8192 in
theorem main_part2_eq (c : Dev nD) : main_part2 (F := F) c = seq ops_part2 := by
  simp only [main_part2, fn_leaky_relu.body, fn_where.body, fn_leaky_relu_0.body, fn_where_1.body, bind_assoc, pure_bind]
  rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem sA0_sub : (sA0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem sA1_sub : (sA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem sA2_sub : (sA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩
set_option maxRecDepth 8192 in
theorem sB0_sub : (sB0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
set_option maxRecDepth 8192 in
theorem sB1_sub : (sB1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem sB2_sub : (sB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem sB3_sub : (sB3 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub ..⟩
set_option maxRecDepth 8192 in
theorem sC0_sub : (sC0 : List (HloOp τ sig (Elt F))).Forall fun op => op.bufs ⊆ tcRefs τ sig :=
  ⟨unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., unary_bufs_sub .., unary_bufs_sub .., binary_bufs_sub ..⟩
set_option maxRecDepth 8192 in
theorem sC1_sub : (sC1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
set_option maxRecDepth 8192 in
theorem sC2_sub : (sC2 : List (HloOp τ sig (Elt F))).Forall fun op => op.bufs ⊆ tcRefs τ sig :=
  ⟨binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, ops_part0, ops_part1, ops_part2, List.mem_append] at h
    rcases h with ((h | h | h) | (h | h | h | h) | (h | h | h))
    exacts [List.forall_iff_forall_mem.mp sA0_sub op h, List.forall_iff_forall_mem.mp sA1_sub op h, List.forall_iff_forall_mem.mp sA2_sub op h, List.forall_iff_forall_mem.mp sB0_sub op h, List.forall_iff_forall_mem.mp sB1_sub op h, List.forall_iff_forall_mem.mp sB2_sub op h, List.forall_iff_forall_mem.mp sB3_sub op h, List.forall_iff_forall_mem.mp sC0_sub op h, List.forall_iff_forall_mem.mp sC1_sub op h, List.forall_iff_forall_mem.mp sC2_sub op h]

/-! ## The run read back, stretch by stretch

The operations are read in ten stretches (the input projection; layer 0; layer 1 up to its sum; layer 1's
rectifier; layers 2 and 3; the pooled sums and the constants of the count; the head up to its hidden table, its
rectifier, its last dense stage). After each stretch the
buffers a later stretch reads are stated as functions of the launch contents `V0`: the node table after each
layer by name (`H0 … H4`), so that a layer's two uses of its input table stay one name. -/

/-- A device's buffer contents on the extended reals. -/
abbrev Vl := Valuation τ sig (Elt Ideal)

/-- One round of messages from the two rows of the edge list: the source row wrapped by the node count and made a
    column, the rows gathered at it, added into zeros at the target column. -/
def msgR (src dst : IVec S3200000 32) (H : FVec Ideal S100000x64 .f32) : FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (Host.gather gather_S100000x64_S3200000x1_S3200000x64_1_0_n_n_0_1_164 H
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- A dense update before its rectifier: H·Ws + M·Wn + B. -/
def preact (H M : FVec Ideal S100000x64 .f32) (Ws Wn : FVec Ideal S64x64 .f32) (B : FVec Ideal S1x64 .f32) : FVec Ideal S100000x64 .f32 :=
  addf (addf (Host.dotGeneral dot_S100000x64_S64x64_S100000x64_1_0_0_1_n_n none H Ws)
      (Host.dotGeneral dot_S100000x64_S64x64_S100000x64_1_0_0_1_n_n none M Wn))
    (broadcastInDim S100000x64 ![0, 1] bcast_S1x64_S100000x64_0_1 B)

/-- The node table after the input projection. -/
def H0 (V0 : Vl) : FVec Ideal S100000x64 .f32 := Cert.Spec.proj (V0 (Proc.devRef .tc main_arg0)) (V0 (Proc.devRef .tc main_arg3)) (Cert.Spec.row64 (V0 (Proc.devRef .tc main_arg4)))
/-- The node table after layer 0. -/
def H1 (V0 : Vl) : FVec Ideal S100000x64 .f32 := Cert.Spec.step ![0, 0, 0] slices_S4x64x64_S1x64x64_0_0_0 ![0, 0] slices_S4x64_S1x64_0_0 (V0 (Proc.devRef .tc main_arg1)) (V0 (Proc.devRef .tc main_arg5)) (V0 (Proc.devRef .tc main_arg6)) (V0 (Proc.devRef .tc main_arg7)) (H0 V0)
/-- Layer 1's sum before its rectifier. -/
def P1 (V0 : Vl) : FVec Ideal S100000x64 .f32 :=
  preact (H1 V0) (Cert.Spec.msg (H1 V0) (V0 (Proc.devRef .tc main_arg1))) (Cert.Spec.wAt ![1, 0, 0] slices_S4x64x64_S1x64x64_1_0_0 (V0 (Proc.devRef .tc main_arg5)))
    (Cert.Spec.wAt ![1, 0, 0] slices_S4x64x64_S1x64x64_1_0_0 (V0 (Proc.devRef .tc main_arg6))) (Cert.Spec.row64 (Cert.Spec.bAt ![1, 0] slices_S4x64_S1x64_1_0 (V0 (Proc.devRef .tc main_arg7))))
/-- The node table after layer 1. -/
def H2 (V0 : Vl) : FVec Ideal S100000x64 .f32 := Cert.Spec.step ![1, 0, 0] slices_S4x64x64_S1x64x64_1_0_0 ![1, 0] slices_S4x64_S1x64_1_0 (V0 (Proc.devRef .tc main_arg1)) (V0 (Proc.devRef .tc main_arg5)) (V0 (Proc.devRef .tc main_arg6)) (V0 (Proc.devRef .tc main_arg7)) (H1 V0)
/-- The node table after layer 2. -/
def H3 (V0 : Vl) : FVec Ideal S100000x64 .f32 := Cert.Spec.step ![2, 0, 0] slices_S4x64x64_S1x64x64_2_0_0 ![2, 0] slices_S4x64_S1x64_2_0 (V0 (Proc.devRef .tc main_arg1)) (V0 (Proc.devRef .tc main_arg5)) (V0 (Proc.devRef .tc main_arg6)) (V0 (Proc.devRef .tc main_arg7)) (H2 V0)
/-- The node table after layer 3. -/
def H4 (V0 : Vl) : FVec Ideal S100000x64 .f32 := Cert.Spec.step ![3, 0, 0] slices_S4x64x64_S1x64x64_3_0_0 ![3, 0] slices_S4x64_S1x64_3_0 (V0 (Proc.devRef .tc main_arg1)) (V0 (Proc.devRef .tc main_arg5)) (V0 (Proc.devRef .tc main_arg6)) (V0 (Proc.devRef .tc main_arg7)) (H3 V0)

/-- The head's hidden table before its rectifier: the mean per graph, the output projection, the first dense stage. -/
def hidden (sums : FVec Ideal S1024x64 .f32) (cnt : FVec Ideal S1024x1 .f32) (Wout : FVec Ideal S64x72 .f32) (bout : FVec Ideal S72 .f32)
    (W1 : FVec Ideal S72x36 .f32) (b1 : FVec Ideal S36 .f32) : FVec Ideal S1024x36 .f32 :=
  addf (Host.dotGeneral dot_S1024x72_S72x36_S1024x36_1_0_0_1_n_n none
      (addf (Host.dotGeneral dot_S1024x64_S64x72_S1024x72_1_0_0_1_n_n none
          (Host.divf sums (broadcastInDim S1024x64 ![0, 1] bcast_S1024x1_S1024x64_0_1
            (maximumf cnt (broadcastInDim S1024x1 ![] bcast_S_S1024x1 (constant (F := Ideal) S_ .f32 0x3F800000#32)))))
          Wout)
        (broadcastInDim S1024x72 ![0, 1] bcast_S1x72_S1024x72_0_1 (broadcastInDim S1x72 ![1] bcast_S72_S1x72_1 bout)))
      W1)
    (broadcastInDim S1024x36 ![0, 1] bcast_S1x36_S1024x36_0_1 (broadcastInDim S1x36 ![1] bcast_S36_S1x36_1 b1))

/-- The head's hidden table before its rectifier, of the launch contents. -/
def P5 (V0 : Vl) : FVec Ideal S1024x36 .f32 :=
  hidden (Cert.Spec.pool (H4 V0) (V0 (Proc.devRef .tc main_arg2))) (Cert.Spec.count (V0 (Proc.devRef .tc main_arg2))) (V0 (Proc.devRef .tc main_arg8)) (V0 (Proc.devRef .tc main_arg9)) (V0 (Proc.devRef .tc main_arg10)) (V0 (Proc.devRef .tc main_arg11))

/-- The device's buffer contents before the first stretch. -/
def val0 (V0 : Vl) : Vl := V0
theorem val0_main_arg0 (V0 : Vl) : val0 V0 (no_index (Proc.devRef .tc main_arg0)) = V0 (Proc.devRef .tc main_arg0) := rfl
theorem val0_main_arg1 (V0 : Vl) : val0 V0 (no_index (Proc.devRef .tc main_arg1)) = V0 (Proc.devRef .tc main_arg1) := rfl
theorem val0_main_arg2 (V0 : Vl) : val0 V0 (no_index (Proc.devRef .tc main_arg2)) = V0 (Proc.devRef .tc main_arg2) := rfl
theorem val0_main_arg3 (V0 : Vl) : val0 V0 (no_index (Proc.devRef .tc main_arg3)) = V0 (Proc.devRef .tc main_arg3) := rfl
theorem val0_main_arg4 (V0 : Vl) : val0 V0 (no_index (Proc.devRef .tc main_arg4)) = V0 (Proc.devRef .tc main_arg4) := rfl
theorem val0_main_arg5 (V0 : Vl) : val0 V0 (no_index (Proc.devRef .tc main_arg5)) = V0 (Proc.devRef .tc main_arg5) := rfl
theorem val0_main_arg6 (V0 : Vl) : val0 V0 (no_index (Proc.devRef .tc main_arg6)) = V0 (Proc.devRef .tc main_arg6) := rfl
theorem val0_main_arg7 (V0 : Vl) : val0 V0 (no_index (Proc.devRef .tc main_arg7)) = V0 (Proc.devRef .tc main_arg7) := rfl
theorem val0_main_arg8 (V0 : Vl) : val0 V0 (no_index (Proc.devRef .tc main_arg8)) = V0 (Proc.devRef .tc main_arg8) := rfl
theorem val0_main_arg9 (V0 : Vl) : val0 V0 (no_index (Proc.devRef .tc main_arg9)) = V0 (Proc.devRef .tc main_arg9) := rfl
theorem val0_main_arg10 (V0 : Vl) : val0 V0 (no_index (Proc.devRef .tc main_arg10)) = V0 (Proc.devRef .tc main_arg10) := rfl
theorem val0_main_arg11 (V0 : Vl) : val0 V0 (no_index (Proc.devRef .tc main_arg11)) = V0 (Proc.devRef .tc main_arg11) := rfl
theorem val0_main_arg12 (V0 : Vl) : val0 V0 (no_index (Proc.devRef .tc main_arg12)) = V0 (Proc.devRef .tc main_arg12) := rfl
theorem val0_main_arg13 (V0 : Vl) : val0 V0 (no_index (Proc.devRef .tc main_arg13)) = V0 (Proc.devRef .tc main_arg13) := rfl

/-- The device's buffer contents after the first 1 stretch. -/
def val1 (V0 : Vl) : Vl := after sA0 (val0 V0)
/-- The buffers that stretch `sA0`'s operations write. -/
abbrev sA0_W : List (Ref sig .tc) := [main_v0, main_v1, main_v2, main_v3, main_v4, main_v5, main_v6, main_v7, main_call0_cst, main_call0_v0, main_call0_v1, main_call0_cst_0, main_call0_v2, main_call0_v3, main_v8]
set_option maxRecDepth 8192 in
theorem sA0_writes : (sA0 : List (HloOp τ sig (Elt Ideal))).Forall fun op => op.writes ⊆ (sA0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sA0` does not write keeps its contents through it. -/
theorem val1_keep (V0 : Vl) (r : Ref sig .tc) (h : r ∉ sA0_W) :
    val1 V0 (Proc.devRef .tc r) = val0 V0 (Proc.devRef .tc r) :=
  after_of_writes_sub sA0 _ sA0_writes h
theorem val1_main_arg0 (V0 : Vl) : val1 V0 (no_index (Proc.devRef .tc main_arg0)) = V0 (Proc.devRef .tc main_arg0) :=
  (val1_keep V0 main_arg0 (by decide)).trans (val0_main_arg0 V0)
theorem val1_main_arg1 (V0 : Vl) : val1 V0 (no_index (Proc.devRef .tc main_arg1)) = V0 (Proc.devRef .tc main_arg1) :=
  (val1_keep V0 main_arg1 (by decide)).trans (val0_main_arg1 V0)
theorem val1_main_arg2 (V0 : Vl) : val1 V0 (no_index (Proc.devRef .tc main_arg2)) = V0 (Proc.devRef .tc main_arg2) :=
  (val1_keep V0 main_arg2 (by decide)).trans (val0_main_arg2 V0)
theorem val1_main_arg3 (V0 : Vl) : val1 V0 (no_index (Proc.devRef .tc main_arg3)) = V0 (Proc.devRef .tc main_arg3) :=
  (val1_keep V0 main_arg3 (by decide)).trans (val0_main_arg3 V0)
theorem val1_main_arg4 (V0 : Vl) : val1 V0 (no_index (Proc.devRef .tc main_arg4)) = V0 (Proc.devRef .tc main_arg4) :=
  (val1_keep V0 main_arg4 (by decide)).trans (val0_main_arg4 V0)
theorem val1_main_arg5 (V0 : Vl) : val1 V0 (no_index (Proc.devRef .tc main_arg5)) = V0 (Proc.devRef .tc main_arg5) :=
  (val1_keep V0 main_arg5 (by decide)).trans (val0_main_arg5 V0)
theorem val1_main_arg6 (V0 : Vl) : val1 V0 (no_index (Proc.devRef .tc main_arg6)) = V0 (Proc.devRef .tc main_arg6) :=
  (val1_keep V0 main_arg6 (by decide)).trans (val0_main_arg6 V0)
theorem val1_main_arg7 (V0 : Vl) : val1 V0 (no_index (Proc.devRef .tc main_arg7)) = V0 (Proc.devRef .tc main_arg7) :=
  (val1_keep V0 main_arg7 (by decide)).trans (val0_main_arg7 V0)
theorem val1_main_arg8 (V0 : Vl) : val1 V0 (no_index (Proc.devRef .tc main_arg8)) = V0 (Proc.devRef .tc main_arg8) :=
  (val1_keep V0 main_arg8 (by decide)).trans (val0_main_arg8 V0)
theorem val1_main_arg9 (V0 : Vl) : val1 V0 (no_index (Proc.devRef .tc main_arg9)) = V0 (Proc.devRef .tc main_arg9) :=
  (val1_keep V0 main_arg9 (by decide)).trans (val0_main_arg9 V0)
theorem val1_main_arg10 (V0 : Vl) : val1 V0 (no_index (Proc.devRef .tc main_arg10)) = V0 (Proc.devRef .tc main_arg10) :=
  (val1_keep V0 main_arg10 (by decide)).trans (val0_main_arg10 V0)
theorem val1_main_arg11 (V0 : Vl) : val1 V0 (no_index (Proc.devRef .tc main_arg11)) = V0 (Proc.devRef .tc main_arg11) :=
  (val1_keep V0 main_arg11 (by decide)).trans (val0_main_arg11 V0)
theorem val1_main_arg12 (V0 : Vl) : val1 V0 (no_index (Proc.devRef .tc main_arg12)) = V0 (Proc.devRef .tc main_arg12) :=
  (val1_keep V0 main_arg12 (by decide)).trans (val0_main_arg12 V0)
theorem val1_main_arg13 (V0 : Vl) : val1 V0 (no_index (Proc.devRef .tc main_arg13)) = V0 (Proc.devRef .tc main_arg13) :=
  (val1_keep V0 main_arg13 (by decide)).trans (val0_main_arg13 V0)
attribute [local irreducible] Host.gather Host.scatterAdd Host.divf in
set_option maxRecDepth 8192 in
set_option maxHeartbeats 2000000 in
theorem val1_main_v1 (V0 : Vl) : val1 V0 (no_index (Proc.devRef .tc main_v1)) = Cert.Spec.edgeRow ![0, 0] slices_S2x3200000_S1x3200000_0_0 (V0 (Proc.devRef .tc main_arg1)) := by
  unfold val1
  simp only [sA0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13] <;> rfl
attribute [local irreducible] Host.gather Host.scatterAdd Host.divf in
set_option maxRecDepth 8192 in
set_option maxHeartbeats 2000000 in
theorem val1_main_v3 (V0 : Vl) : val1 V0 (no_index (Proc.devRef .tc main_v3)) = Cert.Spec.edgeRow ![1, 0] slices_S2x3200000_S1x3200000_1_0 (V0 (Proc.devRef .tc main_arg1)) := by
  unfold val1
  simp only [sA0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13] <;> rfl
attribute [local irreducible] Host.gather Host.scatterAdd Host.divf in
set_option maxRecDepth 8192 in
set_option maxHeartbeats 2000000 in
theorem val1_main_v8 (V0 : Vl) : val1 V0 (no_index (Proc.devRef .tc main_v8)) = H0 V0 := by
  unfold val1
  simp only [sA0]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13] <;> rfl

/-- The device's buffer contents after the first 2 stretches. -/
def val2 (V0 : Vl) : Vl := after sA1 (val1 V0)
/-- The buffers that stretch `sA1`'s operations write. -/
abbrev sA1_W : List (Ref sig .tc) := [main_c, main_v9, main_v10, main_c_0, main_v11, main_v12, main_v13, main_v14, main_v15, main_cst, main_v16, main_v17, main_v18, main_v19, main_v20, main_v21, main_v22, main_v23, main_v24, main_v25, main_v26, main_v27, main_v28, main_v29, main_v30, main_call1_cst, main_call1_v0, main_call1_v1, main_call1_cst_0, main_call1_v2, main_call1_v3, main_v31]
set_option maxRecDepth 8192 in
theorem sA1_writes : (sA1 : List (HloOp τ sig (Elt Ideal))).Forall fun op => op.writes ⊆ (sA1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sA1` does not write keeps its contents through it. -/
theorem val2_keep (V0 : Vl) (r : Ref sig .tc) (h : r ∉ sA1_W) :
    val2 V0 (Proc.devRef .tc r) = val1 V0 (Proc.devRef .tc r) :=
  after_of_writes_sub sA1 _ sA1_writes h
theorem val2_main_arg0 (V0 : Vl) : val2 V0 (no_index (Proc.devRef .tc main_arg0)) = V0 (Proc.devRef .tc main_arg0) :=
  (val2_keep V0 main_arg0 (by decide)).trans (val1_main_arg0 V0)
theorem val2_main_arg1 (V0 : Vl) : val2 V0 (no_index (Proc.devRef .tc main_arg1)) = V0 (Proc.devRef .tc main_arg1) :=
  (val2_keep V0 main_arg1 (by decide)).trans (val1_main_arg1 V0)
theorem val2_main_arg2 (V0 : Vl) : val2 V0 (no_index (Proc.devRef .tc main_arg2)) = V0 (Proc.devRef .tc main_arg2) :=
  (val2_keep V0 main_arg2 (by decide)).trans (val1_main_arg2 V0)
theorem val2_main_arg3 (V0 : Vl) : val2 V0 (no_index (Proc.devRef .tc main_arg3)) = V0 (Proc.devRef .tc main_arg3) :=
  (val2_keep V0 main_arg3 (by decide)).trans (val1_main_arg3 V0)
theorem val2_main_arg4 (V0 : Vl) : val2 V0 (no_index (Proc.devRef .tc main_arg4)) = V0 (Proc.devRef .tc main_arg4) :=
  (val2_keep V0 main_arg4 (by decide)).trans (val1_main_arg4 V0)
theorem val2_main_arg5 (V0 : Vl) : val2 V0 (no_index (Proc.devRef .tc main_arg5)) = V0 (Proc.devRef .tc main_arg5) :=
  (val2_keep V0 main_arg5 (by decide)).trans (val1_main_arg5 V0)
theorem val2_main_arg6 (V0 : Vl) : val2 V0 (no_index (Proc.devRef .tc main_arg6)) = V0 (Proc.devRef .tc main_arg6) :=
  (val2_keep V0 main_arg6 (by decide)).trans (val1_main_arg6 V0)
theorem val2_main_arg7 (V0 : Vl) : val2 V0 (no_index (Proc.devRef .tc main_arg7)) = V0 (Proc.devRef .tc main_arg7) :=
  (val2_keep V0 main_arg7 (by decide)).trans (val1_main_arg7 V0)
theorem val2_main_arg8 (V0 : Vl) : val2 V0 (no_index (Proc.devRef .tc main_arg8)) = V0 (Proc.devRef .tc main_arg8) :=
  (val2_keep V0 main_arg8 (by decide)).trans (val1_main_arg8 V0)
theorem val2_main_arg9 (V0 : Vl) : val2 V0 (no_index (Proc.devRef .tc main_arg9)) = V0 (Proc.devRef .tc main_arg9) :=
  (val2_keep V0 main_arg9 (by decide)).trans (val1_main_arg9 V0)
theorem val2_main_arg10 (V0 : Vl) : val2 V0 (no_index (Proc.devRef .tc main_arg10)) = V0 (Proc.devRef .tc main_arg10) :=
  (val2_keep V0 main_arg10 (by decide)).trans (val1_main_arg10 V0)
theorem val2_main_arg11 (V0 : Vl) : val2 V0 (no_index (Proc.devRef .tc main_arg11)) = V0 (Proc.devRef .tc main_arg11) :=
  (val2_keep V0 main_arg11 (by decide)).trans (val1_main_arg11 V0)
theorem val2_main_arg12 (V0 : Vl) : val2 V0 (no_index (Proc.devRef .tc main_arg12)) = V0 (Proc.devRef .tc main_arg12) :=
  (val2_keep V0 main_arg12 (by decide)).trans (val1_main_arg12 V0)
theorem val2_main_arg13 (V0 : Vl) : val2 V0 (no_index (Proc.devRef .tc main_arg13)) = V0 (Proc.devRef .tc main_arg13) :=
  (val2_keep V0 main_arg13 (by decide)).trans (val1_main_arg13 V0)
theorem val2_main_v1 (V0 : Vl) : val2 V0 (no_index (Proc.devRef .tc main_v1)) = Cert.Spec.edgeRow ![0, 0] slices_S2x3200000_S1x3200000_0_0 (V0 (Proc.devRef .tc main_arg1)) :=
  (val2_keep V0 main_v1 (by decide)).trans (val1_main_v1 V0)
theorem val2_main_v3 (V0 : Vl) : val2 V0 (no_index (Proc.devRef .tc main_v3)) = Cert.Spec.edgeRow ![1, 0] slices_S2x3200000_S1x3200000_1_0 (V0 (Proc.devRef .tc main_arg1)) :=
  (val2_keep V0 main_v3 (by decide)).trans (val1_main_v3 V0)
attribute [local irreducible] Host.gather Host.scatterAdd Host.divf in
set_option maxRecDepth 8192 in
set_option maxHeartbeats 2000000 in
theorem val2_main_v31 (V0 : Vl) : val2 V0 (no_index (Proc.devRef .tc main_v31)) = H1 V0 := by
  unfold val2
  simp only [sA1]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_arg13, val1_main_v1, val1_main_v3, val1_main_v8] <;> rfl

/-- The device's buffer contents after the first 3 stretches. -/
def val3 (V0 : Vl) : Vl := after sA2 (val2 V0)
/-- The buffers that stretch `sA2`'s operations write. -/
abbrev sA2_W : List (Ref sig .tc) := [main_c_1, main_v32, main_v33, main_c_2, main_v34, main_v35, main_v36, main_v37, main_v38, main_cst_3, main_v39, main_v40, main_v41, main_v42, main_v43, main_v44, main_v45, main_v46, main_v47, main_v48, main_v49, main_v50, main_v51, main_v52, main_v53]
set_option maxRecDepth 8192 in
theorem sA2_writes : (sA2 : List (HloOp τ sig (Elt Ideal))).Forall fun op => op.writes ⊆ (sA2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sA2` does not write keeps its contents through it. -/
theorem val3_keep (V0 : Vl) (r : Ref sig .tc) (h : r ∉ sA2_W) :
    val3 V0 (Proc.devRef .tc r) = val2 V0 (Proc.devRef .tc r) :=
  after_of_writes_sub sA2 _ sA2_writes h
theorem val3_main_arg0 (V0 : Vl) : val3 V0 (no_index (Proc.devRef .tc main_arg0)) = V0 (Proc.devRef .tc main_arg0) :=
  (val3_keep V0 main_arg0 (by decide)).trans (val2_main_arg0 V0)
theorem val3_main_arg1 (V0 : Vl) : val3 V0 (no_index (Proc.devRef .tc main_arg1)) = V0 (Proc.devRef .tc main_arg1) :=
  (val3_keep V0 main_arg1 (by decide)).trans (val2_main_arg1 V0)
theorem val3_main_arg2 (V0 : Vl) : val3 V0 (no_index (Proc.devRef .tc main_arg2)) = V0 (Proc.devRef .tc main_arg2) :=
  (val3_keep V0 main_arg2 (by decide)).trans (val2_main_arg2 V0)
theorem val3_main_arg3 (V0 : Vl) : val3 V0 (no_index (Proc.devRef .tc main_arg3)) = V0 (Proc.devRef .tc main_arg3) :=
  (val3_keep V0 main_arg3 (by decide)).trans (val2_main_arg3 V0)
theorem val3_main_arg4 (V0 : Vl) : val3 V0 (no_index (Proc.devRef .tc main_arg4)) = V0 (Proc.devRef .tc main_arg4) :=
  (val3_keep V0 main_arg4 (by decide)).trans (val2_main_arg4 V0)
theorem val3_main_arg5 (V0 : Vl) : val3 V0 (no_index (Proc.devRef .tc main_arg5)) = V0 (Proc.devRef .tc main_arg5) :=
  (val3_keep V0 main_arg5 (by decide)).trans (val2_main_arg5 V0)
theorem val3_main_arg6 (V0 : Vl) : val3 V0 (no_index (Proc.devRef .tc main_arg6)) = V0 (Proc.devRef .tc main_arg6) :=
  (val3_keep V0 main_arg6 (by decide)).trans (val2_main_arg6 V0)
theorem val3_main_arg7 (V0 : Vl) : val3 V0 (no_index (Proc.devRef .tc main_arg7)) = V0 (Proc.devRef .tc main_arg7) :=
  (val3_keep V0 main_arg7 (by decide)).trans (val2_main_arg7 V0)
theorem val3_main_arg8 (V0 : Vl) : val3 V0 (no_index (Proc.devRef .tc main_arg8)) = V0 (Proc.devRef .tc main_arg8) :=
  (val3_keep V0 main_arg8 (by decide)).trans (val2_main_arg8 V0)
theorem val3_main_arg9 (V0 : Vl) : val3 V0 (no_index (Proc.devRef .tc main_arg9)) = V0 (Proc.devRef .tc main_arg9) :=
  (val3_keep V0 main_arg9 (by decide)).trans (val2_main_arg9 V0)
theorem val3_main_arg10 (V0 : Vl) : val3 V0 (no_index (Proc.devRef .tc main_arg10)) = V0 (Proc.devRef .tc main_arg10) :=
  (val3_keep V0 main_arg10 (by decide)).trans (val2_main_arg10 V0)
theorem val3_main_arg11 (V0 : Vl) : val3 V0 (no_index (Proc.devRef .tc main_arg11)) = V0 (Proc.devRef .tc main_arg11) :=
  (val3_keep V0 main_arg11 (by decide)).trans (val2_main_arg11 V0)
theorem val3_main_arg12 (V0 : Vl) : val3 V0 (no_index (Proc.devRef .tc main_arg12)) = V0 (Proc.devRef .tc main_arg12) :=
  (val3_keep V0 main_arg12 (by decide)).trans (val2_main_arg12 V0)
theorem val3_main_arg13 (V0 : Vl) : val3 V0 (no_index (Proc.devRef .tc main_arg13)) = V0 (Proc.devRef .tc main_arg13) :=
  (val3_keep V0 main_arg13 (by decide)).trans (val2_main_arg13 V0)
theorem val3_main_v1 (V0 : Vl) : val3 V0 (no_index (Proc.devRef .tc main_v1)) = Cert.Spec.edgeRow ![0, 0] slices_S2x3200000_S1x3200000_0_0 (V0 (Proc.devRef .tc main_arg1)) :=
  (val3_keep V0 main_v1 (by decide)).trans (val2_main_v1 V0)
theorem val3_main_v3 (V0 : Vl) : val3 V0 (no_index (Proc.devRef .tc main_v3)) = Cert.Spec.edgeRow ![1, 0] slices_S2x3200000_S1x3200000_1_0 (V0 (Proc.devRef .tc main_arg1)) :=
  (val3_keep V0 main_v3 (by decide)).trans (val2_main_v3 V0)
attribute [local irreducible] Host.gather Host.scatterAdd Host.divf in
set_option maxRecDepth 8192 in
set_option maxHeartbeats 2000000 in
theorem val3_main_v53 (V0 : Vl) : val3 V0 (no_index (Proc.devRef .tc main_v53)) = P1 V0 := by
  unfold val3
  simp only [sA2]
  after_results_simp
  simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_arg13, val2_main_v1, val2_main_v3, val2_main_v31] <;> rfl

/-- The device's buffer contents after the first 4 stretches. -/
def val4 (V0 : Vl) : Vl := after sB0 (val3 V0)
/-- The buffers that stretch `sB0`'s operations write. -/
abbrev sB0_W : List (Ref sig .tc) := [main_call2_cst, main_call2_v0, main_call2_v1, main_call2_cst_0, main_call2_v2, main_call2_v3, main_v54]
set_option maxRecDepth 8192 in
theorem sB0_writes : (sB0 : List (HloOp τ sig (Elt Ideal))).Forall fun op => op.writes ⊆ (sB0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sB0` does not write keeps its contents through it. -/
theorem val4_keep (V0 : Vl) (r : Ref sig .tc) (h : r ∉ sB0_W) :
    val4 V0 (Proc.devRef .tc r) = val3 V0 (Proc.devRef .tc r) :=
  after_of_writes_sub sB0 _ sB0_writes h
theorem val4_main_arg0 (V0 : Vl) : val4 V0 (no_index (Proc.devRef .tc main_arg0)) = V0 (Proc.devRef .tc main_arg0) :=
  (val4_keep V0 main_arg0 (by decide)).trans (val3_main_arg0 V0)
theorem val4_main_arg1 (V0 : Vl) : val4 V0 (no_index (Proc.devRef .tc main_arg1)) = V0 (Proc.devRef .tc main_arg1) :=
  (val4_keep V0 main_arg1 (by decide)).trans (val3_main_arg1 V0)
theorem val4_main_arg2 (V0 : Vl) : val4 V0 (no_index (Proc.devRef .tc main_arg2)) = V0 (Proc.devRef .tc main_arg2) :=
  (val4_keep V0 main_arg2 (by decide)).trans (val3_main_arg2 V0)
theorem val4_main_arg3 (V0 : Vl) : val4 V0 (no_index (Proc.devRef .tc main_arg3)) = V0 (Proc.devRef .tc main_arg3) :=
  (val4_keep V0 main_arg3 (by decide)).trans (val3_main_arg3 V0)
theorem val4_main_arg4 (V0 : Vl) : val4 V0 (no_index (Proc.devRef .tc main_arg4)) = V0 (Proc.devRef .tc main_arg4) :=
  (val4_keep V0 main_arg4 (by decide)).trans (val3_main_arg4 V0)
theorem val4_main_arg5 (V0 : Vl) : val4 V0 (no_index (Proc.devRef .tc main_arg5)) = V0 (Proc.devRef .tc main_arg5) :=
  (val4_keep V0 main_arg5 (by decide)).trans (val3_main_arg5 V0)
theorem val4_main_arg6 (V0 : Vl) : val4 V0 (no_index (Proc.devRef .tc main_arg6)) = V0 (Proc.devRef .tc main_arg6) :=
  (val4_keep V0 main_arg6 (by decide)).trans (val3_main_arg6 V0)
theorem val4_main_arg7 (V0 : Vl) : val4 V0 (no_index (Proc.devRef .tc main_arg7)) = V0 (Proc.devRef .tc main_arg7) :=
  (val4_keep V0 main_arg7 (by decide)).trans (val3_main_arg7 V0)
theorem val4_main_arg8 (V0 : Vl) : val4 V0 (no_index (Proc.devRef .tc main_arg8)) = V0 (Proc.devRef .tc main_arg8) :=
  (val4_keep V0 main_arg8 (by decide)).trans (val3_main_arg8 V0)
theorem val4_main_arg9 (V0 : Vl) : val4 V0 (no_index (Proc.devRef .tc main_arg9)) = V0 (Proc.devRef .tc main_arg9) :=
  (val4_keep V0 main_arg9 (by decide)).trans (val3_main_arg9 V0)
theorem val4_main_arg10 (V0 : Vl) : val4 V0 (no_index (Proc.devRef .tc main_arg10)) = V0 (Proc.devRef .tc main_arg10) :=
  (val4_keep V0 main_arg10 (by decide)).trans (val3_main_arg10 V0)
theorem val4_main_arg11 (V0 : Vl) : val4 V0 (no_index (Proc.devRef .tc main_arg11)) = V0 (Proc.devRef .tc main_arg11) :=
  (val4_keep V0 main_arg11 (by decide)).trans (val3_main_arg11 V0)
theorem val4_main_arg12 (V0 : Vl) : val4 V0 (no_index (Proc.devRef .tc main_arg12)) = V0 (Proc.devRef .tc main_arg12) :=
  (val4_keep V0 main_arg12 (by decide)).trans (val3_main_arg12 V0)
theorem val4_main_arg13 (V0 : Vl) : val4 V0 (no_index (Proc.devRef .tc main_arg13)) = V0 (Proc.devRef .tc main_arg13) :=
  (val4_keep V0 main_arg13 (by decide)).trans (val3_main_arg13 V0)
theorem val4_main_v1 (V0 : Vl) : val4 V0 (no_index (Proc.devRef .tc main_v1)) = Cert.Spec.edgeRow ![0, 0] slices_S2x3200000_S1x3200000_0_0 (V0 (Proc.devRef .tc main_arg1)) :=
  (val4_keep V0 main_v1 (by decide)).trans (val3_main_v1 V0)
theorem val4_main_v3 (V0 : Vl) : val4 V0 (no_index (Proc.devRef .tc main_v3)) = Cert.Spec.edgeRow ![1, 0] slices_S2x3200000_S1x3200000_1_0 (V0 (Proc.devRef .tc main_arg1)) :=
  (val4_keep V0 main_v3 (by decide)).trans (val3_main_v3 V0)
attribute [local irreducible] Host.gather Host.scatterAdd Host.divf in
set_option maxRecDepth 8192 in
set_option maxHeartbeats 2000000 in
theorem val4_main_v54 (V0 : Vl) : val4 V0 (no_index (Proc.devRef .tc main_v54)) = H2 V0 := by
  unfold val4
  simp only [sB0]
  after_results_simp
  simp only [val3_main_arg0, val3_main_arg1, val3_main_arg2, val3_main_arg3, val3_main_arg4, val3_main_arg5, val3_main_arg6, val3_main_arg7, val3_main_arg8, val3_main_arg9, val3_main_arg10, val3_main_arg11, val3_main_arg12, val3_main_arg13, val3_main_v1, val3_main_v3, val3_main_v53] <;> rfl

/-- The device's buffer contents after the first 5 stretches. -/
def val5 (V0 : Vl) : Vl := after sB1 (val4 V0)
/-- The buffers that stretch `sB1`'s operations write. -/
abbrev sB1_W : List (Ref sig .tc) := [main_c_4, main_v55, main_v56, main_c_5, main_v57, main_v58, main_v59, main_v60, main_v61, main_cst_6, main_v62, main_v63, main_v64, main_v65, main_v66, main_v67, main_v68, main_v69, main_v70, main_v71, main_v72, main_v73, main_v74, main_v75, main_v76, main_call3_cst, main_call3_v0, main_call3_v1, main_call3_cst_0, main_call3_v2, main_call3_v3, main_v77]
set_option maxRecDepth 8192 in
theorem sB1_writes : (sB1 : List (HloOp τ sig (Elt Ideal))).Forall fun op => op.writes ⊆ (sB1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sB1` does not write keeps its contents through it. -/
theorem val5_keep (V0 : Vl) (r : Ref sig .tc) (h : r ∉ sB1_W) :
    val5 V0 (Proc.devRef .tc r) = val4 V0 (Proc.devRef .tc r) :=
  after_of_writes_sub sB1 _ sB1_writes h
theorem val5_main_arg0 (V0 : Vl) : val5 V0 (no_index (Proc.devRef .tc main_arg0)) = V0 (Proc.devRef .tc main_arg0) :=
  (val5_keep V0 main_arg0 (by decide)).trans (val4_main_arg0 V0)
theorem val5_main_arg1 (V0 : Vl) : val5 V0 (no_index (Proc.devRef .tc main_arg1)) = V0 (Proc.devRef .tc main_arg1) :=
  (val5_keep V0 main_arg1 (by decide)).trans (val4_main_arg1 V0)
theorem val5_main_arg2 (V0 : Vl) : val5 V0 (no_index (Proc.devRef .tc main_arg2)) = V0 (Proc.devRef .tc main_arg2) :=
  (val5_keep V0 main_arg2 (by decide)).trans (val4_main_arg2 V0)
theorem val5_main_arg3 (V0 : Vl) : val5 V0 (no_index (Proc.devRef .tc main_arg3)) = V0 (Proc.devRef .tc main_arg3) :=
  (val5_keep V0 main_arg3 (by decide)).trans (val4_main_arg3 V0)
theorem val5_main_arg4 (V0 : Vl) : val5 V0 (no_index (Proc.devRef .tc main_arg4)) = V0 (Proc.devRef .tc main_arg4) :=
  (val5_keep V0 main_arg4 (by decide)).trans (val4_main_arg4 V0)
theorem val5_main_arg5 (V0 : Vl) : val5 V0 (no_index (Proc.devRef .tc main_arg5)) = V0 (Proc.devRef .tc main_arg5) :=
  (val5_keep V0 main_arg5 (by decide)).trans (val4_main_arg5 V0)
theorem val5_main_arg6 (V0 : Vl) : val5 V0 (no_index (Proc.devRef .tc main_arg6)) = V0 (Proc.devRef .tc main_arg6) :=
  (val5_keep V0 main_arg6 (by decide)).trans (val4_main_arg6 V0)
theorem val5_main_arg7 (V0 : Vl) : val5 V0 (no_index (Proc.devRef .tc main_arg7)) = V0 (Proc.devRef .tc main_arg7) :=
  (val5_keep V0 main_arg7 (by decide)).trans (val4_main_arg7 V0)
theorem val5_main_arg8 (V0 : Vl) : val5 V0 (no_index (Proc.devRef .tc main_arg8)) = V0 (Proc.devRef .tc main_arg8) :=
  (val5_keep V0 main_arg8 (by decide)).trans (val4_main_arg8 V0)
theorem val5_main_arg9 (V0 : Vl) : val5 V0 (no_index (Proc.devRef .tc main_arg9)) = V0 (Proc.devRef .tc main_arg9) :=
  (val5_keep V0 main_arg9 (by decide)).trans (val4_main_arg9 V0)
theorem val5_main_arg10 (V0 : Vl) : val5 V0 (no_index (Proc.devRef .tc main_arg10)) = V0 (Proc.devRef .tc main_arg10) :=
  (val5_keep V0 main_arg10 (by decide)).trans (val4_main_arg10 V0)
theorem val5_main_arg11 (V0 : Vl) : val5 V0 (no_index (Proc.devRef .tc main_arg11)) = V0 (Proc.devRef .tc main_arg11) :=
  (val5_keep V0 main_arg11 (by decide)).trans (val4_main_arg11 V0)
theorem val5_main_arg12 (V0 : Vl) : val5 V0 (no_index (Proc.devRef .tc main_arg12)) = V0 (Proc.devRef .tc main_arg12) :=
  (val5_keep V0 main_arg12 (by decide)).trans (val4_main_arg12 V0)
theorem val5_main_arg13 (V0 : Vl) : val5 V0 (no_index (Proc.devRef .tc main_arg13)) = V0 (Proc.devRef .tc main_arg13) :=
  (val5_keep V0 main_arg13 (by decide)).trans (val4_main_arg13 V0)
theorem val5_main_v1 (V0 : Vl) : val5 V0 (no_index (Proc.devRef .tc main_v1)) = Cert.Spec.edgeRow ![0, 0] slices_S2x3200000_S1x3200000_0_0 (V0 (Proc.devRef .tc main_arg1)) :=
  (val5_keep V0 main_v1 (by decide)).trans (val4_main_v1 V0)
theorem val5_main_v3 (V0 : Vl) : val5 V0 (no_index (Proc.devRef .tc main_v3)) = Cert.Spec.edgeRow ![1, 0] slices_S2x3200000_S1x3200000_1_0 (V0 (Proc.devRef .tc main_arg1)) :=
  (val5_keep V0 main_v3 (by decide)).trans (val4_main_v3 V0)
attribute [local irreducible] Host.gather Host.scatterAdd Host.divf in
set_option maxRecDepth 8192 in
set_option maxHeartbeats 2000000 in
theorem val5_main_v77 (V0 : Vl) : val5 V0 (no_index (Proc.devRef .tc main_v77)) = H3 V0 := by
  unfold val5
  simp only [sB1]
  after_results_simp
  simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_arg13, val4_main_v1, val4_main_v3, val4_main_v54] <;> rfl

/-- The device's buffer contents after the first 6 stretches. -/
def val6 (V0 : Vl) : Vl := after sB2 (val5 V0)
/-- The buffers that stretch `sB2`'s operations write. -/
abbrev sB2_W : List (Ref sig .tc) := [main_c_7, main_v78, main_v79, main_c_8, main_v80, main_v81, main_v82, main_v83, main_v84, main_cst_9, main_v85, main_v86, main_v87, main_v88, main_v89, main_v90, main_v91, main_v92, main_v93, main_v94, main_v95, main_v96, main_v97, main_v98, main_v99, main_call4_cst, main_call4_v0, main_call4_v1, main_call4_cst_0, main_call4_v2, main_call4_v3, main_v100]
set_option maxRecDepth 8192 in
theorem sB2_writes : (sB2 : List (HloOp τ sig (Elt Ideal))).Forall fun op => op.writes ⊆ (sB2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sB2` does not write keeps its contents through it. -/
theorem val6_keep (V0 : Vl) (r : Ref sig .tc) (h : r ∉ sB2_W) :
    val6 V0 (Proc.devRef .tc r) = val5 V0 (Proc.devRef .tc r) :=
  after_of_writes_sub sB2 _ sB2_writes h
theorem val6_main_arg0 (V0 : Vl) : val6 V0 (no_index (Proc.devRef .tc main_arg0)) = V0 (Proc.devRef .tc main_arg0) :=
  (val6_keep V0 main_arg0 (by decide)).trans (val5_main_arg0 V0)
theorem val6_main_arg1 (V0 : Vl) : val6 V0 (no_index (Proc.devRef .tc main_arg1)) = V0 (Proc.devRef .tc main_arg1) :=
  (val6_keep V0 main_arg1 (by decide)).trans (val5_main_arg1 V0)
theorem val6_main_arg2 (V0 : Vl) : val6 V0 (no_index (Proc.devRef .tc main_arg2)) = V0 (Proc.devRef .tc main_arg2) :=
  (val6_keep V0 main_arg2 (by decide)).trans (val5_main_arg2 V0)
theorem val6_main_arg3 (V0 : Vl) : val6 V0 (no_index (Proc.devRef .tc main_arg3)) = V0 (Proc.devRef .tc main_arg3) :=
  (val6_keep V0 main_arg3 (by decide)).trans (val5_main_arg3 V0)
theorem val6_main_arg4 (V0 : Vl) : val6 V0 (no_index (Proc.devRef .tc main_arg4)) = V0 (Proc.devRef .tc main_arg4) :=
  (val6_keep V0 main_arg4 (by decide)).trans (val5_main_arg4 V0)
theorem val6_main_arg5 (V0 : Vl) : val6 V0 (no_index (Proc.devRef .tc main_arg5)) = V0 (Proc.devRef .tc main_arg5) :=
  (val6_keep V0 main_arg5 (by decide)).trans (val5_main_arg5 V0)
theorem val6_main_arg6 (V0 : Vl) : val6 V0 (no_index (Proc.devRef .tc main_arg6)) = V0 (Proc.devRef .tc main_arg6) :=
  (val6_keep V0 main_arg6 (by decide)).trans (val5_main_arg6 V0)
theorem val6_main_arg7 (V0 : Vl) : val6 V0 (no_index (Proc.devRef .tc main_arg7)) = V0 (Proc.devRef .tc main_arg7) :=
  (val6_keep V0 main_arg7 (by decide)).trans (val5_main_arg7 V0)
theorem val6_main_arg8 (V0 : Vl) : val6 V0 (no_index (Proc.devRef .tc main_arg8)) = V0 (Proc.devRef .tc main_arg8) :=
  (val6_keep V0 main_arg8 (by decide)).trans (val5_main_arg8 V0)
theorem val6_main_arg9 (V0 : Vl) : val6 V0 (no_index (Proc.devRef .tc main_arg9)) = V0 (Proc.devRef .tc main_arg9) :=
  (val6_keep V0 main_arg9 (by decide)).trans (val5_main_arg9 V0)
theorem val6_main_arg10 (V0 : Vl) : val6 V0 (no_index (Proc.devRef .tc main_arg10)) = V0 (Proc.devRef .tc main_arg10) :=
  (val6_keep V0 main_arg10 (by decide)).trans (val5_main_arg10 V0)
theorem val6_main_arg11 (V0 : Vl) : val6 V0 (no_index (Proc.devRef .tc main_arg11)) = V0 (Proc.devRef .tc main_arg11) :=
  (val6_keep V0 main_arg11 (by decide)).trans (val5_main_arg11 V0)
theorem val6_main_arg12 (V0 : Vl) : val6 V0 (no_index (Proc.devRef .tc main_arg12)) = V0 (Proc.devRef .tc main_arg12) :=
  (val6_keep V0 main_arg12 (by decide)).trans (val5_main_arg12 V0)
theorem val6_main_arg13 (V0 : Vl) : val6 V0 (no_index (Proc.devRef .tc main_arg13)) = V0 (Proc.devRef .tc main_arg13) :=
  (val6_keep V0 main_arg13 (by decide)).trans (val5_main_arg13 V0)
attribute [local irreducible] Host.gather Host.scatterAdd Host.divf in
set_option maxRecDepth 8192 in
set_option maxHeartbeats 2000000 in
theorem val6_main_v100 (V0 : Vl) : val6 V0 (no_index (Proc.devRef .tc main_v100)) = H4 V0 := by
  unfold val6
  simp only [sB2]
  after_results_simp
  simp only [val5_main_arg0, val5_main_arg1, val5_main_arg2, val5_main_arg3, val5_main_arg4, val5_main_arg5, val5_main_arg6, val5_main_arg7, val5_main_arg8, val5_main_arg9, val5_main_arg10, val5_main_arg11, val5_main_arg12, val5_main_arg13, val5_main_v1, val5_main_v3, val5_main_v77] <;> rfl

/-- The device's buffer contents after the first 7 stretches. -/
def val7 (V0 : Vl) : Vl := after sB3 (val6 V0)
/-- The buffers that stretch `sB3`'s operations write. -/
abbrev sB3_W : List (Ref sig .tc) := [main_cst_10, main_v101, main_v102, main_v103, main_cst_11, main_v104, main_cst_12]
set_option maxRecDepth 8192 in
theorem sB3_writes : (sB3 : List (HloOp τ sig (Elt Ideal))).Forall fun op => op.writes ⊆ (sB3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sB3` does not write keeps its contents through it. -/
theorem val7_keep (V0 : Vl) (r : Ref sig .tc) (h : r ∉ sB3_W) :
    val7 V0 (Proc.devRef .tc r) = val6 V0 (Proc.devRef .tc r) :=
  after_of_writes_sub sB3 _ sB3_writes h
theorem val7_main_arg0 (V0 : Vl) : val7 V0 (no_index (Proc.devRef .tc main_arg0)) = V0 (Proc.devRef .tc main_arg0) :=
  (val7_keep V0 main_arg0 (by decide)).trans (val6_main_arg0 V0)
theorem val7_main_arg1 (V0 : Vl) : val7 V0 (no_index (Proc.devRef .tc main_arg1)) = V0 (Proc.devRef .tc main_arg1) :=
  (val7_keep V0 main_arg1 (by decide)).trans (val6_main_arg1 V0)
theorem val7_main_arg2 (V0 : Vl) : val7 V0 (no_index (Proc.devRef .tc main_arg2)) = V0 (Proc.devRef .tc main_arg2) :=
  (val7_keep V0 main_arg2 (by decide)).trans (val6_main_arg2 V0)
theorem val7_main_arg3 (V0 : Vl) : val7 V0 (no_index (Proc.devRef .tc main_arg3)) = V0 (Proc.devRef .tc main_arg3) :=
  (val7_keep V0 main_arg3 (by decide)).trans (val6_main_arg3 V0)
theorem val7_main_arg4 (V0 : Vl) : val7 V0 (no_index (Proc.devRef .tc main_arg4)) = V0 (Proc.devRef .tc main_arg4) :=
  (val7_keep V0 main_arg4 (by decide)).trans (val6_main_arg4 V0)
theorem val7_main_arg5 (V0 : Vl) : val7 V0 (no_index (Proc.devRef .tc main_arg5)) = V0 (Proc.devRef .tc main_arg5) :=
  (val7_keep V0 main_arg5 (by decide)).trans (val6_main_arg5 V0)
theorem val7_main_arg6 (V0 : Vl) : val7 V0 (no_index (Proc.devRef .tc main_arg6)) = V0 (Proc.devRef .tc main_arg6) :=
  (val7_keep V0 main_arg6 (by decide)).trans (val6_main_arg6 V0)
theorem val7_main_arg7 (V0 : Vl) : val7 V0 (no_index (Proc.devRef .tc main_arg7)) = V0 (Proc.devRef .tc main_arg7) :=
  (val7_keep V0 main_arg7 (by decide)).trans (val6_main_arg7 V0)
theorem val7_main_arg8 (V0 : Vl) : val7 V0 (no_index (Proc.devRef .tc main_arg8)) = V0 (Proc.devRef .tc main_arg8) :=
  (val7_keep V0 main_arg8 (by decide)).trans (val6_main_arg8 V0)
theorem val7_main_arg9 (V0 : Vl) : val7 V0 (no_index (Proc.devRef .tc main_arg9)) = V0 (Proc.devRef .tc main_arg9) :=
  (val7_keep V0 main_arg9 (by decide)).trans (val6_main_arg9 V0)
theorem val7_main_arg10 (V0 : Vl) : val7 V0 (no_index (Proc.devRef .tc main_arg10)) = V0 (Proc.devRef .tc main_arg10) :=
  (val7_keep V0 main_arg10 (by decide)).trans (val6_main_arg10 V0)
theorem val7_main_arg11 (V0 : Vl) : val7 V0 (no_index (Proc.devRef .tc main_arg11)) = V0 (Proc.devRef .tc main_arg11) :=
  (val7_keep V0 main_arg11 (by decide)).trans (val6_main_arg11 V0)
theorem val7_main_arg12 (V0 : Vl) : val7 V0 (no_index (Proc.devRef .tc main_arg12)) = V0 (Proc.devRef .tc main_arg12) :=
  (val7_keep V0 main_arg12 (by decide)).trans (val6_main_arg12 V0)
theorem val7_main_arg13 (V0 : Vl) : val7 V0 (no_index (Proc.devRef .tc main_arg13)) = V0 (Proc.devRef .tc main_arg13) :=
  (val7_keep V0 main_arg13 (by decide)).trans (val6_main_arg13 V0)
attribute [local irreducible] Host.gather Host.scatterAdd Host.divf in
set_option maxRecDepth 8192 in
set_option maxHeartbeats 2000000 in
theorem val7_main_v103 (V0 : Vl) : val7 V0 (no_index (Proc.devRef .tc main_v103)) = Cert.Spec.pool (H4 V0) (V0 (Proc.devRef .tc main_arg2)) := by
  unfold val7
  simp only [sB3]
  after_results_simp
  simp only [val6_main_arg0, val6_main_arg1, val6_main_arg2, val6_main_arg3, val6_main_arg4, val6_main_arg5, val6_main_arg6, val6_main_arg7, val6_main_arg8, val6_main_arg9, val6_main_arg10, val6_main_arg11, val6_main_arg12, val6_main_arg13, val6_main_v100] <;> rfl
attribute [local irreducible] Host.gather Host.scatterAdd Host.divf in
set_option maxRecDepth 8192 in
set_option maxHeartbeats 2000000 in
theorem val7_main_v104 (V0 : Vl) : val7 V0 (no_index (Proc.devRef .tc main_v104)) = broadcastInDim S100000x1 ![] bcast_S_S100000x1 (constant (F := Ideal) S_ .f32 0x3F800000#32) := by
  unfold val7
  simp only [sB3]
  after_results_simp
attribute [local irreducible] Host.gather Host.scatterAdd Host.divf in
set_option maxRecDepth 8192 in
set_option maxHeartbeats 2000000 in
theorem val7_main_cst_12 (V0 : Vl) : val7 V0 (no_index (Proc.devRef .tc main_cst_12)) = constant (F := Ideal) S_ .f32 0x00000000#32 := by
  unfold val7
  simp only [sB3]
  after_results_simp

/-- The device's buffer contents after the first 8 stretches. -/
def val8 (V0 : Vl) : Vl := after sC0 (val7 V0)
/-- The buffers that stretch `sC0`'s operations write. -/
abbrev sC0_W : List (Ref sig .tc) := [main_v105, main_v106, main_v107, main_cst_13, main_v108, main_v109, main_v110, main_v111, main_v112, main_v113, main_v114, main_v115, main_v116, main_v117, main_v118, main_v119]
set_option maxRecDepth 8192 in
theorem sC0_writes : (sC0 : List (HloOp τ sig (Elt Ideal))).Forall fun op => op.writes ⊆ (sC0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sC0` does not write keeps its contents through it. -/
theorem val8_keep (V0 : Vl) (r : Ref sig .tc) (h : r ∉ sC0_W) :
    val8 V0 (Proc.devRef .tc r) = val7 V0 (Proc.devRef .tc r) :=
  after_of_writes_sub sC0 _ sC0_writes h
theorem val8_main_arg0 (V0 : Vl) : val8 V0 (no_index (Proc.devRef .tc main_arg0)) = V0 (Proc.devRef .tc main_arg0) :=
  (val8_keep V0 main_arg0 (by decide)).trans (val7_main_arg0 V0)
theorem val8_main_arg1 (V0 : Vl) : val8 V0 (no_index (Proc.devRef .tc main_arg1)) = V0 (Proc.devRef .tc main_arg1) :=
  (val8_keep V0 main_arg1 (by decide)).trans (val7_main_arg1 V0)
theorem val8_main_arg2 (V0 : Vl) : val8 V0 (no_index (Proc.devRef .tc main_arg2)) = V0 (Proc.devRef .tc main_arg2) :=
  (val8_keep V0 main_arg2 (by decide)).trans (val7_main_arg2 V0)
theorem val8_main_arg3 (V0 : Vl) : val8 V0 (no_index (Proc.devRef .tc main_arg3)) = V0 (Proc.devRef .tc main_arg3) :=
  (val8_keep V0 main_arg3 (by decide)).trans (val7_main_arg3 V0)
theorem val8_main_arg4 (V0 : Vl) : val8 V0 (no_index (Proc.devRef .tc main_arg4)) = V0 (Proc.devRef .tc main_arg4) :=
  (val8_keep V0 main_arg4 (by decide)).trans (val7_main_arg4 V0)
theorem val8_main_arg5 (V0 : Vl) : val8 V0 (no_index (Proc.devRef .tc main_arg5)) = V0 (Proc.devRef .tc main_arg5) :=
  (val8_keep V0 main_arg5 (by decide)).trans (val7_main_arg5 V0)
theorem val8_main_arg6 (V0 : Vl) : val8 V0 (no_index (Proc.devRef .tc main_arg6)) = V0 (Proc.devRef .tc main_arg6) :=
  (val8_keep V0 main_arg6 (by decide)).trans (val7_main_arg6 V0)
theorem val8_main_arg7 (V0 : Vl) : val8 V0 (no_index (Proc.devRef .tc main_arg7)) = V0 (Proc.devRef .tc main_arg7) :=
  (val8_keep V0 main_arg7 (by decide)).trans (val7_main_arg7 V0)
theorem val8_main_arg8 (V0 : Vl) : val8 V0 (no_index (Proc.devRef .tc main_arg8)) = V0 (Proc.devRef .tc main_arg8) :=
  (val8_keep V0 main_arg8 (by decide)).trans (val7_main_arg8 V0)
theorem val8_main_arg9 (V0 : Vl) : val8 V0 (no_index (Proc.devRef .tc main_arg9)) = V0 (Proc.devRef .tc main_arg9) :=
  (val8_keep V0 main_arg9 (by decide)).trans (val7_main_arg9 V0)
theorem val8_main_arg10 (V0 : Vl) : val8 V0 (no_index (Proc.devRef .tc main_arg10)) = V0 (Proc.devRef .tc main_arg10) :=
  (val8_keep V0 main_arg10 (by decide)).trans (val7_main_arg10 V0)
theorem val8_main_arg11 (V0 : Vl) : val8 V0 (no_index (Proc.devRef .tc main_arg11)) = V0 (Proc.devRef .tc main_arg11) :=
  (val8_keep V0 main_arg11 (by decide)).trans (val7_main_arg11 V0)
theorem val8_main_arg12 (V0 : Vl) : val8 V0 (no_index (Proc.devRef .tc main_arg12)) = V0 (Proc.devRef .tc main_arg12) :=
  (val8_keep V0 main_arg12 (by decide)).trans (val7_main_arg12 V0)
theorem val8_main_arg13 (V0 : Vl) : val8 V0 (no_index (Proc.devRef .tc main_arg13)) = V0 (Proc.devRef .tc main_arg13) :=
  (val8_keep V0 main_arg13 (by decide)).trans (val7_main_arg13 V0)
attribute [local irreducible] Host.gather Host.scatterAdd Host.divf in
set_option maxRecDepth 8192 in
set_option maxHeartbeats 2000000 in
theorem val8_main_v119 (V0 : Vl) : val8 V0 (no_index (Proc.devRef .tc main_v119)) = P5 V0 := by
  unfold val8
  simp only [sC0]
  after_results_simp
  simp only [val7_main_arg0, val7_main_arg1, val7_main_arg2, val7_main_arg3, val7_main_arg4, val7_main_arg5, val7_main_arg6, val7_main_arg7, val7_main_arg8, val7_main_arg9, val7_main_arg10, val7_main_arg11, val7_main_arg12, val7_main_arg13, val7_main_v103, val7_main_v104, val7_main_cst_12] <;> rfl

/-- The device's buffer contents after the first 9 stretches. -/
def val9 (V0 : Vl) : Vl := after sC1 (val8 V0)
/-- The buffers that stretch `sC1`'s operations write. -/
abbrev sC1_W : List (Ref sig .tc) := [main_call5_cst, main_call5_v0, main_call5_v1, main_call5_cst_0, main_call5_v2, main_call5_v3, main_v120]
set_option maxRecDepth 8192 in
theorem sC1_writes : (sC1 : List (HloOp τ sig (Elt Ideal))).Forall fun op => op.writes ⊆ (sC1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sC1` does not write keeps its contents through it. -/
theorem val9_keep (V0 : Vl) (r : Ref sig .tc) (h : r ∉ sC1_W) :
    val9 V0 (Proc.devRef .tc r) = val8 V0 (Proc.devRef .tc r) :=
  after_of_writes_sub sC1 _ sC1_writes h
theorem val9_main_arg0 (V0 : Vl) : val9 V0 (no_index (Proc.devRef .tc main_arg0)) = V0 (Proc.devRef .tc main_arg0) :=
  (val9_keep V0 main_arg0 (by decide)).trans (val8_main_arg0 V0)
theorem val9_main_arg1 (V0 : Vl) : val9 V0 (no_index (Proc.devRef .tc main_arg1)) = V0 (Proc.devRef .tc main_arg1) :=
  (val9_keep V0 main_arg1 (by decide)).trans (val8_main_arg1 V0)
theorem val9_main_arg2 (V0 : Vl) : val9 V0 (no_index (Proc.devRef .tc main_arg2)) = V0 (Proc.devRef .tc main_arg2) :=
  (val9_keep V0 main_arg2 (by decide)).trans (val8_main_arg2 V0)
theorem val9_main_arg3 (V0 : Vl) : val9 V0 (no_index (Proc.devRef .tc main_arg3)) = V0 (Proc.devRef .tc main_arg3) :=
  (val9_keep V0 main_arg3 (by decide)).trans (val8_main_arg3 V0)
theorem val9_main_arg4 (V0 : Vl) : val9 V0 (no_index (Proc.devRef .tc main_arg4)) = V0 (Proc.devRef .tc main_arg4) :=
  (val9_keep V0 main_arg4 (by decide)).trans (val8_main_arg4 V0)
theorem val9_main_arg5 (V0 : Vl) : val9 V0 (no_index (Proc.devRef .tc main_arg5)) = V0 (Proc.devRef .tc main_arg5) :=
  (val9_keep V0 main_arg5 (by decide)).trans (val8_main_arg5 V0)
theorem val9_main_arg6 (V0 : Vl) : val9 V0 (no_index (Proc.devRef .tc main_arg6)) = V0 (Proc.devRef .tc main_arg6) :=
  (val9_keep V0 main_arg6 (by decide)).trans (val8_main_arg6 V0)
theorem val9_main_arg7 (V0 : Vl) : val9 V0 (no_index (Proc.devRef .tc main_arg7)) = V0 (Proc.devRef .tc main_arg7) :=
  (val9_keep V0 main_arg7 (by decide)).trans (val8_main_arg7 V0)
theorem val9_main_arg8 (V0 : Vl) : val9 V0 (no_index (Proc.devRef .tc main_arg8)) = V0 (Proc.devRef .tc main_arg8) :=
  (val9_keep V0 main_arg8 (by decide)).trans (val8_main_arg8 V0)
theorem val9_main_arg9 (V0 : Vl) : val9 V0 (no_index (Proc.devRef .tc main_arg9)) = V0 (Proc.devRef .tc main_arg9) :=
  (val9_keep V0 main_arg9 (by decide)).trans (val8_main_arg9 V0)
theorem val9_main_arg10 (V0 : Vl) : val9 V0 (no_index (Proc.devRef .tc main_arg10)) = V0 (Proc.devRef .tc main_arg10) :=
  (val9_keep V0 main_arg10 (by decide)).trans (val8_main_arg10 V0)
theorem val9_main_arg11 (V0 : Vl) : val9 V0 (no_index (Proc.devRef .tc main_arg11)) = V0 (Proc.devRef .tc main_arg11) :=
  (val9_keep V0 main_arg11 (by decide)).trans (val8_main_arg11 V0)
theorem val9_main_arg12 (V0 : Vl) : val9 V0 (no_index (Proc.devRef .tc main_arg12)) = V0 (Proc.devRef .tc main_arg12) :=
  (val9_keep V0 main_arg12 (by decide)).trans (val8_main_arg12 V0)
theorem val9_main_arg13 (V0 : Vl) : val9 V0 (no_index (Proc.devRef .tc main_arg13)) = V0 (Proc.devRef .tc main_arg13) :=
  (val9_keep V0 main_arg13 (by decide)).trans (val8_main_arg13 V0)
attribute [local irreducible] Host.gather Host.scatterAdd Host.divf in
set_option maxRecDepth 8192 in
set_option maxHeartbeats 2000000 in
theorem val9_main_v120 (V0 : Vl) : val9 V0 (no_index (Proc.devRef .tc main_v120)) = Cert.Spec.leaky36 (P5 V0) := by
  unfold val9
  simp only [sC1]
  after_results_simp
  simp only [val8_main_arg0, val8_main_arg1, val8_main_arg2, val8_main_arg3, val8_main_arg4, val8_main_arg5, val8_main_arg6, val8_main_arg7, val8_main_arg8, val8_main_arg9, val8_main_arg10, val8_main_arg11, val8_main_arg12, val8_main_arg13, val8_main_v119] <;> rfl

/-- The device's buffer contents after the first 10 stretches. -/
def val10 (V0 : Vl) : Vl := after sC2 (val9 V0)
/-- The buffers that stretch `sC2`'s operations write. -/
abbrev sC2_W : List (Ref sig .tc) := [main_v121, main_v122, main_v123, main_v124]
set_option maxRecDepth 8192 in
theorem sC2_writes : (sC2 : List (HloOp τ sig (Elt Ideal))).Forall fun op => op.writes ⊆ (sC2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `sC2` does not write keeps its contents through it. -/
theorem val10_keep (V0 : Vl) (r : Ref sig .tc) (h : r ∉ sC2_W) :
    val10 V0 (Proc.devRef .tc r) = val9 V0 (Proc.devRef .tc r) :=
  after_of_writes_sub sC2 _ sC2_writes h
theorem val10_main_arg0 (V0 : Vl) : val10 V0 (no_index (Proc.devRef .tc main_arg0)) = V0 (Proc.devRef .tc main_arg0) :=
  (val10_keep V0 main_arg0 (by decide)).trans (val9_main_arg0 V0)
theorem val10_main_arg1 (V0 : Vl) : val10 V0 (no_index (Proc.devRef .tc main_arg1)) = V0 (Proc.devRef .tc main_arg1) :=
  (val10_keep V0 main_arg1 (by decide)).trans (val9_main_arg1 V0)
theorem val10_main_arg2 (V0 : Vl) : val10 V0 (no_index (Proc.devRef .tc main_arg2)) = V0 (Proc.devRef .tc main_arg2) :=
  (val10_keep V0 main_arg2 (by decide)).trans (val9_main_arg2 V0)
theorem val10_main_arg3 (V0 : Vl) : val10 V0 (no_index (Proc.devRef .tc main_arg3)) = V0 (Proc.devRef .tc main_arg3) :=
  (val10_keep V0 main_arg3 (by decide)).trans (val9_main_arg3 V0)
theorem val10_main_arg4 (V0 : Vl) : val10 V0 (no_index (Proc.devRef .tc main_arg4)) = V0 (Proc.devRef .tc main_arg4) :=
  (val10_keep V0 main_arg4 (by decide)).trans (val9_main_arg4 V0)
theorem val10_main_arg5 (V0 : Vl) : val10 V0 (no_index (Proc.devRef .tc main_arg5)) = V0 (Proc.devRef .tc main_arg5) :=
  (val10_keep V0 main_arg5 (by decide)).trans (val9_main_arg5 V0)
theorem val10_main_arg6 (V0 : Vl) : val10 V0 (no_index (Proc.devRef .tc main_arg6)) = V0 (Proc.devRef .tc main_arg6) :=
  (val10_keep V0 main_arg6 (by decide)).trans (val9_main_arg6 V0)
theorem val10_main_arg7 (V0 : Vl) : val10 V0 (no_index (Proc.devRef .tc main_arg7)) = V0 (Proc.devRef .tc main_arg7) :=
  (val10_keep V0 main_arg7 (by decide)).trans (val9_main_arg7 V0)
theorem val10_main_arg8 (V0 : Vl) : val10 V0 (no_index (Proc.devRef .tc main_arg8)) = V0 (Proc.devRef .tc main_arg8) :=
  (val10_keep V0 main_arg8 (by decide)).trans (val9_main_arg8 V0)
theorem val10_main_arg9 (V0 : Vl) : val10 V0 (no_index (Proc.devRef .tc main_arg9)) = V0 (Proc.devRef .tc main_arg9) :=
  (val10_keep V0 main_arg9 (by decide)).trans (val9_main_arg9 V0)
theorem val10_main_arg10 (V0 : Vl) : val10 V0 (no_index (Proc.devRef .tc main_arg10)) = V0 (Proc.devRef .tc main_arg10) :=
  (val10_keep V0 main_arg10 (by decide)).trans (val9_main_arg10 V0)
theorem val10_main_arg11 (V0 : Vl) : val10 V0 (no_index (Proc.devRef .tc main_arg11)) = V0 (Proc.devRef .tc main_arg11) :=
  (val10_keep V0 main_arg11 (by decide)).trans (val9_main_arg11 V0)
theorem val10_main_arg12 (V0 : Vl) : val10 V0 (no_index (Proc.devRef .tc main_arg12)) = V0 (Proc.devRef .tc main_arg12) :=
  (val10_keep V0 main_arg12 (by decide)).trans (val9_main_arg12 V0)
theorem val10_main_arg13 (V0 : Vl) : val10 V0 (no_index (Proc.devRef .tc main_arg13)) = V0 (Proc.devRef .tc main_arg13) :=
  (val10_keep V0 main_arg13 (by decide)).trans (val9_main_arg13 V0)
attribute [local irreducible] Host.gather Host.scatterAdd Host.divf in
set_option maxRecDepth 8192 in
set_option maxHeartbeats 2000000 in
theorem val10_main_v124 (V0 : Vl) : val10 V0 (no_index (Proc.devRef .tc main_v124)) = Cert.Spec.net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val10
  simp only [sC2]
  after_results_simp
  simp only [val9_main_arg0, val9_main_arg1, val9_main_arg2, val9_main_arg3, val9_main_arg4, val9_main_arg5, val9_main_arg6, val9_main_arg7, val9_main_arg8, val9_main_arg9, val9_main_arg10, val9_main_arg11, val9_main_arg12, val9_main_arg13, val9_main_v120] <;> rfl

/-- The fold over two lists in a row is the second's over the first's. -/
theorem after_app : ∀ (l₁ l₂ : List (HloOp τ sig (Elt Ideal))) (V : Vl), after (l₁ ++ l₂) V = after l₂ (after l₁ V)
  | [], _, _ => rfl
  | op :: l₁, l₂, V => by rw [List.cons_append, after_cons, after_cons, after_app l₁ l₂]

/-- The whole list's fold is the stretches' folds in order. -/
theorem after_ops (V0 : Vl) : after ops V0 = val10 V0 := by
  simp only [ops, ops_part0, ops_part1, ops_part2, after_app]
  rfl

set_option maxRecDepth 8192 in
/-- On every device, from any memory with zero counters: every weakly fair execution of @main terminates with the
    result buffer at the network of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v124) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v124).trans (by simp only [after_ops]; exact val10_main_v124 (launchContents m c)),
      (h c main_arg0).trans (by simp only [after_ops]; exact val10_main_arg0 (launchContents m c)),
      (h c main_arg1).trans (by simp only [after_ops]; exact val10_main_arg1 (launchContents m c)),
      (h c main_arg2).trans (by simp only [after_ops]; exact val10_main_arg2 (launchContents m c)),
      (h c main_arg3).trans (by simp only [after_ops]; exact val10_main_arg3 (launchContents m c)),
      (h c main_arg4).trans (by simp only [after_ops]; exact val10_main_arg4 (launchContents m c)),
      (h c main_arg5).trans (by simp only [after_ops]; exact val10_main_arg5 (launchContents m c)),
      (h c main_arg6).trans (by simp only [after_ops]; exact val10_main_arg6 (launchContents m c)),
      (h c main_arg7).trans (by simp only [after_ops]; exact val10_main_arg7 (launchContents m c)),
      (h c main_arg8).trans (by simp only [after_ops]; exact val10_main_arg8 (launchContents m c)),
      (h c main_arg9).trans (by simp only [after_ops]; exact val10_main_arg9 (launchContents m c)),
      (h c main_arg10).trans (by simp only [after_ops]; exact val10_main_arg10 (launchContents m c)),
      (h c main_arg11).trans (by simp only [after_ops]; exact val10_main_arg11 (launchContents m c)),
      (h c main_arg12).trans (by simp only [after_ops]; exact val10_main_arg12 (launchContents m c)),
      (h c main_arg13).trans (by simp only [after_ops]; exact val10_main_arg13 (launchContents m c))⟩)
    (run_seq scopedRefs_eq scopedSems_eq defs main (fun _ => ops) main_eq (fun _ => ops_sub) m ρ)

end Cert.RefRun

end
-- ==== Proof.lean ====
/-
  The five claims for a graph network run as six tiled kernels against its plain formulation.
  Both programs compute, on the extended reals, the same composition: project the node features (a matrix product, a bias, a
  leaky rectifier); four times, add every edge's source row into its target row and update the node table densely
  (two matrix products, a bias, the rectifier); sum the node rows and count the nodes per graph; divide, project, and run
  a two-stage head. The kernels compute each dense stage on blocks of 10000 rows: a block of rows of a matrix product is
  the product of the block of rows, and everything else in a stage acts row by row, so the blocks of a stage's output are
  the blocks of the whole-array stage; the gathers, scatter-adds and slices between the kernels are the reference's own
  operations. No law of arithmetic is needed beyond that, and no finiteness: the precondition is never opened.
  The kernel programs' frames are the generated ones; the reference's frame is its run with the result dropped.
-/
import proofs.«127333_j31559419691459_1_alg».proof.Defs
import proofs.«127333_j31559419691459_1_alg».proof.Proof.Gen.Kernel
import proofs.«127333_j31559419691459_1_alg».proof.Proof.Gen.Kernel.Skeleton
import proofs.«127333_j31559419691459_1_alg».proof.Proof.Gen.Kernel.Launch
import proofs.«127333_j31559419691459_1_alg».proof.Proof.Gen.Kernel.Points
import proofs.«127333_j31559419691459_1_alg».proof.Proof.Gen.Kernel.Frame
import proofs.«127333_j31559419691459_1_alg».proof.Proof.Gen.KernelIdeal
import proofs.«127333_j31559419691459_1_alg».proof.Proof.Gen.KernelIdeal.Skeleton
import proofs.«127333_j31559419691459_1_alg».proof.Proof.Gen.KernelIdeal.Launch
import proofs.«127333_j31559419691459_1_alg».proof.Proof.Gen.KernelIdeal.Points
import proofs.«127333_j31559419691459_1_alg».proof.Proof.Gen.KernelIdeal.Frame
import proofs.«127333_j31559419691459_1_alg».proof.Proof.Gen.ReferenceIdeal
import proofs.«127333_j31559419691459_1_alg».proof.Proof.Gen.Pre_finite_inputs
import Idealize.ShloMosaic.Adequacy
import Idealize.ShloMosaic.Init
import proofs.«127333_j31559419691459_1_alg».proof.Proof.KernelPost
import proofs.«127333_j31559419691459_1_alg».proof.Proof.KernelNet
import proofs.«127333_j31559419691459_1_alg».proof.Proof.Region0
import proofs.«127333_j31559419691459_1_alg».proof.Proof.Region1
import proofs.«127333_j31559419691459_1_alg».proof.Proof.Region2
import proofs.«127333_j31559419691459_1_alg».proof.Proof.Region3
import proofs.«127333_j31559419691459_1_alg».proof.Proof.Region4
import proofs.«127333_j31559419691459_1_alg».proof.Proof.Region5
import proofs.«127333_j31559419691459_1_alg».proof.Proof.RefRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.RefRun.run m ρ)

/-- Both idealized programs end with the network of their (agreeing) arguments in the result buffer. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩) (Cert.KernelIdeal.KRun.run_named m ρ)
    exact (Cert.KernelIdeal.KChain.w12_v88 m ρ c Cert.KRegion.arr0 Cert.KRegion.arr1 Cert.KRegion.arr2 Cert.KRegion.arr3
      Cert.KRegion.arr4 Cert.KRegion.arr5).trans (Cert.KernelIdeal.KChain.kernelNet_eq m c)
  · refine (θ_run Cert.ReferenceIdeal.defs _ _).mono (fun r h c => ⟨(h c).1.trans ?_, (h c).2⟩) (Cert.RefRun.run m' ρ')
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
